-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x8192 : Shape := ⟨2, ![8192, 8192]⟩
abbrev S256x256 : Shape := ⟨2, ![256, 256]⟩
abbrev S256 : Shape := ⟨1, ![256]⟩
abbrev S_ : Shape := ⟨0, ![]⟩
abbrev S8192 : Shape := ⟨1, ![8192]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_

variable [Facts]

def fn_part1 {F : FTy → Type} [FloatOps F] (main_arg1 : FVec F S8192x8192 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_cst_6 : FVec F S_ .f32 := constant S_ .f32 0x00000000#32
  let main_v19 : FVec F S8192 .f32 := (fun x v => Host.reduceAdd x v reducesTo_S8192x8192_S8192_d1 h_S_) main_arg1 main_cst_6
  let main_cst_7 : FVec F S_ .f32 := constant S_ .f32 0x3F800000#32
  let main_v20 : FVec F S8192 .f32 := broadcastInDim S8192 ![] bcast_S_S8192 main_cst_7
  let main_v21 : FVec F S8192 .f32 := addf main_v19 main_v20
  let main_cst_8 : FVec F S_ .f32 := constant S_ .f32 0x00000000#32
  let main_v22 : FVec F S8192 .f32 := broadcastInDim S8192 ![] bcast_S_S8192 main_cst_8
  let main_v23 : IVec S8192 1 := cmpf .ogt main_v21 main_v22
  let main_c_9 : IVec S_ 1 := constantI S_ 1 1#1
  let main_v24 : IVec S_ 1 := (fun x v => Host.reduce IntOp.andi x v reducesTo_S8192_S_d0 h_S_) main_v23 main_c_9
  let main_v25 : IVec S_ 1 := andi main_v18 main_v24
  main_v25

def fn {F : FTy → Type} [FloatOps F] (main_arg0 : FVec F S8192x256 .f32) (main_arg1 : FVec F S8192x8192 .f32) (main_arg2 : FVec F S256x256 .f32) (main_arg3 : FVec F S256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg1 main_v13 main_v16
-- ==== Kernel.lean ====
abbrev S8192x256 : Shape := ⟨2, ![8192, 256]⟩
abbrev S8192x8192 : Shape := ⟨2, ![8192, 8192]⟩
abbrev S256x256 : Shape := ⟨2, ![256, 256]⟩
abbrev S256 : Shape := ⟨1, ![256]⟩
abbrev S8192x1 : Shape := ⟨2, ![8192, 1]⟩
abbrev S1024x1024 : Shape := ⟨2, ![1024, 1024]⟩
abbrev S1024x1 : Shape := ⟨2, ![1024, 1]⟩
abbrev S1024 : Shape := ⟨1, ![1024]⟩
abbrev S1x256 : Shape := ⟨2, ![1, 256]⟩
abbrev S1024x2048 : Shape := ⟨2, ![1024, 2048]⟩
abbrev S2048x256 : Shape := ⟨2, ![2048, 256]⟩
abbrev S1024x256 : Shape := ⟨2, ![1024, 256]⟩

abbrev nBuf : Space → Nat
  | .hbm => 11
  | .vmem => 18
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S256x256, .f32⟩
  | .hbm, ⟨3, _⟩ => ⟨S256, .f32⟩
  | .hbm, ⟨4, _⟩ => ⟨S8192x1, .f32⟩
  | .hbm, ⟨5, _⟩ => ⟨S8192x256, .f32⟩
  | .hbm, ⟨6, _⟩ => ⟨S8192x256, .f32⟩
  | .hbm, ⟨7, _⟩ => ⟨S8192x256, .bf16⟩
  | .hbm, ⟨8, _⟩ => ⟨S256x256, .bf16⟩
  | .hbm, ⟨9, _⟩ => ⟨S1x256, .f32⟩
  | .hbm, ⟨10, _⟩ => ⟨S8192x256, .f32⟩
  | .local _ .vmem, ⟨0, _⟩ => ⟨S1024x1024, .f32⟩
  | .local _ .vmem, ⟨1, _⟩ => ⟨S1024x1024, .f32⟩
  | .local _ .vmem, ⟨2, _⟩ => ⟨S1024x1, .f32⟩
  | .local _ .vmem, ⟨3, _⟩ => ⟨S1024x1, .f32⟩
  | .local _ .vmem, ⟨4, _⟩ => ⟨S1024x1, .f32⟩
  | .local _ .vmem, ⟨5, _⟩ => ⟨S1024x2048, .f32⟩
  | .local _ .vmem, ⟨6, _⟩ => ⟨S1024x2048, .f32⟩
  | .local _ .vmem, ⟨7, _⟩ => ⟨S2048x256, .bf16⟩
  | .local _ .vmem, ⟨8, _⟩ => ⟨S2048x256, .bf16⟩
  | .local _ .vmem, ⟨9, _⟩ => ⟨S1024x256, .f32⟩
  | .local _ .vmem, ⟨10, _⟩ => ⟨S1024x256, .f32⟩
  | .local _ .vmem, ⟨11, _⟩ => ⟨S1024x1, .f32⟩
  | .local _ .vmem, ⟨12, _⟩ => ⟨S1024x1, .f32⟩
  | .local _ .vmem, ⟨13, _⟩ => ⟨S256x256, .bf16⟩
  | .local _ .vmem, ⟨14, _⟩ => ⟨S1x256, .f32⟩
  | .local _ .vmem, ⟨15, _⟩ => ⟨S1024x256, .f32⟩
  | .local _ .vmem, ⟨16, _⟩ => ⟨S1024x256, .f32⟩
  | .local _ .vmem, ⟨17, _⟩ => ⟨S1024x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem5_0 : DmaSem sig := 13
abbrev cc1_sem6_0 : DmaSem sig := 14
abbrev cc1_sem6_1 : DmaSem sig := 15

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![8, 4], ![false, false]⟩

def k1_cond2 (i : grid1.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S256x256 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1024x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

class Facts₀ : Prop where
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  bcast_S8192x1_S8192x256_0_1 : S8192x1.BroadcastsInDim S8192x256 (![0, 1] : Fin 2 → Fin S8192x256.rank)
  bitsLt_bf16_f32 : FTy.bits .bf16 < FTy.bits .f32
  shapeCasts_S256_S1x256 : S256.ShapeCasts S1x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x2048_S1024x2048_0_0 : ∀ a, (![0, 0] : Fin 2 → Nat) a + S1024x2048.size a ≤ S1024x2048.size a
  h_S1024x2048 : 0 < S1024x2048.numel
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  broadcasts_S1024x1_S1024x256 : S1024x1.Broadcasts S1024x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  dot_S1024x2048_S2048x256_S1024x256_1_0_0_1_n_n_wf : DotDims.WF S1024x2048 S2048x256 S1024x256 [1] [0] [0] [1] [] []
  dot_S1024x256_S256x256_S1024x256_1_0_0_1_n_n_wf : DotDims.WF S1024x256 S256x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x8192.size a
  hwx0_0 : ∀ i : grid0.Coords, EltTy.bits .f32 = 32 ∨ (Rect.block (s := S8192x8192) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S8192x1.size a
  hwx0_1 : ∀ i : grid0.Coords, EltTy.bits .f32 = 32 ∨ (Rect.block (s := S8192x1) S1024x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x8192.size a
  hwx1_0 : ∀ i : grid1.Coords, EltTy.bits .f32 = 32 ∨ (Rect.block (s := S8192x8192) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S8192x256.size a
  hwx1_1 : ∀ i : grid1.Coords, EltTy.bits .bf16 = 32 ∨ (Rect.block (s := S8192x256) S2048x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x256.size a ≤ S8192x256.size a
  hwx1_2 : ∀ i : grid1.Coords, EltTy.bits .f32 = 32 ∨ (Rect.block (s := S8192x256) S1024x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1.size a ≤ S8192x1.size a
  hwx1_3 : ∀ i : grid1.Coords, EltTy.bits .f32 = 32 ∨ (Rect.block (s := S8192x1) S1024x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .bf16 = 32 ∨ (Rect.block (s := S256x256) S256x256.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x256.size a ≤ S8192x256.size a
  hwx1_6 : ∀ i : grid1.Coords, EltTy.bits .f32 = 32 ∨ (Rect.block (s := S8192x256) S1024x256.size (cc1_transform_6 i) (hinb1_6 i)).WholeWords (EltTy.packing .f32)

variable [Facts₀]

def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf

abbrev win0_0 : Pipeline.Window sig grid0 :=
  Pipeline.Window.ofSpec (Memref.whole main_arg1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_arg1) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S1024x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0) S1024x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v4) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v6) S1024x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S8192x256 : Shape := ⟨2, ![8192, 256]⟩
abbrev S8192x8192 : Shape := ⟨2, ![8192, 8192]⟩
abbrev S256x256 : Shape := ⟨2, ![256, 256]⟩
abbrev S256 : Shape := ⟨1, ![256]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S1x256 : Shape := ⟨2, ![1, 256]⟩

abbrev nBuf : Space → Nat
  | .hbm => 31
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S256x256, .f32⟩
  | .hbm, ⟨3, _⟩ => ⟨S256, .f32⟩
  | .hbm, ⟨4, _⟩ => ⟨S8192x8192, .i32⟩
  | .hbm, ⟨5, _⟩ => ⟨S8192x8192, .i32⟩
  | .hbm, ⟨6, _⟩ => ⟨S_, .i32⟩
  | .hbm, ⟨7, _⟩ => ⟨S8192x8192, .i32⟩
  | .hbm, ⟨8, _⟩ => ⟨S8192x8192, .i32⟩
  | .hbm, ⟨9, _⟩ => ⟨S8192x8192, .i1⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192, .f32⟩
  | .hbm, ⟨14, _⟩ => ⟨S_, .f32⟩
  | .hbm, ⟨15, _⟩ => ⟨S8192, .f32⟩
  | .hbm, ⟨16, _⟩ => ⟨S8192, .f32⟩
  | .hbm, ⟨17, _⟩ => ⟨S8192x1, .f32⟩
  | .hbm, ⟨18, _⟩ => ⟨S8192x8192, .f32⟩
  | .hbm, ⟨19, _⟩ => ⟨S8192x8192, .f32⟩
  | .hbm, ⟨20, _⟩ => ⟨S1x8192, .f32⟩
  | .hbm, ⟨21, _⟩ => ⟨S8192x8192, .f32⟩
  | .hbm, ⟨22, _⟩ => ⟨S8192x8192, .f32⟩
  | .hbm, ⟨23, _⟩ => ⟨S8192x256, .f32⟩
  | .hbm, ⟨24, _⟩ => ⟨S8192x256, .f32⟩
  | .hbm, ⟨25, _⟩ => ⟨S1x256, .f32⟩
  | .hbm, ⟨26, _⟩ => ⟨S8192x256, .f32⟩
  | .hbm, ⟨27, _⟩ => ⟨S8192x256, .f32⟩
  | .hbm, ⟨28, _⟩ => ⟨S_, .f32⟩
  | .hbm, ⟨29, _⟩ => ⟨S8192x256, .f32⟩
  | .hbm, ⟨30, _⟩ => ⟨S8192x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_call0_cst : Ref sig .tc := ⟨.hbm, 28, rfl⟩
abbrev main_call0_v0 : Ref sig .tc := ⟨.hbm, 29, rfl⟩
abbrev main_v21 : Ref sig .tc := ⟨.hbm, 30, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  dot_S8192x8192_S8192x256_S8192x256_1_0_0_1_n_n_wf : DotDims.WF S8192x8192 S8192x256 S8192x256 [1] [0] [0] [1] [] []
  dot_S8192x256_S256x256_S8192x256_1_0_0_1_n_n_wf : DotDims.WF S8192x256 S256x256 S8192x256 [1] [0] [0] [1] [] []

variable [Facts₀]

def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf

class Facts : Prop extends Facts₀ where

variable [Facts]
-- ==== Proof.BitsDegreeCases.lean ====
/-
  The degree pass (first pallas_call) walks an 8 × 8 grid of (row block i, column block j). Its body has two
  branches on the column coordinate alone: at j = 0 the row-sum accumulator is reset to zero before anything is
  added, and at j = 7 the accumulated row sums, plus one, go through the reciprocal square root into the output
  block. Every point adds the lane sums of its 1024 × 1024 tile of the adjacency matrix to the accumulator. So the
  grid's points fall into three kinds — first column, middle columns, last column — and this module states the
  two conditions and decides, over the grid, at which points each holds and when the output block is written back.
-/
import proofs.«147230_j21835613732936_2_alg».proof.Proof.Gen.Kernel.Launch
import proofs.«147230_j21835613732936_2_alg».proof.Proof.Gen.Kernel.Skeleton
import proofs.«147230_j21835613732936_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Degree

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The point is in the first column: the accumulator is reset there. -/
abbrev first (i : grid0.Coords) : Prop :=
  (Scalar.cmpi .ne (Scalar.extui (Scalar.cmpi .eq (BitVec.ofNat 32 (i 1).val) 0#32)) 0#32) = 1#1
/-- The point is in the last column: the output block is computed there. -/
abbrev last (i : grid0.Coords) : Prop := k0_cond2 i = 1#1

/-- With eight column blocks per row block and the column coordinate minor, the first column is the points ≡ 0 (mod 8). -/
theorem first_iff : ∀ t : Fin cfg0.N, first (grid0.coords t) ↔ t.val % 8 = 0 :=
  (by decide +kernel : ∀ t : Fin grid0.N, first (grid0.coords t) ↔ t.val % 8 = 0)
/-- The last column is the points ≡ 7 (mod 8). -/
theorem last_iff : ∀ t : Fin cfg0.N, last (grid0.coords t) ↔ t.val % 8 = 7 :=
  (by decide +kernel : ∀ t : Fin grid0.N, last (grid0.coords t) ↔ t.val % 8 = 7)

/-- The adjacency window is never idle. -/
theorem adj_live : ∀ t : Fin cfg0.N, cfg0.idle 0 (grid0.coords t) = false := by decide +kernel
/-- Away from the last column the output window is idle and its block is not written back. -/
theorem out_idle : ∀ t : Fin cfg0.N, ¬ last (grid0.coords t) → cfg0.idle 1 (grid0.coords t) = true := by decide +kernel
theorem out_noflush : ∀ t : Fin cfg0.N, ¬ last (grid0.coords t) → (cfg0.win 1).flush t = false := by decide +kernel
/-- In the last column the output window is live. -/
theorem out_live : ∀ t : Fin cfg0.N, last (grid0.coords t) → cfg0.idle 1 (grid0.coords t) = false := by decide +kernel

end Cert.Kernel.Degree

end
-- ==== Proof.BitsDegreeFirst.lean ====
/-
  The degree pass at a point of the first column. The accumulator, whatever it held, is overwritten with zeros;
  the tile of the adjacency matrix is read; the accumulator is read back and overwritten with itself plus the
  tile's lane sums. The output block is not touched. The accumulator's final contents are stated as the list of
  whole-buffer stores made into it, latest first; a later module reads that list back as a value.
-/
import proofs.«147230_j21835613732936_2_alg».proof.Proof.BitsDegreeCases

set_option maxRecDepth 16384

noncomputable section

namespace Cert.Kernel.Degree

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
/-- First column: from the tile at `a`, the output block at `o` and the accumulator at anything, the body runs
    to its return with tile and output block as they were and the accumulator holding the stores `LS`. -/
noncomputable def runFirst (c : Dev nD) (i : grid0.Coords)
    (adjM : Memref sig .tc .vmem S1024x1024 .f32) (hadj : adjM.IsWhole)
    (outM : Memref sig .tc .vmem S1024x1 .f32) (hout : outM.IsWhole)
    (accM : Memref sig .tc .vmem S1024x1 .f32) (hacc : accM.IsWhole)
    (h0 : first i) (h1 : ¬ last i) (a : Vec F S1024x1024 .f32) :
    { LS : List (View.Piece (Elt F) S1024x1 .f32) //
      ∀ (o : Vec F S1024x1 .f32) (E : Set ℕ) (K : PUnit → sProp 𝕄),
        iprop(owns (c : Thread nD τ) adjM fullShare a ∗ owns (c : Thread nD τ) outM fullShare o
            ∗ (∃ d, owns (c : Thread nD τ) accM fullShare d)
            ∗ (iprop(owns (c : Thread nD τ) adjM fullShare a ∗ owns (c : Thread nD τ) outM fullShare o
                ∗ (∃ f, accM.view.loc (c : Thread nD τ) ↦[accM.view.set]{fullShare} accM.view.writes (Elt F) f LS)) -∗ K ⟨⟩))
          ⊢ wp frame (wpE (defs₀ (F := F)) Variants.none c none) E (cc0__degree_kernel i adjM hadj outM hout accM hacc) K } := by
  refine ⟨?_, fun o E K => ?run⟩
  case run =>
    simp only [cc0__degree_kernel_eq_skeleton]; unfold cc0__degree_kernel_skel
    unfold owns
    iintro ⟨⟨%f0, %hf0, H0⟩, ⟨%f1, %hf1, H1⟩, ⟨%ds, %fs, -, HS⟩, Hk⟩
    obtain rfl := hadj.eq_unread hf0; obtain rfl := hout.eq_unread hf1
    sl_exec (disch := first | exact h0 | exact h1)
    sl_step
    iapply Hk
    isplitl [H0]
    · iexists _; isplitr; · ipureintro; exact hadj.read_unread _
      iexact H0
    isplitl [H1]
    · iexists _; isplitr; · ipureintro; exact hout.read_unread _
      iexact H1
    iexists _; iexact HS

end Cert.Kernel.Degree

end
-- ==== Proof.BitsDegreeMid.lean ====
/-
  The degree pass at a point of a middle column. Nothing is reset: the accumulator holds what the point before
  left (`s`); the tile is read; the accumulator is read back and overwritten with itself plus the tile's lane
  sums. The output block is not touched.
-/
import proofs.«147230_j21835613732936_2_alg».proof.Proof.BitsDegreeCases

set_option maxRecDepth 16384

noncomputable section

namespace Cert.Kernel.Degree

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
/-- Middle column: from the tile at `a`, the output block at `o` and the accumulator at `s`, the body runs to
    its return with tile and output block as they were and the accumulator holding the stores `LS`. -/
noncomputable def runMid (c : Dev nD) (i : grid0.Coords)
    (adjM : Memref sig .tc .vmem S1024x1024 .f32) (hadj : adjM.IsWhole)
    (outM : Memref sig .tc .vmem S1024x1 .f32) (hout : outM.IsWhole)
    (accM : Memref sig .tc .vmem S1024x1 .f32) (hacc : accM.IsWhole)
    (h0 : ¬ first i) (h1 : ¬ last i) (a : Vec F S1024x1024 .f32) (s : Vec F S1024x1 .f32) :
    { LS : List (View.Piece (Elt F) S1024x1 .f32) //
      ∀ (o : Vec F S1024x1 .f32) (E : Set ℕ) (K : PUnit → sProp 𝕄),
        iprop(owns (c : Thread nD τ) adjM fullShare a ∗ owns (c : Thread nD τ) outM fullShare o
            ∗ owns (c : Thread nD τ) accM fullShare s
            ∗ (iprop(owns (c : Thread nD τ) adjM fullShare a ∗ owns (c : Thread nD τ) outM fullShare o
                ∗ (∃ f, accM.view.loc (c : Thread nD τ) ↦[accM.view.set]{fullShare} accM.view.writes (Elt F) f LS)) -∗ K ⟨⟩))
          ⊢ wp frame (wpE (defs₀ (F := F)) Variants.none c none) E (cc0__degree_kernel i adjM hadj outM hout accM hacc) K } := by
  refine ⟨?_, fun o E K => ?run⟩
  case run =>
    simp only [cc0__degree_kernel_eq_skeleton]; unfold cc0__degree_kernel_skel
    unfold owns
    iintro ⟨⟨%f0, %hf0, H0⟩, ⟨%f1, %hf1, H1⟩, ⟨%fs, %hfs, HS⟩, Hk⟩
    obtain rfl := hadj.eq_unread hf0; obtain rfl := hout.eq_unread hf1; obtain rfl := hacc.eq_unread hfs
    sl_exec (disch := first | exact h0 | exact h1)
    sl_step
    iapply Hk
    isplitl [H0]
    · iexists _; isplitr; · ipureintro; exact hadj.read_unread _
      iexact H0
    isplitl [H1]
    · iexists _; isplitr; · ipureintro; exact hout.read_unread _
      iexact H1
    iexists _; iexact HS

end Cert.Kernel.Degree

end
-- ==== Proof.BitsDegreeLast.lean ====
/-
  The degree pass at a point of the last column. The accumulator holds what the point before left (`s`); the
  tile's lane sums are added to it as at every point; then the accumulator is read once more, one is added, and the
  reciprocal square root of that is stored over the whole output block, whatever the block held.
-/
import proofs.«147230_j21835613732936_2_alg».proof.Proof.BitsDegreeCases

set_option maxRecDepth 16384

noncomputable section

namespace Cert.Kernel.Degree

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
/-- Last column: from the tile at `a`, the output block at anything and the accumulator at `s`, the body runs to
    its return with the tile as it was, the output block holding the stores `LO` and the accumulator the stores `LS`. -/
noncomputable def runLast (c : Dev nD) (i : grid0.Coords)
    (adjM : Memref sig .tc .vmem S1024x1024 .f32) (hadj : adjM.IsWhole)
    (outM : Memref sig .tc .vmem S1024x1 .f32) (hout : outM.IsWhole)
    (accM : Memref sig .tc .vmem S1024x1 .f32) (hacc : accM.IsWhole)
    (h0 : ¬ first i) (h1 : last i) (a : Vec F S1024x1024 .f32) (s : Vec F S1024x1 .f32) :
    Σ' (LO : List (View.Piece (Elt F) S1024x1 .f32)), { LS : List (View.Piece (Elt F) S1024x1 .f32) //
      ∀ (E : Set ℕ) (K : PUnit → sProp 𝕄),
        iprop(owns (c : Thread nD τ) adjM fullShare a ∗ (∃ d, owns (c : Thread nD τ) outM fullShare d)
            ∗ owns (c : Thread nD τ) accM fullShare s
            ∗ (iprop(owns (c : Thread nD τ) adjM fullShare a
                ∗ (∃ f, outM.view.loc (c : Thread nD τ) ↦[outM.view.set]{fullShare} outM.view.writes (Elt F) f LO)
                ∗ (∃ f, accM.view.loc (c : Thread nD τ) ↦[accM.view.set]{fullShare} accM.view.writes (Elt F) f LS)) -∗ K ⟨⟩))
          ⊢ wp frame (wpE (defs₀ (F := F)) Variants.none c none) E (cc0__degree_kernel i adjM hadj outM hout accM hacc) K } := by
  refine ⟨?_, ?_, fun E K => ?run⟩
  case run =>
    simp only [cc0__degree_kernel_eq_skeleton]; unfold cc0__degree_kernel_skel
    unfold owns
    iintro ⟨⟨%f0, %hf0, H0⟩, ⟨%d1, %f1, -, H1⟩, ⟨%fs, %hfs, HS⟩, Hk⟩
    obtain rfl := hadj.eq_unread hf0; obtain rfl := hacc.eq_unread hfs
    sl_exec (disch := first | exact h0 | exact h1)
    sl_step
    iapply Hk
    isplitl [H0]
    · iexists _; isplitr; · ipureintro; exact hadj.read_unread _
      iexact H0
    isplitl [H1]
    · iexists _; iexact H1
    iexists _; iexact HS

end Cert.Kernel.Degree

end
-- ==== Proof.BitsDegreeData.lean ====
/-
  What the degree pass holds point by point. The accumulator after a point is determined by recursion along the
  row of column blocks: after a first-column point it is zero plus that tile's lane sums; after any later point
  it is what the point before left plus this tile's lane sums. The output block is stored only at a last-column
  point, from the accumulator the point before left. With these contents named, the pass's invariant between two
  points is: the accumulator at the contents of the point just done (anything before the first point), and every
  other scratch buffer of the program at anything.
-/
import proofs.«147230_j21835613732936_2_alg».proof.Proof.BitsDegreeFirst
import proofs.«147230_j21835613732936_2_alg».proof.Proof.BitsDegreeMid
import proofs.«147230_j21835613732936_2_alg».proof.Proof.BitsDegreeLast

set_option maxRecDepth 16384

noncomputable section

namespace Cert.Kernel.Degree

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]

local notation "𝕄" => MT nD τ sig Unit (Elt F) ℕ (UR sig nD τ) ℕ

-- The unscoped buffers as the pass finds them.
variable (V : (c : Dev nD) → (b : Ref sig .tc) → Buf (Elt F) ((c : Thread nD τ).loc b))

/-- The 1024 × 1024 tile of the adjacency matrix at point `t`. -/
def tile (c : Dev nD) (t : Fin cfg0.N) : ((cfg0.win 0).xblock (cfg0.grid.coords t)).Idx → Elt F (cfg0.win 0).elt :=
  ((cfg0.win 0).blk t).view.read (Elt F) (V c (Pipeline.arrRef spec0 0))

/-- The staging memrefs the body is called with at point `t`, and the accumulator. -/
abbrev adjS (t : Fin cfg0.N) : Memref sig .tc .vmem S1024x1024 .f32 := win0_0.stage (cfg0.slots t 0)
abbrev adjSw (t : Fin cfg0.N) : (adjS t).IsWhole := hstage0_0 ((cfg0.slots t 0).cast nbuf0_0)
abbrev outS (t : Fin cfg0.N) : Memref sig .tc .vmem S1024x1 .f32 := win0_1.stage (cfg0.slots t 1)
abbrev outSw (t : Fin cfg0.N) : (outS t).IsWhole := hstage0_1 ((cfg0.slots t 1).cast nbuf0_1)
abbrev accM : Memref sig .tc .vmem S1024x1 .f32 := Memref.whole cc0_scratch0
abbrev accV : View sig .tc .vmem S1024x1 .f32 := accM.view
abbrev outV : View sig .tc .vmem S1024x1 .f32 := (Memref.whole cc0_stg1_0 : Memref sig .tc .vmem S1024x1 .f32).view

/-! ## One point -/

/-- The accumulator after a first-column point: its stores read back. -/
def accFirst (c : Dev nD) (t : Fin cfg0.N) (h0 : first (grid0.coords t)) (h1 : ¬ last (grid0.coords t)) : Vec F S1024x1 .f32 :=
  accV.read (Elt F) (accV.writes (Elt F) accV.junk (runFirst c (grid0.coords t) (adjS t) (adjSw t) (outS t) (outSw t) accM (Memref.isWhole_whole _) h0 h1 (tile V c t)).1)
/-- Those stores cover the accumulator. -/
theorem accFirst_cover (c : Dev nD) (t : Fin cfg0.N) (h0 : first (grid0.coords t)) (h1 : ¬ last (grid0.coords t)) (y : S1024x1.Idx) :
    ∃ pc ∈ (runFirst c (grid0.coords t) (adjS t) (adjSw t) (outS t) (outSw t) accM (Memref.isWhole_whole _) h0 h1 (tile V c t)).1, y ∈ pc.1.set :=
  View.cover_of_tiledL _ S1024x1.size (by sl_kernel_rfl) y

/-- The accumulator after a middle-column point that found it at `s`. -/
def accMid (c : Dev nD) (t : Fin cfg0.N) (h0 : ¬ first (grid0.coords t)) (h1 : ¬ last (grid0.coords t)) (s : Vec F S1024x1 .f32) : Vec F S1024x1 .f32 :=
  accV.read (Elt F) (accV.writes (Elt F) accV.junk (runMid c (grid0.coords t) (adjS t) (adjSw t) (outS t) (outSw t) accM (Memref.isWhole_whole _) h0 h1 (tile V c t) s).1)
theorem accMid_cover (c : Dev nD) (t : Fin cfg0.N) (h0 : ¬ first (grid0.coords t)) (h1 : ¬ last (grid0.coords t)) (s : Vec F S1024x1 .f32) (y : S1024x1.Idx) :
    ∃ pc ∈ (runMid c (grid0.coords t) (adjS t) (adjSw t) (outS t) (outSw t) accM (Memref.isWhole_whole _) h0 h1 (tile V c t) s).1, y ∈ pc.1.set :=
  View.cover_of_tiledL _ S1024x1.size (by sl_kernel_rfl) y

/-- The accumulator and the output block after a last-column point that found the accumulator at `s`. -/
def accLast (c : Dev nD) (t : Fin cfg0.N) (h0 : ¬ first (grid0.coords t)) (h1 : last (grid0.coords t)) (s : Vec F S1024x1 .f32) : Vec F S1024x1 .f32 :=
  accV.read (Elt F) (accV.writes (Elt F) accV.junk (runLast c (grid0.coords t) (adjS t) (adjSw t) (outS t) (outSw t) accM (Memref.isWhole_whole _) h0 h1 (tile V c t) s).2.1)
theorem accLast_cover (c : Dev nD) (t : Fin cfg0.N) (h0 : ¬ first (grid0.coords t)) (h1 : last (grid0.coords t)) (s : Vec F S1024x1 .f32) (y : S1024x1.Idx) :
    ∃ pc ∈ (runLast c (grid0.coords t) (adjS t) (adjSw t) (outS t) (outSw t) accM (Memref.isWhole_whole _) h0 h1 (tile V c t) s).2.1, y ∈ pc.1.set :=
  View.cover_of_tiledL _ S1024x1.size (by sl_kernel_rfl) y
def outLast (c : Dev nD) (t : Fin cfg0.N) (h0 : ¬ first (grid0.coords t)) (h1 : last (grid0.coords t)) (s : Vec F S1024x1 .f32) : Vec F S1024x1 .f32 :=
  outV.read (Elt F) (outV.writes (Elt F) outV.junk (runLast c (grid0.coords t) (adjS t) (adjSw t) (outS t) (outSw t) accM (Memref.isWhole_whole _) h0 h1 (tile V c t) s).1)
theorem outLast_cover (c : Dev nD) (t : Fin cfg0.N) (h0 : ¬ first (grid0.coords t)) (h1 : last (grid0.coords t)) (s : Vec F S1024x1 .f32) (y : S1024x1.Idx) :
    ∃ pc ∈ (runLast c (grid0.coords t) (adjS t) (adjSw t) (outS t) (outSw t) accM (Memref.isWhole_whole _) h0 h1 (tile V c t) s).1, y ∈ pc.1.set :=
  View.cover_of_tiledL _ S1024x1.size (by sl_kernel_rfl) y

/-! ## Along the grid -/

/-- The accumulator after the body at position `n`: by the kind of point, over what position `n - 1` left. -/
def accAt (c : Dev nD) : (n : ℕ) → n < cfg0.N → Vec F S1024x1 .f32
  | 0, hn => accFirst V c ⟨0, hn⟩ ((first_iff ⟨0, hn⟩).mpr (Nat.zero_mod _)) (fun h => by have := (last_iff ⟨0, hn⟩).mp h; dsimp only at this; omega)
  | n + 1, hn =>
    if h0 : (n + 1) % 8 = 0 then
      accFirst V c ⟨n + 1, hn⟩ ((first_iff ⟨n + 1, hn⟩).mpr h0) (fun h => by have := (last_iff ⟨n + 1, hn⟩).mp h; dsimp only at this; omega)
    else if h1 : (n + 1) % 8 = 7 then
      accLast V c ⟨n + 1, hn⟩ (fun h => h0 ((first_iff ⟨n + 1, hn⟩).mp h)) ((last_iff ⟨n + 1, hn⟩).mpr h1) (accAt c n (Nat.lt_of_succ_lt hn))
    else
      accMid V c ⟨n + 1, hn⟩ (fun h => h0 ((first_iff ⟨n + 1, hn⟩).mp h)) (fun h => h1 ((last_iff ⟨n + 1, hn⟩).mp h)) (accAt c n (Nat.lt_of_succ_lt hn))

theorem accAt_first (c : Dev nD) (t : Fin cfg0.N) (h0 : t.val % 8 = 0) (h1 : ¬ t.val % 8 = 7) :
    accAt V c t.val t.isLt = accFirst V c t ((first_iff t).mpr h0) (fun h => h1 ((last_iff t).mp h)) := by
  obtain ⟨n, hn⟩ := t
  cases n with
  | zero => rfl
  | succ n => exact dif_pos h0
theorem accAt_mid (c : Dev nD) (t : Fin cfg0.N) (h0 : ¬ t.val % 8 = 0) (h1 : ¬ t.val % 8 = 7) :
    accAt V c t.val t.isLt = accMid V c t (fun h => h0 ((first_iff t).mp h)) (fun h => h1 ((last_iff t).mp h))
      (accAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)
theorem accAt_last (c : Dev nD) (t : Fin cfg0.N) (h0 : ¬ t.val % 8 = 0) (h1 : t.val % 8 = 7) :
    accAt V c t.val t.isLt = accLast V c t (fun h => h0 ((first_iff t).mp h)) ((last_iff t).mpr h1)
      (accAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- The output block's staging buffer after the body at point `t`: at a last-column point what that point stores,
    from the accumulator the point before left; elsewhere nothing is stored (a placeholder nothing consults: the
    window is idle there and its block not written back). -/
def outAt (c : Dev nD) (t : Fin cfg0.N) : Vec F S1024x1 .f32 :=
  if h1 : t.val % 8 = 7 then
    outLast V c t (fun h => by have := (first_iff t).mp h; omega) ((last_iff t).mpr h1)
      (accAt V c (t.val - 1) (Nat.lt_of_le_of_lt (Nat.sub_le _ _) t.isLt))
  else outV.read (Elt F) outV.junk

/-! ## The invariant -/

/-- Every scratch buffer of the program other than this pass's accumulator and staging buffers, at anything. -/
def rest (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_stg6_0), ((c : Thread nD τ).loc cc1_stg6_0) ↦{fullShare} f)
    ∗ (∃ f : Buf (Elt F) ((c : Thread nD τ).loc cc1_stg6_1), ((c : Thread nD τ).loc cc1_stg6_1) ↦{fullShare} f)
    ∗ (∃ f : Buf (Elt F) ((c : Thread nD τ).loc cc1_scratch0), ((c : Thread nD τ).loc cc1_scratch0) ↦{fullShare} f))

/-- The program's scratch buffers that this pass does not stage are the accumulator and those. -/
theorem scoped_eq (c : Dev nD) :
    (Pipeline.scopedRest (Ix := Unit) (Name := ℕ) (U := UR sig nD τ) (Lvl := ℕ) (Val := Elt F) spec0 c : sProp 𝕄)
      = iprop((∃ d, owns (c : Thread nD τ) accM fullShare d) ∗ rest (F := F) c) := by
  rw [scopedRest0_eq]; unfold rest; simp only [accM, owns_whole]; rfl

/-- Before position `n`: nothing known of the accumulator before the first point, afterwards its contents after
    position `n - 1`. -/
def Phi (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) accM fullShare (accAt V c n hn) ∗ rest (F := F) c)

theorem Phi_succ (c : Dev nD) (n : ℕ) (hn : n < cfg0.N) :
    Phi V c (n + 1) hn = iprop(owns (c : Thread nD τ) accM fullShare (accAt V c n hn) ∗ rest (F := F) c) := rfl
theorem Phi_pos (c : Dev nD) (n : ℕ) (h : n ≤ cfg0.N) (hz : n ≠ 0) :
    Phi V c n h = iprop(owns (c : Thread nD τ) accM fullShare (accAt V c (n - 1) (by omega)) ∗ rest (F := F) c) := by
  cases n with
  | zero => exact absurd rfl hz
  | succ n => rfl
/-- At any position the invariant holds the accumulator at something beside the other scratch buffers. -/
theorem Phi_some (c : Dev nD) (n : ℕ) (h : n ≤ cfg0.N) :
    Phi V c n h ⊢ iprop((∃ d, owns (c : Thread nD τ) accM fullShare d) ∗ rest (F := F) c) := by
  cases n with
  | zero => exact Entails.of_eq (scoped_eq c)
  | succ n =>
    rw [Phi_succ]
    iintro ⟨H, Hr⟩
    isplitl [H]
    · iexists _; iexact H
    iexact Hr

/-! ## The proof data -/

/-- The pass's proof data on core `c`: the arrays as found; after the body the adjacency window's buffer at its
    tile and the output window's at `outAt`; the invariant `Phi`; nothing owed; full shares. -/
def dat (c : Dev nD) : Dat τ (Elt F) Unit ℕ (UR sig nD τ) ℕ cfg0 c where
  A w := V c (Pipeline.arrRef spec0 w)
  after w t := match w with
    | ⟨0, _⟩ => tile V c t
    | ⟨1, _⟩ => outAt V c t
  Φ t := Phi V c t.val (Nat.le_of_lt_succ t.isLt)
  q _ := fullShare
  owed _ := 0

theorem A_eq (c : Dev nD) (w : Fin cfg0.W) : (dat V c).A w = V c (Pipeline.arrRef spec0 w) := by
  dsimp only [dat]
theorem Phi_castSucc (c : Dev nD) (t : Fin cfg0.N) :
    (dat V c).Φ t.castSucc = Phi V c t.val (Nat.le_of_lt t.isLt) := by
  dsimp only [dat]; simp only [Fin.coe_castSucc]
theorem after_adj (c : Dev nD) (t : Fin cfg0.N) : (dat V c).after 0 t = tile V c t := by dsimp only [dat]
theorem after_out (c : Dev nD) (t : Fin cfg0.N) : (dat V c).after 1 t = outAt V c t := by dsimp only [dat]

/-- The adjacency window's current buffer holds the point's tile when the body runs. -/
theorem before_adj (c : Dev nD) (t : Fin cfg0.N) (d) : (dat V c).before 0 t d = tile V c t :=
  ((dat V c).before_in_eq_fetched 0 rfl (fun _ => rfl) (fun _ _ _ => rfl)
    (fun t => by rw [after_adj]; unfold Dat.blockOf tile; rw [A_eq]; try rfl) t d).trans
    (by unfold Dat.fetched Dat.blockOf tile; rw [A_eq]; try rfl)

end Cert.Kernel.Degree

end
-- ==== Proof.BitsDegreeBody.lean ====
/-
  The degree pass's obligation at every point. The pipeline hands the body the invariant, the adjacency window's
  buffer at the point's tile and the output window's buffer; by the kind of point (first, middle or last column)
  the matching run of the body applies, and what it leaves is what the proof data names for that point: the
  accumulator's stores read back are its named contents because they cover the buffer, and likewise the output
  block's at a last-column point; elsewhere the output buffer is handed back as found.
-/
import proofs.«147230_j21835613732936_2_alg».proof.Proof.BitsDegreeData

set_option maxRecDepth 16384

noncomputable section

namespace Cert.Kernel.Degree

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (adjS t) fullShare ((dat V c).before 0 t d))
    ∗ (∃ d, owns (c : Thread nD τ) (outS t) fullShare ((dat V c).before 1 t d)))
/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t)

set_option maxHeartbeats 4800000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_adj]
  rw [show (dat V c).owesAt () t.succ = (dat V c).owesAt () t.castSucc from rfl]
  rw [show (dat V c).Φ t.succ = Phi V c (t.val + 1) t.isLt from rfl, Phi_succ]
  rw [show (dat V c).leavesExact 0 t = owns (c : Thread nD τ) (adjS t) fullShare ((dat V c).after 0 t) from by
    unfold Dat.leavesExact; rw [adj_live t], after_adj]
  rw [Phi_castSucc]
  by_cases h0 : t.val % 8 = 0
  · have h1 : ¬ t.val % 8 = 7 := by omega
    have hf : first (grid0.coords t) := (first_iff t).mpr h0
    have hnl : ¬ last (grid0.coords t) := fun h => h1 ((last_iff t).mp h)
    rw [Dat.leavesExact_idle (dat V c) 1 t (out_idle t hnl) (out_noflush t hnl)]
    rw [accAt_first V c t h0 h1]
    unfold accFirst
    refine (sep_mono (Phi_some V c _ _) .rfl).trans ?_
    iintro ⟨⟨HS, Hr⟩, Ho, ⟨%d0, H0⟩, ⟨%d1, H1⟩⟩
    iapply ((runFirst c (grid0.coords t) _ _ _ _ _ _ hf hnl (tile V c t)).2 _ Set.univ _)
    isplitl [H0]; · iexact H0
    isplitl [H1]; · iexact H1
    isplitl [HS]; · iexact HS
    iintro ⟨H0, H1, ⟨%es, HS⟩⟩
    isplitl [HS Hr]
    · isplitl [HS]
      · unfold owns; iexists _; isplitr
        swap; · iexact HS
        ipureintro; exact View.read_writes_of_cover _ _ _ _ _ (accFirst_cover V c t hf hnl)
      iexact Hr
    isplitl [Ho]; · iexact Ho
    isplitl [H0]; · iexact H0
    iexists _; iexact H1
  · have hnf : ¬ first (grid0.coords t) := fun h => h0 ((first_iff t).mp h)
    have hz : t.val ≠ 0 := fun h => h0 (by rw [h])
    rw [Phi_pos V c _ _ hz]
    by_cases h1 : t.val % 8 = 7
    · have hl : last (grid0.coords t) := (last_iff t).mpr h1
      rw [show (dat V c).leavesExact 1 t = owns (c : Thread nD τ) (outS t) fullShare ((dat V c).after 1 t) from by
        unfold Dat.leavesExact; rw [out_live t hl], after_out]
      rw [accAt_last V c t h0 h1]
      rw [show outAt V c t = outLast V c t hnf hl (accAt V c (t.val - 1) (Nat.lt_of_le_of_lt (Nat.sub_le _ _) t.isLt)) from dif_pos h1]
      unfold accLast outLast
      iintro ⟨⟨HS, Hr⟩, Ho, ⟨%d0, H0⟩, ⟨%d1, H1⟩⟩
      iapply ((runLast c (grid0.coords t) _ _ _ _ _ _ hnf hl (tile V c t) _).2.2 Set.univ _)
      isplitl [H0]; · iexact H0
      isplitl [H1]; · iexists _; iexact H1
      isplitl [HS]; · iexact HS
      iintro ⟨H0, ⟨%e1, H1⟩, ⟨%es, HS⟩⟩
      isplitl [HS Hr]
      · isplitl [HS]
        · unfold owns; iexists _; isplitr
          swap; · iexact HS
          ipureintro; exact View.read_writes_of_cover _ _ _ _ _ (accLast_cover V c t hnf hl _)
        iexact Hr
      isplitl [Ho]; · iexact Ho
      isplitl [H0]; · iexact H0
      unfold owns; iexists _; isplitr
      swap; · iexact H1
      ipureintro; exact View.read_writes_of_cover _ _ _ _ _ (outLast_cover V c t hnf hl _)
    · have hnl : ¬ last (grid0.coords t) := fun h => h1 ((last_iff t).mp h)
      rw [Dat.leavesExact_idle (dat V c) 1 t (out_idle t hnl) (out_noflush t hnl)]
      rw [accAt_mid V c t h0 h1]
      unfold accMid
      iintro ⟨⟨HS, Hr⟩, Ho, ⟨%d0, H0⟩, ⟨%d1, H1⟩⟩
      iapply ((runMid c (grid0.coords t) _ _ _ _ _ _ hnf hnl (tile V c t) _).2 _ Set.univ _)
      isplitl [H0]; · iexact H0
      isplitl [H1]; · iexact H1
      isplitl [HS]; · iexact HS
      iintro ⟨H0, H1, ⟨%es, HS⟩⟩
      isplitl [HS Hr]
      · isplitl [HS]
        · unfold owns; iexists _; isplitr
          swap; · iexact HS
          ipureintro; exact View.read_writes_of_cover _ _ _ _ _ (accMid_cover V c t hnf hnl _)
        iexact Hr
      isplitl [Ho]; · iexact Ho
      isplitl [H0]; · iexact H0
      iexists _; iexact H1

/-- The obligation at every point of the grid. -/
theorem body_obligation (c : Dev nD) : BodyObligation (dat V c) (defs₀ (F := F)) Variants.none () Set.univ := fun t => by
  rw [bigSep_W0, bigSep_W0]
  exact sound_body V c t

end Cert.Kernel.Degree

end
-- ==== Proof.BitsGcnCases.lean ====
/-
  The aggregation pass (second pallas_call) walks an 8 × 4 grid of (row block i, column block j), the column
  blocks 2048 wide. Its body has the same two branches on the column coordinate as the degree pass: at j = 0 the
  1024 × 256 accumulator is reset to zero; every point adds to it the product of its tile of the adjacency matrix
  with the matching 2048 rows of the scaled features; at j = 3 the accumulator is scaled by the row block's
  degree factor, the self-loop term is added, and the result goes through the dense layer and the rectifier into
  the output block. This module states the two conditions and decides over the grid where each holds and where the
  output window is idle.
-/
import proofs.«147230_j21835613732936_2_alg».proof.Proof.Gen.Kernel.Launch
import proofs.«147230_j21835613732936_2_alg».proof.Proof.Gen.Kernel.Skeleton
import proofs.«147230_j21835613732936_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Gcn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The point is in the first column: the accumulator is reset there. -/
abbrev first (i : grid1.Coords) : Prop :=
  (Scalar.cmpi .ne (Scalar.extui (Scalar.cmpi .eq (BitVec.ofNat 32 (i 1).val) 0#32)) 0#32) = 1#1
/-- The point is in the last column: the output block is computed there. -/
abbrev last (i : grid1.Coords) : Prop := k1_cond2 i = 1#1

/-- With four column blocks per row block and the column coordinate minor, the first column is the points ≡ 0 (mod 4). -/
theorem first_iff : ∀ t : Fin cfg1.N, first (grid1.coords t) ↔ t.val % 4 = 0 :=
  (by decide +kernel : ∀ t : Fin grid1.N, first (grid1.coords t) ↔ t.val % 4 = 0)
/-- The last column is the points ≡ 3 (mod 4). -/
theorem last_iff : ∀ t : Fin cfg1.N, last (grid1.coords t) ↔ t.val % 4 = 3 :=
  (by decide +kernel : ∀ t : Fin grid1.N, last (grid1.coords t) ↔ t.val % 4 = 3)

/-- No input window is ever idle. -/
theorem in_live : ∀ (w : Fin 7), w.val < 6 → ∀ t : Fin cfg1.N, cfg1.idle w (grid1.coords t) = false := by decide +kernel
/-- Away from the last column the output window is idle and its block is not written back. -/
theorem out_idle : ∀ t : Fin cfg1.N, ¬ last (grid1.coords t) → cfg1.idle 6 (grid1.coords t) = true := by decide +kernel
theorem out_noflush : ∀ t : Fin cfg1.N, ¬ last (grid1.coords t) → (cfg1.win 6).flush t = false := by decide +kernel
/-- In the last column the output window is live. -/
theorem out_live : ∀ t : Fin cfg1.N, last (grid1.coords t) → cfg1.idle 6 (grid1.coords t) = false := by decide +kernel

end Cert.Kernel.Gcn

end
-- ==== Proof.BitsGcnFirst.lean ====
/-
  The aggregation pass at a point of the first column. The accumulator, whatever it held, is overwritten with
  zeros; the tile of the adjacency matrix and the 2048 matching rows of the scaled features are read; the
  accumulator is read back and overwritten with itself plus their product. No other buffer is touched.
-/
import proofs.«147230_j21835613732936_2_alg».proof.Proof.BitsGcnCases

set_option maxRecDepth 16384

noncomputable section

namespace Cert.Kernel.Gcn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 2000000 in
/-- First column: from the tile at `a`, the scaled feature rows at `y` and the accumulator at anything, the
    body runs to its return with both inputs as they were and the accumulator holding the stores `LS`. -/
noncomputable def runFirst (c : Dev nD) (i : grid1.Coords)
    (adjM : Memref sig .tc .vmem S1024x2048 .f32) (hadj : adjM.IsWhole)
    (xsM : Memref sig .tc .vmem S2048x256 .bf16) (hxs : xsM.IsWhole)
    (xM : Memref sig .tc .vmem S1024x256 .f32) (hx : xM.IsWhole)
    (dM : Memref sig .tc .vmem S1024x1 .f32) (hd : dM.IsWhole)
    (wM : Memref sig .tc .vmem S256x256 .bf16) (hw : wM.IsWhole)
    (bM : Memref sig .tc .vmem S1x256 .f32) (hb : bM.IsWhole)
    (outM : Memref sig .tc .vmem S1024x256 .f32) (hout : outM.IsWhole)
    (accM : Memref sig .tc .vmem S1024x256 .f32) (hacc : accM.IsWhole)
    (h0 : first i) (h1 : ¬ last i) (a : Vec F S1024x2048 .f32) (y : Vec F S2048x256 .bf16) :
    { LS : List (View.Piece (Elt F) S1024x256 .f32) //
      ∀ (E : Set ℕ) (K : PUnit → sProp 𝕄),
        iprop(owns (c : Thread nD τ) adjM fullShare a ∗ owns (c : Thread nD τ) xsM fullShare y
            ∗ (∃ d, owns (c : Thread nD τ) accM fullShare d)
            ∗ (iprop(owns (c : Thread nD τ) adjM fullShare a ∗ owns (c : Thread nD τ) xsM fullShare y
                ∗ (∃ f, accM.view.loc (c : Thread nD τ) ↦[accM.view.set]{fullShare} accM.view.writes (Elt F) f LS)) -∗ K ⟨⟩))
          ⊢ wp frame (wpE (defs₀ (F := F)) Variants.none c none) E (cc1__gcn_kernel i adjM hadj xsM hxs xM hx dM hd wM hw bM hb outM hout accM hacc) K } := by
  refine ⟨?_, fun E K => ?run⟩
  case run =>
    simp only [cc1__gcn_kernel_eq_skeleton]; unfold cc1__gcn_kernel_skel
    unfold owns
    iintro ⟨⟨%f0, %hf0, H0⟩, ⟨%f1, %hf1, H1⟩, ⟨%ds, %fs, -, HS⟩, Hk⟩
    obtain rfl := hadj.eq_unread hf0; obtain rfl := hxs.eq_unread hf1
    sl_exec (disch := first | exact h0 | exact h1)
    sl_step
    iapply Hk
    isplitl [H0]
    · iexists _; isplitr; · ipureintro; exact hadj.read_unread _
      iexact H0
    isplitl [H1]
    · iexists _; isplitr; · ipureintro; exact hxs.read_unread _
      iexact H1
    iexists _; iexact HS

end Cert.Kernel.Gcn

end
-- ==== Proof.BitsGcnMid.lean ====
/-
  The aggregation pass at a point of a middle column: the accumulator holds what the point before left (`s`)
  and is overwritten with itself plus the product of the tile with the matching rows of the scaled features.
-/
import proofs.«147230_j21835613732936_2_alg».proof.Proof.BitsGcnCases

set_option maxRecDepth 16384

noncomputable section

namespace Cert.Kernel.Gcn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 2000000 in
/-- Middle column: from the tile at `a`, the scaled feature rows at `y` and the accumulator at `s`, the body
    runs to its return with both inputs as they were and the accumulator holding the stores `LS`. -/
noncomputable def runMid (c : Dev nD) (i : grid1.Coords)
    (adjM : Memref sig .tc .vmem S1024x2048 .f32) (hadj : adjM.IsWhole)
    (xsM : Memref sig .tc .vmem S2048x256 .bf16) (hxs : xsM.IsWhole)
    (xM : Memref sig .tc .vmem S1024x256 .f32) (hx : xM.IsWhole)
    (dM : Memref sig .tc .vmem S1024x1 .f32) (hd : dM.IsWhole)
    (wM : Memref sig .tc .vmem S256x256 .bf16) (hw : wM.IsWhole)
    (bM : Memref sig .tc .vmem S1x256 .f32) (hb : bM.IsWhole)
    (outM : Memref sig .tc .vmem S1024x256 .f32) (hout : outM.IsWhole)
    (accM : Memref sig .tc .vmem S1024x256 .f32) (hacc : accM.IsWhole)
    (h0 : ¬ first i) (h1 : ¬ last i) (a : Vec F S1024x2048 .f32) (y : Vec F S2048x256 .bf16) (s : Vec F S1024x256 .f32) :
    { LS : List (View.Piece (Elt F) S1024x256 .f32) //
      ∀ (E : Set ℕ) (K : PUnit → sProp 𝕄),
        iprop(owns (c : Thread nD τ) adjM fullShare a ∗ owns (c : Thread nD τ) xsM fullShare y
            ∗ owns (c : Thread nD τ) accM fullShare s
            ∗ (iprop(owns (c : Thread nD τ) adjM fullShare a ∗ owns (c : Thread nD τ) xsM fullShare y
                ∗ (∃ f, accM.view.loc (c : Thread nD τ) ↦[accM.view.set]{fullShare} accM.view.writes (Elt F) f LS)) -∗ K ⟨⟩))
          ⊢ wp frame (wpE (defs₀ (F := F)) Variants.none c none) E (cc1__gcn_kernel i adjM hadj xsM hxs xM hx dM hd wM hw bM hb outM hout accM hacc) K } := by
  refine ⟨?_, fun E K => ?run⟩
  case run =>
    simp only [cc1__gcn_kernel_eq_skeleton]; unfold cc1__gcn_kernel_skel
    unfold owns
    iintro ⟨⟨%f0, %hf0, H0⟩, ⟨%f1, %hf1, H1⟩, ⟨%fs, %hfs, HS⟩, Hk⟩
    obtain rfl := hadj.eq_unread hf0; obtain rfl := hxs.eq_unread hf1; obtain rfl := hacc.eq_unread hfs
    sl_exec (disch := first | exact h0 | exact h1)
    sl_step
    iapply Hk
    isplitl [H0]
    · iexists _; isplitr; · ipureintro; exact hadj.read_unread _
      iexact H0
    isplitl [H1]
    · iexists _; isplitr; · ipureintro; exact hxs.read_unread _
      iexact H1
    iexists _; iexact HS

end Cert.Kernel.Gcn

end
-- ==== Proof.BitsGcnLast.lean ====
/-
  The aggregation pass at a point of the last column. The accumulator (at `s` from the point before) takes the
  last product as at every point; then the row block's degree factors, the accumulator, the row block's own
  features, the weights and the bias are read, and the rectified dense layer of
  (degree factor × accumulator + degree factor² × own features) is stored over the whole output block.
-/
import proofs.«147230_j21835613732936_2_alg».proof.Proof.BitsGcnCases

set_option maxRecDepth 16384

noncomputable section

namespace Cert.Kernel.Gcn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
/-- Last column: from every input at its contents, the output block at anything and the accumulator at `s`, the
    body runs to its return with the inputs as they were, the output block holding the stores `LO` and the
    accumulator the stores `LS`. -/
noncomputable def runLast (c : Dev nD) (i : grid1.Coords)
    (adjM : Memref sig .tc .vmem S1024x2048 .f32) (hadj : adjM.IsWhole)
    (xsM : Memref sig .tc .vmem S2048x256 .bf16) (hxs : xsM.IsWhole)
    (xM : Memref sig .tc .vmem S1024x256 .f32) (hx : xM.IsWhole)
    (dM : Memref sig .tc .vmem S1024x1 .f32) (hd : dM.IsWhole)
    (wM : Memref sig .tc .vmem S256x256 .bf16) (hw : wM.IsWhole)
    (bM : Memref sig .tc .vmem S1x256 .f32) (hb : bM.IsWhole)
    (outM : Memref sig .tc .vmem S1024x256 .f32) (hout : outM.IsWhole)
    (accM : Memref sig .tc .vmem S1024x256 .f32) (hacc : accM.IsWhole)
    (h0 : ¬ first i) (h1 : last i) (a : Vec F S1024x2048 .f32) (y : Vec F S2048x256 .bf16)
    (x : Vec F S1024x256 .f32) (d : Vec F S1024x1 .f32) (w : Vec F S256x256 .bf16) (b : Vec F S1x256 .f32)
    (s : Vec F S1024x256 .f32) :
    Σ' (LO : List (View.Piece (Elt F) S1024x256 .f32)), { LS : List (View.Piece (Elt F) S1024x256 .f32) //
      ∀ (E : Set ℕ) (K : PUnit → sProp 𝕄),
        iprop(owns (c : Thread nD τ) adjM fullShare a ∗ owns (c : Thread nD τ) xsM fullShare y ∗ owns (c : Thread nD τ) xM fullShare x
            ∗ owns (c : Thread nD τ) dM fullShare d ∗ owns (c : Thread nD τ) wM fullShare w ∗ owns (c : Thread nD τ) bM fullShare b
            ∗ (∃ e, owns (c : Thread nD τ) outM fullShare e) ∗ owns (c : Thread nD τ) accM fullShare s
            ∗ (iprop(owns (c : Thread nD τ) adjM fullShare a ∗ owns (c : Thread nD τ) xsM fullShare y ∗ owns (c : Thread nD τ) xM fullShare x
                ∗ owns (c : Thread nD τ) dM fullShare d ∗ owns (c : Thread nD τ) wM fullShare w ∗ owns (c : Thread nD τ) bM fullShare b
                ∗ (∃ f, outM.view.loc (c : Thread nD τ) ↦[outM.view.set]{fullShare} outM.view.writes (Elt F) f LO)
                ∗ (∃ f, accM.view.loc (c : Thread nD τ) ↦[accM.view.set]{fullShare} accM.view.writes (Elt F) f LS)) -∗ K ⟨⟩))
          ⊢ wp frame (wpE (defs₀ (F := F)) Variants.none c none) E (cc1__gcn_kernel i adjM hadj xsM hxs xM hx dM hd wM hw bM hb outM hout accM hacc) K } := by
  refine ⟨?_, ?_, fun E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%e6, %f6, -, H6⟩, ⟨%fs, %hfs, HS⟩, Hk⟩
    obtain rfl := hadj.eq_unread hf0; obtain rfl := hxs.eq_unread hf1; obtain rfl := hx.eq_unread hf2
    obtain rfl := hd.eq_unread hf3; obtain rfl := hw.eq_unread hf4; obtain rfl := hb.eq_unread hf5
    obtain rfl := hacc.eq_unread hfs
    sl_exec (disch := first | exact h0 | exact h1)
    sl_step
    iapply Hk
    isplitl [H0]
    · iexists _; isplitr; · ipureintro; exact hadj.read_unread _
      iexact H0
    isplitl [H1]
    · iexists _; isplitr; · ipureintro; exact hxs.read_unread _
      iexact H1
    isplitl [H2]
    · iexists _; isplitr; · ipureintro; exact hx.read_unread _
      iexact H2
    isplitl [H3]
    · iexists _; isplitr; · ipureintro; exact hd.read_unread _
      iexact H3
    isplitl [H4]
    · iexists _; isplitr; · ipureintro; exact hw.read_unread _
      iexact H4
    isplitl [H5]
    · iexists _; isplitr; · ipureintro; exact hb.read_unread _
      iexact H5
    isplitl [H6]
    · iexists _; iexact H6
    iexists _; iexact HS

end Cert.Kernel.Gcn

end
-- ==== Proof.BitsGcnData.lean ====
/-
  What the aggregation pass holds point by point. The accumulator after a point is determined by recursion along
  the row of column blocks: after a first-column point it is zero plus the product of that tile with its rows of
  the scaled features; after any later point it is what the point before left plus this point's product. The
  output block is stored only at a last-column point, from the accumulator the point before left and the row
  block's own inputs. The pass's invariant between two points is the accumulator at the contents of the point
  just done (anything before the first point) and every other scratch buffer of the program at anything.
-/
import proofs.«147230_j21835613732936_2_alg».proof.Proof.BitsGcnFirst
import proofs.«147230_j21835613732936_2_alg».proof.Proof.BitsGcnMid
import proofs.«147230_j21835613732936_2_alg».proof.Proof.BitsGcnLast

set_option maxRecDepth 16384

noncomputable section

namespace Cert.Kernel.Gcn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]

local notation "𝕄" => MT nD τ sig Unit (Elt F) ℕ (UR sig nD τ) ℕ

-- The unscoped buffers as the pass finds them.
variable (V : (c : Dev nD) → (b : Ref sig .tc) → Buf (Elt F) ((c : Thread nD τ).loc b))

/-- Window `w`'s block at point `t`, read off its array as the pass finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The staging memrefs the body is called with at point `t` (window by window), and the accumulator. -/
abbrev s0 (t : Fin cfg1.N) : Memref sig .tc .vmem S1024x2048 .f32 := win1_0.stage (cfg1.slots t 0)
abbrev s0w (t : Fin cfg1.N) : (s0 t).IsWhole := hstage1_0 ((cfg1.slots t 0).cast nbuf1_0)
abbrev s1 (t : Fin cfg1.N) : Memref sig .tc .vmem S2048x256 .bf16 := win1_1.stage (cfg1.slots t 1)
abbrev s1w (t : Fin cfg1.N) : (s1 t).IsWhole := hstage1_1 ((cfg1.slots t 1).cast nbuf1_1)
abbrev s2 (t : Fin cfg1.N) : Memref sig .tc .vmem S1024x256 .f32 := win1_2.stage (cfg1.slots t 2)
abbrev s2w (t : Fin cfg1.N) : (s2 t).IsWhole := hstage1_2 ((cfg1.slots t 2).cast nbuf1_2)
abbrev s3 (t : Fin cfg1.N) : Memref sig .tc .vmem S1024x1 .f32 := win1_3.stage (cfg1.slots t 3)
abbrev s3w (t : Fin cfg1.N) : (s3 t).IsWhole := hstage1_3 ((cfg1.slots t 3).cast nbuf1_3)
abbrev s4 (t : Fin cfg1.N) : Memref sig .tc .vmem S256x256 .bf16 := win1_4.stage (cfg1.slots t 4)
abbrev s4w (t : Fin cfg1.N) : (s4 t).IsWhole := hstage1_4 ((cfg1.slots t 4).cast nbuf1_4)
abbrev s5 (t : Fin cfg1.N) : Memref sig .tc .vmem S1x256 .f32 := win1_5.stage (cfg1.slots t 5)
abbrev s5w (t : Fin cfg1.N) : (s5 t).IsWhole := hstage1_5 ((cfg1.slots t 5).cast nbuf1_5)
abbrev s6 (t : Fin cfg1.N) : Memref sig .tc .vmem S1024x256 .f32 := win1_6.stage (cfg1.slots t 6)
abbrev s6w (t : Fin cfg1.N) : (s6 t).IsWhole := hstage1_6 ((cfg1.slots t 6).cast nbuf1_6)
abbrev accM : Memref sig .tc .vmem S1024x256 .f32 := Memref.whole cc1_scratch0
abbrev accV : View sig .tc .vmem S1024x256 .f32 := accM.view
abbrev outV : View sig .tc .vmem S1024x256 .f32 := (Memref.whole cc1_stg6_0 : Memref sig .tc .vmem S1024x256 .f32).view

/-! ## One point -/

/-- The accumulator after a first-column point: its stores read back. -/
def accFirst (c : Dev nD) (t : Fin cfg1.N) (h0 : first (grid1.coords t)) (h1 : ¬ last (grid1.coords t)) : Vec F S1024x256 .f32 :=
  accV.read (Elt F) (accV.writes (Elt F) accV.junk (runFirst c (grid1.coords t) (s0 t) (s0w t) (s1 t) (s1w t) (s2 t) (s2w t) (s3 t) (s3w t) (s4 t) (s4w t) (s5 t) (s5w t) (s6 t) (s6w t) accM (Memref.isWhole_whole _) h0 h1 (blk V c 0 t) (blk V c 1 t)).1)
theorem accFirst_cover (c : Dev nD) (t : Fin cfg1.N) (h0 : first (grid1.coords t)) (h1 : ¬ last (grid1.coords t)) (y : S1024x256.Idx) :
    ∃ pc ∈ (runFirst c (grid1.coords t) (s0 t) (s0w t) (s1 t) (s1w t) (s2 t) (s2w t) (s3 t) (s3w t) (s4 t) (s4w t) (s5 t) (s5w t) (s6 t) (s6w t) accM (Memref.isWhole_whole _) h0 h1 (blk V c 0 t) (blk V c 1 t)).1, y ∈ pc.1.set :=
  View.cover_of_tiledL _ S1024x256.size (by sl_kernel_rfl) y

/-- The accumulator after a middle-column point that found it at `s`. -/
def accMid (c : Dev nD) (t : Fin cfg1.N) (h0 : ¬ first (grid1.coords t)) (h1 : ¬ last (grid1.coords t)) (s : Vec F S1024x256 .f32) : Vec F S1024x256 .f32 :=
  accV.read (Elt F) (accV.writes (Elt F) accV.junk (runMid c (grid1.coords t) (s0 t) (s0w t) (s1 t) (s1w t) (s2 t) (s2w t) (s3 t) (s3w t) (s4 t) (s4w t) (s5 t) (s5w t) (s6 t) (s6w t) accM (Memref.isWhole_whole _) h0 h1 (blk V c 0 t) (blk V c 1 t) s).1)
theorem accMid_cover (c : Dev nD) (t : Fin cfg1.N) (h0 : ¬ first (grid1.coords t)) (h1 : ¬ last (grid1.coords t)) (s : Vec F S1024x256 .f32) (y : S1024x256.Idx) :
    ∃ pc ∈ (runMid c (grid1.coords t) (s0 t) (s0w t) (s1 t) (s1w t) (s2 t) (s2w t) (s3 t) (s3w t) (s4 t) (s4w t) (s5 t) (s5w t) (s6 t) (s6w t) accM (Memref.isWhole_whole _) h0 h1 (blk V c 0 t) (blk V c 1 t) s).1, y ∈ pc.1.set :=
  View.cover_of_tiledL _ S1024x256.size (by sl_kernel_rfl) y

/-- The accumulator and the output block after a last-column point that found the accumulator at `s`. -/
def accLast (c : Dev nD) (t : Fin cfg1.N) (h0 : ¬ first (grid1.coords t)) (h1 : last (grid1.coords t)) (s : Vec F S1024x256 .f32) : Vec F S1024x256 .f32 :=
  accV.read (Elt F) (accV.writes (Elt F) accV.junk (runLast c (grid1.coords t) (s0 t) (s0w t) (s1 t) (s1w t) (s2 t) (s2w t) (s3 t) (s3w t) (s4 t) (s4w t) (s5 t) (s5w t) (s6 t) (s6w t) accM (Memref.isWhole_whole _) h0 h1 (blk V c 0 t) (blk V c 1 t) (blk V c 2 t) (blk V c 3 t) (blk V c 4 t) (blk V c 5 t) s).2.1)
theorem accLast_cover (c : Dev nD) (t : Fin cfg1.N) (h0 : ¬ first (grid1.coords t)) (h1 : last (grid1.coords t)) (s : Vec F S1024x256 .f32) (y : S1024x256.Idx) :
    ∃ pc ∈ (runLast c (grid1.coords t) (s0 t) (s0w t) (s1 t) (s1w t) (s2 t) (s2w t) (s3 t) (s3w t) (s4 t) (s4w t) (s5 t) (s5w t) (s6 t) (s6w t) accM (Memref.isWhole_whole _) h0 h1 (blk V c 0 t) (blk V c 1 t) (blk V c 2 t) (blk V c 3 t) (blk V c 4 t) (blk V c 5 t) s).2.1, y ∈ pc.1.set :=
  View.cover_of_tiledL _ S1024x256.size (by sl_kernel_rfl) y
def outLast (c : Dev nD) (t : Fin cfg1.N) (h0 : ¬ first (grid1.coords t)) (h1 : last (grid1.coords t)) (s : Vec F S1024x256 .f32) : Vec F S1024x256 .f32 :=
  outV.read (Elt F) (outV.writes (Elt F) outV.junk (runLast c (grid1.coords t) (s0 t) (s0w t) (s1 t) (s1w t) (s2 t) (s2w t) (s3 t) (s3w t) (s4 t) (s4w t) (s5 t) (s5w t) (s6 t) (s6w t) accM (Memref.isWhole_whole _) h0 h1 (blk V c 0 t) (blk V c 1 t) (blk V c 2 t) (blk V c 3 t) (blk V c 4 t) (blk V c 5 t) s).1)
theorem outLast_cover (c : Dev nD) (t : Fin cfg1.N) (h0 : ¬ first (grid1.coords t)) (h1 : last (grid1.coords t)) (s : Vec F S1024x256 .f32) (y : S1024x256.Idx) :
    ∃ pc ∈ (runLast c (grid1.coords t) (s0 t) (s0w t) (s1 t) (s1w t) (s2 t) (s2w t) (s3 t) (s3w t) (s4 t) (s4w t) (s5 t) (s5w t) (s6 t) (s6w t) accM (Memref.isWhole_whole _) h0 h1 (blk V c 0 t) (blk V c 1 t) (blk V c 2 t) (blk V c 3 t) (blk V c 4 t) (blk V c 5 t) s).1, y ∈ pc.1.set :=
  View.cover_of_tiledL _ S1024x256.size (by sl_kernel_rfl) y

/-! ## Along the grid -/

/-- The accumulator after the body at position `n`: by the kind of point, over what position `n - 1` left. -/
def accAt (c : Dev nD) : (n : ℕ) → n < cfg1.N → Vec F S1024x256 .f32
  | 0, hn => accFirst V c ⟨0, hn⟩ ((first_iff ⟨0, hn⟩).mpr (Nat.zero_mod _)) (fun h => by have := (last_iff ⟨0, hn⟩).mp h; dsimp only at this; omega)
  | n + 1, hn =>
    if h0 : (n + 1) % 4 = 0 then
      accFirst V c ⟨n + 1, hn⟩ ((first_iff ⟨n + 1, hn⟩).mpr h0) (fun h => by have := (last_iff ⟨n + 1, hn⟩).mp h; dsimp only at this; omega)
    else if h1 : (n + 1) % 4 = 3 then
      accLast V c ⟨n + 1, hn⟩ (fun h => h0 ((first_iff ⟨n + 1, hn⟩).mp h)) ((last_iff ⟨n + 1, hn⟩).mpr h1) (accAt c n (Nat.lt_of_succ_lt hn))
    else
      accMid V c ⟨n + 1, hn⟩ (fun h => h0 ((first_iff ⟨n + 1, hn⟩).mp h)) (fun h => h1 ((last_iff ⟨n + 1, hn⟩).mp h)) (accAt c n (Nat.lt_of_succ_lt hn))

theorem accAt_first (c : Dev nD) (t : Fin cfg1.N) (h0 : t.val % 4 = 0) (h1 : ¬ t.val % 4 = 3) :
    accAt V c t.val t.isLt = accFirst V c t ((first_iff t).mpr h0) (fun h => h1 ((last_iff t).mp h)) := by
  obtain ⟨n, hn⟩ := t
  cases n with
  | zero => rfl
  | succ n => exact dif_pos h0
theorem accAt_mid (c : Dev nD) (t : Fin cfg1.N) (h0 : ¬ t.val % 4 = 0) (h1 : ¬ t.val % 4 = 3) :
    accAt V c t.val t.isLt = accMid V c t (fun h => h0 ((first_iff t).mp h)) (fun h => h1 ((last_iff t).mp h))
      (accAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)
theorem accAt_last (c : Dev nD) (t : Fin cfg1.N) (h0 : ¬ t.val % 4 = 0) (h1 : t.val % 4 = 3) :
    accAt V c t.val t.isLt = accLast V c t (fun h => h0 ((first_iff t).mp h)) ((last_iff t).mpr h1)
      (accAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- The output block's staging buffer after the body at point `t`: at a last-column point what that point stores;
    elsewhere nothing is stored (a placeholder nothing consults: the window is idle there and not written back). -/
def outAt (c : Dev nD) (t : Fin cfg1.N) : Vec F S1024x256 .f32 :=
  if h1 : t.val % 4 = 3 then
    outLast V c t (fun h => by have := (first_iff t).mp h; omega) ((last_iff t).mpr h1)
      (accAt V c (t.val - 1) (Nat.lt_of_le_of_lt (Nat.sub_le _ _) t.isLt))
  else outV.read (Elt F) outV.junk

/-! ## The invariant -/

/-- Every scratch buffer of the program other than this pass's accumulator and staging buffers, at anything. -/
def rest (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_scratch0), ((c : Thread nD τ).loc cc0_scratch0) ↦{fullShare} f))

/-- The program's scratch buffers that this pass does not stage are those and the accumulator. -/
theorem scoped_split (c : Dev nD) :
    (Pipeline.scopedRest (Ix := Unit) (Name := ℕ) (U := UR sig nD τ) (Lvl := ℕ) (Val := Elt F) spec1 c : sProp 𝕄)
      ⊢ iprop((∃ d, owns (c : Thread nD τ) accM fullShare d) ∗ rest (F := F) c) := by
  rw [scopedRest1_eq]; unfold rest; simp only [accM, owns_whole]
  iintro ⟨H0, H1, H2, H3, H4, HS⟩
  isplitl [HS]; · iexact HS
  isplitl [H0]; · iexact H0
  isplitl [H1]; · iexact H1
  isplitl [H2]; · iexact H2
  isplitl [H3]; · iexact H3
  iexact H4
theorem scoped_join (c : Dev nD) :
    iprop((∃ d, owns (c : Thread nD τ) accM fullShare d) ∗ rest (F := F) c)
      ⊢ (Pipeline.scopedRest (Ix := Unit) (Name := ℕ) (U := UR sig nD τ) (Lvl := ℕ) (Val := Elt F) spec1 c : sProp 𝕄) := by
  rw [scopedRest1_eq]; unfold rest; simp only [accM, owns_whole]
  iintro ⟨HS, H0, H1, H2, H3, H4⟩
  isplitl [H0]; · iexact H0
  isplitl [H1]; · iexact H1
  isplitl [H2]; · iexact H2
  isplitl [H3]; · iexact H3
  isplitl [H4]; · iexact H4
  iexact HS

/-- Before position `n`: nothing known of the accumulator before the first point, afterwards its contents after
    position `n - 1`. -/
def Phi (c : Dev nD) : (n : ℕ) → n ≤ cfg1.N → sProp 𝕄
  | 0, _ => Pipeline.scopedRest (Ix := Unit) (Name := ℕ) (U := UR sig nD τ) (Lvl := ℕ) (Val := Elt F) spec1 c
  | n + 1, hn => iprop(owns (c : Thread nD τ) accM fullShare (accAt V c n hn) ∗ rest (F := F) c)

theorem Phi_succ (c : Dev nD) (n : ℕ) (hn : n < cfg1.N) :
    Phi V c (n + 1) hn = iprop(owns (c : Thread nD τ) accM fullShare (accAt V c n hn) ∗ rest (F := F) c) := rfl
theorem Phi_pos (c : Dev nD) (n : ℕ) (h : n ≤ cfg1.N) (hz : n ≠ 0) :
    Phi V c n h = iprop(owns (c : Thread nD τ) accM fullShare (accAt V c (n - 1) (by omega)) ∗ rest (F := F) c) := by
  cases n with
  | zero => exact absurd rfl hz
  | succ n => rfl
/-- At any position the invariant holds the accumulator at something beside the other scratch buffers. -/
theorem Phi_some (c : Dev nD) (n : ℕ) (h : n ≤ cfg1.N) :
    Phi V c n h ⊢ iprop((∃ d, owns (c : Thread nD τ) accM fullShare d) ∗ rest (F := F) c) := by
  cases n with
  | zero => exact scoped_split c
  | succ n =>
    rw [Phi_succ]
    iintro ⟨H, Hr⟩
    isplitl [H]
    · iexists _; iexact H
    iexact Hr

/-! ## The proof data -/

/-- The pass's proof data on core `c`: the arrays as found; after the body every input window's buffer at its
    block and the output window's at `outAt`; the invariant `Phi`; nothing owed; full shares. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => outAt V c t
  Φ t := Phi V c t.val (Nat.le_of_lt_succ t.isLt)
  q _ := fullShare
  owed _ := 0

theorem A_eq (c : Dev nD) (w : Fin cfg1.W) : (dat V c).A w = V c (Pipeline.arrRef spec1 w) := by
  dsimp only [dat]
theorem Phi_castSucc (c : Dev nD) (t : Fin cfg1.N) :
    (dat V c).Φ t.castSucc = Phi V c t.val (Nat.le_of_lt t.isLt) := by
  dsimp only [dat]; simp only [Fin.coe_castSucc]
theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = blk V c 2 t := by dsimp only [dat]
theorem after_3 (c : Dev nD) (t : Fin cfg1.N) : (dat V c).after 3 t = blk V c 3 t := by dsimp only [dat]
theorem after_4 (c : Dev nD) (t : Fin cfg1.N) : (dat V c).after 4 t = blk V c 4 t := by dsimp only [dat]
theorem after_5 (c : Dev nD) (t : Fin cfg1.N) : (dat V c).after 5 t = blk V c 5 t := by dsimp only [dat]
theorem after_out (c : Dev nD) (t : Fin cfg1.N) : (dat V c).after 6 t = outAt V c t := by dsimp only [dat]

/-- Every input window's current buffer holds its block when the body runs, fetched at that point or not (a window
    whose block index does not move between two points is not fetched again and still holds the same block). -/
theorem before_0 (c : Dev nD) (t : Fin cfg1.N) (d) : (dat V c).before 0 t d = blk V c 0 t :=
  ((dat V c).before_in_eq_fetched 0 rfl (fun _ => rfl) (fun _ _ _ => rfl)
    (fun t => by rw [after_0]; unfold Dat.blockOf blk; rw [A_eq]; try rfl) t d).trans
    (by unfold Dat.fetched Dat.blockOf blk; rw [A_eq]; try rfl)
theorem before_1 (c : Dev nD) (t : Fin cfg1.N) (d) : (dat V c).before 1 t d = blk V c 1 t :=
  ((dat V c).before_in_eq_fetched 1 rfl (fun _ => rfl) (fun _ _ _ => rfl)
    (fun t => by rw [after_1]; unfold Dat.blockOf blk; rw [A_eq]; try rfl) t d).trans
    (by unfold Dat.fetched Dat.blockOf blk; rw [A_eq]; try rfl)
theorem before_2 (c : Dev nD) (t : Fin cfg1.N) (d) : (dat V c).before 2 t d = blk V c 2 t :=
  ((dat V c).before_in_eq_fetched 2 rfl (fun _ => rfl) (fun _ _ _ => rfl)
    (fun t => by rw [after_2]; unfold Dat.blockOf blk; rw [A_eq]; try rfl) t d).trans
    (by unfold Dat.fetched Dat.blockOf blk; rw [A_eq]; try rfl)
theorem before_3 (c : Dev nD) (t : Fin cfg1.N) (d) : (dat V c).before 3 t d = blk V c 3 t :=
  ((dat V c).before_in_eq_fetched 3 rfl (fun _ => rfl) (fun _ _ _ => rfl)
    (fun t => by rw [after_3]; unfold Dat.blockOf blk; rw [A_eq]; try rfl) t d).trans
    (by unfold Dat.fetched Dat.blockOf blk; rw [A_eq]; try rfl)
theorem before_4 (c : Dev nD) (t : Fin cfg1.N) (d) : (dat V c).before 4 t d = blk V c 4 t :=
  ((dat V c).before_in_eq_fetched 4 rfl (fun _ => rfl) (fun _ _ _ => rfl)
    (fun t => by rw [after_4]; unfold Dat.blockOf blk; rw [A_eq]; try rfl) t d).trans
    (by unfold Dat.fetched Dat.blockOf blk; rw [A_eq]; try rfl)
theorem before_5 (c : Dev nD) (t : Fin cfg1.N) (d) : (dat V c).before 5 t d = blk V c 5 t :=
  ((dat V c).before_in_eq_fetched 5 rfl (fun _ => rfl) (fun _ _ _ => rfl)
    (fun t => by rw [after_5]; unfold Dat.blockOf blk; rw [A_eq]; try rfl) t d).trans
    (by unfold Dat.fetched Dat.blockOf blk; rw [A_eq]; try rfl)

end Cert.Kernel.Gcn

end
-- ==== Proof.BitsGcnBody.lean ====
/-
  The aggregation pass's obligation at every point. The pipeline hands the body the invariant and the seven
  windows' buffers, every input window's at its block; by the kind of point the matching run of the body
  applies. At first- and middle-column points only the adjacency tile, the scaled feature rows and the accumulator
  are touched, the other buffers going back as found; at a last-column point every input is read and the output
  block stored. What is left is what the proof data names: stores that cover a buffer read back as its contents.
-/
import proofs.«147230_j21835613732936_2_alg».proof.Proof.BitsGcnData

set_option maxRecDepth 16384

noncomputable section

namespace Cert.Kernel.Gcn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (s0 t) fullShare ((dat V c).before 0 t d))
    ∗ (∃ d, owns (c : Thread nD τ) (s1 t) fullShare ((dat V c).before 1 t d))
    ∗ (∃ d, owns (c : Thread nD τ) (s2 t) fullShare ((dat V c).before 2 t d))
    ∗ (∃ d, owns (c : Thread nD τ) (s3 t) fullShare ((dat V c).before 3 t d))
    ∗ (∃ d, owns (c : Thread nD τ) (s4 t) fullShare ((dat V c).before 4 t d))
    ∗ (∃ d, owns (c : Thread nD τ) (s5 t) fullShare ((dat V c).before 5 t d))
    ∗ (∃ d, owns (c : Thread nD τ) (s6 t) fullShare ((dat V c).before 6 t d)))
/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t)

set_option maxHeartbeats 8000000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5]
  rw [show (dat V c).owesAt () t.succ = (dat V c).owesAt () t.castSucc from rfl]
  rw [show (dat V c).Φ t.succ = Phi V c (t.val + 1) t.isLt from rfl, Phi_succ]
  rw [show (dat V c).leavesExact 0 t = owns (c : Thread nD τ) (s0 t) fullShare ((dat V c).after 0 t) from by
    unfold Dat.leavesExact; rw [in_live 0 (by decide) t], after_0]
  rw [show (dat V c).leavesExact 1 t = owns (c : Thread nD τ) (s1 t) fullShare ((dat V c).after 1 t) from by
    unfold Dat.leavesExact; rw [in_live 1 (by decide) t], after_1]
  rw [show (dat V c).leavesExact 2 t = owns (c : Thread nD τ) (s2 t) fullShare ((dat V c).after 2 t) from by
    unfold Dat.leavesExact; rw [in_live 2 (by decide) t], after_2]
  rw [show (dat V c).leavesExact 3 t = owns (c : Thread nD τ) (s3 t) fullShare ((dat V c).after 3 t) from by
    unfold Dat.leavesExact; rw [in_live 3 (by decide) t], after_3]
  rw [show (dat V c).leavesExact 4 t = owns (c : Thread nD τ) (s4 t) fullShare ((dat V c).after 4 t) from by
    unfold Dat.leavesExact; rw [in_live 4 (by decide) t], after_4]
  rw [show (dat V c).leavesExact 5 t = owns (c : Thread nD τ) (s5 t) fullShare ((dat V c).after 5 t) from by
    unfold Dat.leavesExact; rw [in_live 5 (by decide) t], after_5]
  rw [Phi_castSucc]
  by_cases h0 : t.val % 4 = 0
  · have h1 : ¬ t.val % 4 = 3 := by omega
    have hf : first (grid1.coords t) := (first_iff t).mpr h0
    have hnl : ¬ last (grid1.coords t) := fun h => h1 ((last_iff t).mp h)
    rw [Dat.leavesExact_idle (dat V c) 6 t (out_idle t hnl) (out_noflush t hnl)]
    rw [accAt_first V c t h0 h1]
    unfold accFirst
    refine (sep_mono (Phi_some V c _ _) .rfl).trans ?_
    iintro ⟨⟨HS, Hr⟩, Ho, ⟨%d0, H0⟩, ⟨%d1, H1⟩, ⟨%d2, H2⟩, ⟨%d3, H3⟩, ⟨%d4, H4⟩, ⟨%d5, H5⟩, ⟨%d6, H6⟩⟩
    iapply ((runFirst c (grid1.coords t) _ _ _ _ _ _ _ _ _ _ _ _ _ _ _ _ hf hnl (blk V c 0 t) (blk V c 1 t)).2 Set.univ _)
    isplitl [H0]; · iexact H0
    isplitl [H1]; · iexact H1
    isplitl [HS]; · iexact HS
    iintro ⟨H0, H1, ⟨%es, HS⟩⟩
    isplitl [HS Hr]
    · isplitl [HS]
      · unfold owns; iexists _; isplitr
        swap; · iexact HS
        ipureintro; exact View.read_writes_of_cover _ _ _ _ _ (accFirst_cover V c t hf hnl)
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · have hnf : ¬ first (grid1.coords t) := fun h => h0 ((first_iff t).mp h)
    have hz : t.val ≠ 0 := fun h => h0 (by rw [h])
    rw [Phi_pos V c _ _ hz]
    by_cases h1 : t.val % 4 = 3
    · have hl : last (grid1.coords t) := (last_iff t).mpr h1
      rw [show (dat V c).leavesExact 6 t = owns (c : Thread nD τ) (s6 t) fullShare ((dat V c).after 6 t) from by
        unfold Dat.leavesExact; rw [out_live t hl], after_out]
      rw [accAt_last V c t h0 h1]
      rw [show outAt V c t = outLast V c t hnf hl (accAt V c (t.val - 1) (Nat.lt_of_le_of_lt (Nat.sub_le _ _) t.isLt)) from dif_pos h1]
      unfold accLast outLast
      iintro ⟨⟨HS, Hr⟩, Ho, ⟨%d0, H0⟩, ⟨%d1, H1⟩, ⟨%d2, H2⟩, ⟨%d3, H3⟩, ⟨%d4, H4⟩, ⟨%d5, H5⟩, ⟨%d6, H6⟩⟩
      iapply ((runLast c (grid1.coords t) _ _ _ _ _ _ _ _ _ _ _ _ _ _ _ _ hnf hl (blk V c 0 t) (blk V c 1 t) (blk V c 2 t) (blk V c 3 t) (blk V c 4 t) (blk V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, ⟨%e6, H6⟩, ⟨%es, HS⟩⟩
      isplitl [HS Hr]
      · isplitl [HS]
        · unfold owns; iexists _; isplitr
          swap; · iexact HS
          ipureintro; exact View.read_writes_of_cover _ _ _ _ _ (accLast_cover V c t hnf hl _)
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (outLast_cover V c t hnf hl _)
    · have hnl : ¬ last (grid1.coords t) := fun h => h1 ((last_iff t).mp h)
      rw [Dat.leavesExact_idle (dat V c) 6 t (out_idle t hnl) (out_noflush t hnl)]
      rw [accAt_mid V c t h0 h1]
      unfold accMid
      iintro ⟨⟨HS, Hr⟩, Ho, ⟨%d0, H0⟩, ⟨%d1, H1⟩, ⟨%d2, H2⟩, ⟨%d3, H3⟩, ⟨%d4, H4⟩, ⟨%d5, H5⟩, ⟨%d6, H6⟩⟩
      iapply ((runMid c (grid1.coords t) _ _ _ _ _ _ _ _ _ _ _ _ _ _ _ _ hnf hnl (blk V c 0 t) (blk V c 1 t) _).2 Set.univ _)
      isplitl [H0]; · iexact H0
      isplitl [H1]; · iexact H1
      isplitl [HS]; · iexact HS
      iintro ⟨H0, H1, ⟨%es, HS⟩⟩
      isplitl [HS Hr]
      · isplitl [HS]
        · unfold owns; iexists _; isplitr
          swap; · iexact HS
          ipureintro; exact View.read_writes_of_cover _ _ _ _ _ (accMid_cover V c t hnf hnl _)
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The obligation at every point of the grid. -/
theorem body_obligation (c : Dev nD) : BodyObligation (dat V c) (defs₀ (F := F)) Variants.none () Set.univ := fun t => by
  rw [bigSep_W1, bigSep_W1]
  exact sound_body V c t

end Cert.Kernel.Gcn

end
-- ==== Proof.BitsRun.lean ====
/-
  The whole program as three segments: the degree pass, the host stretch that scales the features by the degree
  factors (and recasts the weights and the bias), and the aggregation pass. The contents of every unscoped buffer are
  threaded through as a valuation: at launch the memory; after the degree pass the same with its result array at
  what the pass's write-backs leave; after the host stretch the operations applied to that; after the aggregation
  pass the same with its result array at what that pass leaves. Each pass enters from the valuation before it and
  leaves at the one after it; between the passes each core holds those buffers and owes nothing. The run's
  conclusion reads every unscoped buffer off the last valuation: in particular the result array, and the four
  argument arrays, which no segment changes.
-/
import proofs.«147230_j21835613732936_2_alg».proof.Proof.BitsDegreeBody
import proofs.«147230_j21835613732936_2_alg».proof.Proof.BitsGcnBody
import proofs.«147230_j21835613732936_2_alg».proof.Proof.Gen.Kernel.Regions
import Idealize.ShloMosaic.Lib.Pipeline.Regions
import Idealize.ShloMosaic.Lib.Pipeline.RegionsLoop
import Idealize.ShloMosaic.Lib.Pipeline.FrameSuffix

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the segments -/

/-- At launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the degree pass: its arrays at what the pass leaves, every other buffer as before. -/
def W1 (c : Dev nD) : Valuation τ sig (Elt F) :=
  Pipeline.withArrays spec0 c (W0 m ρ c) fun w => (Degree.dat (V0 m ρ) c).arrAt w cfg0.N
theorem W1_arr (c : Dev nD) (w : Fin cfg0.W) :
    W1 m ρ c (Proc.devRef .tc (Pipeline.arrRef spec0 w)) = (Degree.dat (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (Degree.dat (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the host stretch. -/
abbrev W2 (c : Dev nD) : Valuation τ sig (Elt F) := StableHlo.after hostOps1 (W1 m ρ c)
abbrev V2 : (c : Dev nD) → (b : Ref sig .tc) → Buf (Elt F) ((c : Thread nD τ).loc b) := fun c b => W2 m ρ c b
/-- The host stretch changes only the buffers its operations write. -/
theorem W2_of (c : Dev nD) (r : Ref sig .tc) (h : r ∉ hostOps1_W) : W2 m ρ c r = W1 m ρ c r :=
  StableHlo.after_of_writes_sub hostOps1 _ hostOps1_writes h

/-- After the aggregation pass: its arrays at what the pass leaves, every other buffer as before. -/
def W3 (c : Dev nD) : Valuation τ sig (Elt F) :=
  Pipeline.withArrays spec1 c (W2 m ρ c) fun w => (Gcn.dat (V2 m ρ) c).arrAt w cfg1.N
theorem W3_arr (c : Dev nD) (w : Fin cfg1.W) :
    W3 m ρ c (Proc.devRef .tc (Pipeline.arrRef spec1 w)) = (Gcn.dat (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (Gcn.dat (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## No segment changes an argument -/

/-- The features: the aggregation pass reads them through a window, the host stretch does not write them, and the
    degree pass does not touch them. -/
theorem W3_arg0 (c : Dev nD) : W3 m ρ c (Proc.devRef .tc main_arg0) = m ((c : Thread nD τ).loc main_arg0) :=
  calc W3 m ρ c (Proc.devRef .tc main_arg0)
    _ = V2 m ρ c main_arg0 := (W3_arr m ρ c 2).trans (((Gcn.dat (V2 m ρ) c).arrAt_in 2 rfl _).trans (Gcn.A_eq (V2 m ρ) c 2))
    _ = W1 m ρ c (Proc.devRef .tc main_arg0) := W2_of m ρ c main_arg0 (by decide)
    _ = W0 m ρ c (Proc.devRef .tc main_arg0) := W1_of_ne m ρ c main_arg0 (by decide)
    _ = m ((c : Thread nD τ).loc main_arg0) := rfl
/-- The adjacency matrix: both passes read it through a window. -/
theorem W3_arg1 (c : Dev nD) : W3 m ρ c (Proc.devRef .tc main_arg1) = m ((c : Thread nD τ).loc main_arg1) :=
  calc W3 m ρ c (Proc.devRef .tc main_arg1)
    _ = V2 m ρ c main_arg1 := (W3_arr m ρ c 0).trans (((Gcn.dat (V2 m ρ) c).arrAt_in 0 rfl _).trans (Gcn.A_eq (V2 m ρ) c 0))
    _ = W1 m ρ c (Proc.devRef .tc main_arg1) := W2_of m ρ c main_arg1 (by decide)
    _ = W0 m ρ c (Proc.devRef .tc main_arg1) := (W1_arr m ρ c 0).trans (((Degree.dat (V0 m ρ) c).arrAt_in 0 rfl _).trans (Degree.A_eq (V0 m ρ) c 0))
    _ = m ((c : Thread nD τ).loc main_arg1) := rfl
/-- The weights and the bias: no pass stages them and the host stretch only reads them. -/
theorem W3_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of m ρ c main_arg2 (by decide)
    _ = W0 m ρ c (Proc.devRef .tc main_arg2) := W1_of_ne m ρ c main_arg2 (by decide)
    _ = m ((c : Thread nD τ).loc main_arg2) := rfl
theorem W3_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of m ρ c main_arg3 (by decide)
    _ = W0 m ρ c (Proc.devRef .tc main_arg3) := W1_of_ne m ρ c main_arg3 (by decide)
    _ = m ((c : Thread nD τ).loc main_arg3) := rfl

/-! ## The proof data of both passes and the state between segments -/

/-- Both passes' proof data, each at the contents its pass is entered from. -/
def pdats : (p : Fin 2) → (c : Dev nD) → Dat τ (Elt F) Unit ℕ (UR sig nD τ) ℕ (Pipeline.pin (pcfgs (F := F)) adm p) c
  | ⟨0, _⟩ => fun c => Degree.dat (V0 m ρ) c
  | ⟨1, _⟩ => fun c => Gcn.dat (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core owing nothing. -/
abbrev R (c : Dev nD) : sProp 𝕄 := iprop(∃ W, owes (c : Thread nD τ) (0 : CellTallies nD τ sig Unit) W)
/-- The host stretch as a segment over the unscoped buffers. -/
abbrev hostSeg : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W1 m ρ) R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state, the `owes` apart: every unscoped buffer at the last valuation. -/
abbrev Tₙ (c : Dev nD) : sProp 𝕄 := StableHlo.held (c : Thread nD τ) (Pipeline.ucRefs τ sig) (W3 m ρ c)

/-! ## The passes as segments

Each pass's arrays are split out of the unscoped buffers at its entry and put back, at what the pass leaves, at
its exit; the invariant takes the program's scratch buffers in whole and gives them back whole, the accumulator's
named contents forgotten; the kernels have no semaphore of their own and owe nothing. -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Degree.body_obligation (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X _ := iprop(emp)
  Y _ := iprop(emp)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m ρ 0 c).Φ 0
      = (Pipeline.scopedRest (Ix := Unit) (Name := ℕ) (U := UR sig nD τ) (Lvl := ℕ) (Val := Elt F) spec0 c : sProp 𝕄) from rfl]
    iintro ⟨-, -, Hr⟩
    iexact Hr
  hout c := by
    rw [Pipeline.ownSems0_none, show (pdats m ρ 0 c).Φ (Fin.last _) = Degree.Phi (V0 m ρ) c cfg0.N (Nat.le_refl _) from rfl,
      Degree.Phi_pos (V0 m ρ) c _ _ (by decide)]
    iintro ⟨HS, Hr⟩
    isplitr; · iempintro
    isplitr; · iempintro
    iapply (Entails.of_eq (Degree.scoped_eq (F := F) c).symm)
    isplitl [HS]
    · iexists _; iexact HS
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (fun b => W1 m ρ c b) ((pdats m ρ 0 c).arrAt · cfg0.N) (hF0 m ρ c) (hrest0 m ρ c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Gcn.body_obligation (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X _ := iprop(emp)
  Y _ := iprop(emp)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m ρ 1 c).Φ 0
      = (Pipeline.scopedRest (Ix := Unit) (Name := ℕ) (U := UR sig nD τ) (Lvl := ℕ) (Val := Elt F) spec1 c : sProp 𝕄) from rfl]
    iintro ⟨-, -, Hr⟩
    iexact Hr
  hout c := by
    rw [Pipeline.ownSems0_none, show (pdats m ρ 1 c).Φ (Fin.last _) = Gcn.Phi (V2 m ρ) c cfg1.N (Nat.le_refl _) from rfl,
      Gcn.Phi_pos (V2 m ρ) c _ _ (by decide)]
    iintro ⟨HS, Hr⟩
    isplitr; · iempintro
    isplitr; · iempintro
    iapply (Gcn.scoped_join (F := F) c)
    isplitl [HS]
    · iexists _; iexact HS
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (fun b => W3 m ρ c b) ((pdats m ρ 1 c).arrAt · cfg1.N) (hF1 m ρ c) (hrest1 m ρ c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

/-! ## The launch -/

abbrev segs : List (Pipeline.Seg (pcfgs (F := F)) adm (pdats m ρ) () defs₀ 𝒱₀ L lv) :=
  [ .region (reg0 m ρ),
    .host (hostSeg m ρ),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of the program terminates, nothing faulting,
    with the result array at the last valuation's contents and the four arguments as launched. -/
theorem run : θ_run defs (onTc (τ := τ) (main (F := F))) ⟨m, fun _ => 0, ρ⟩ (fun r => ∀ c : Dev nD,
      r.2.mem ((c.tc : Thread nD τ).loc main_v6) = W3 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, -, -⟩, -⟩
      imodintro
      isplitl [Hh]; · iexact Hh
      iexists ∅; iexact HO)
    (QY := fun c s => ∀ b ∈ Pipeline.ucRefs τ sig, s.mem (((c : Thread nD τ)).1, b) = W3 m ρ c b)
    (hfin := fun c s' => by
      unfold Tₙ StableHlo.held
      iintro ⟨Hh, HSI⟩
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v6 (by decide)),
       (h c _ (mem_uc main_arg0 (by decide))).trans (W3_arg0 m ρ c),
       (h c _ (mem_uc main_arg1 (by decide))).trans (W3_arg1 m ρ c),
       (h c _ (mem_uc main_arg2 (by decide))).trans (W3_arg2 m ρ c),
       (h c _ (mem_uc main_arg3 (by decide))).trans (W3_arg3 m ρ c)⟩)

end Cert.Kernel.Run

end
-- ==== Proof.DegreeCases.lean ====
/-
  The degree pass (first pallas_call) walks an 8 × 8 grid of (row block i, column block j). Its body has two
  branches on the column coordinate alone: at j = 0 the row-sum accumulator is reset to zero before anything is
  added, and at j = 7 the accumulated row sums, plus one, go through the reciprocal square root into the output
  block. Every point adds the lane sums of its 1024 × 1024 tile of the adjacency matrix to the accumulator. So the
  grid's points fall into three kinds — first column, middle columns, last column — and this module states the
  two conditions and decides, over the grid, at which points each holds and when the output block is written back.
-/
import proofs.«147230_j21835613732936_2_alg».proof.Proof.Gen.KernelIdeal.Launch
import proofs.«147230_j21835613732936_2_alg».proof.Proof.Gen.KernelIdeal.Skeleton
import proofs.«147230_j21835613732936_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Degree

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The point is in the first column: the accumulator is reset there. -/
abbrev first (i : grid0.Coords) : Prop :=
  (Scalar.cmpi .ne (Scalar.extui (Scalar.cmpi .eq (BitVec.ofNat 32 (i 1).val) 0#32)) 0#32) = 1#1
/-- The point is in the last column: the output block is computed there. -/
abbrev last (i : grid0.Coords) : Prop := k0_cond2 i = 1#1

/-- With eight column blocks per row block and the column coordinate minor, the first column is the points ≡ 0 (mod 8). -/
theorem first_iff : ∀ t : Fin cfg0.N, first (grid0.coords t) ↔ t.val % 8 = 0 :=
  (by decide +kernel : ∀ t : Fin grid0.N, first (grid0.coords t) ↔ t.val % 8 = 0)
/-- The last column is the points ≡ 7 (mod 8). -/
theorem last_iff : ∀ t : Fin cfg0.N, last (grid0.coords t) ↔ t.val % 8 = 7 :=
  (by decide +kernel : ∀ t : Fin grid0.N, last (grid0.coords t) ↔ t.val % 8 = 7)

/-- The adjacency window is never idle. -/
theorem adj_live : ∀ t : Fin cfg0.N, cfg0.idle 0 (grid0.coords t) = false := by decide +kernel
/-- Away from the last column the output window is idle and its block is not written back. -/
theorem out_idle : ∀ t : Fin cfg0.N, ¬ last (grid0.coords t) → cfg0.idle 1 (grid0.coords t) = true := by decide +kernel
theorem out_noflush : ∀ t : Fin cfg0.N, ¬ last (grid0.coords t) → (cfg0.win 1).flush t = false := by decide +kernel
/-- In the last column the output window is live. -/
theorem out_live : ∀ t : Fin cfg0.N, last (grid0.coords t) → cfg0.idle 1 (grid0.coords t) = false := by decide +kernel

end Cert.KernelIdeal.Degree

end
-- ==== Proof.DegreeFirst.lean ====
/-
  The degree pass at a point of the first column. The accumulator, whatever it held, is overwritten with zeros;
  the tile of the adjacency matrix is read; the accumulator is read back and overwritten with itself plus the
  tile's lane sums. The output block is not touched. The accumulator's final contents are stated as the list of
  whole-buffer stores made into it, latest first; a later module reads that list back as a value.
-/
import proofs.«147230_j21835613732936_2_alg».proof.Proof.DegreeCases

set_option maxRecDepth 16384

noncomputable section

namespace Cert.KernelIdeal.Degree

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
/-- First column: from the tile at `a`, the output block at `o` and the accumulator at anything, the body runs
    to its return with tile and output block as they were and the accumulator holding the stores `LS`. -/
noncomputable def runFirst (c : Dev nD) (i : grid0.Coords)
    (adjM : Memref sig .tc .vmem S1024x1024 .f32) (hadj : adjM.IsWhole)
    (outM : Memref sig .tc .vmem S1024x1 .f32) (hout : outM.IsWhole)
    (accM : Memref sig .tc .vmem S1024x1 .f32) (hacc : accM.IsWhole)
    (h0 : first i) (h1 : ¬ last i) (a : Vec F S1024x1024 .f32) :
    { LS : List (View.Piece (Elt F) S1024x1 .f32) //
      ∀ (o : Vec F S1024x1 .f32) (E : Set ℕ) (K : PUnit → sProp 𝕄),
        iprop(owns (c : Thread nD τ) adjM fullShare a ∗ owns (c : Thread nD τ) outM fullShare o
            ∗ (∃ d, owns (c : Thread nD τ) accM fullShare d)
            ∗ (iprop(owns (c : Thread nD τ) adjM fullShare a ∗ owns (c : Thread nD τ) outM fullShare o
                ∗ (∃ f, accM.view.loc (c : Thread nD τ) ↦[accM.view.set]{fullShare} accM.view.writes (Elt F) f LS)) -∗ K ⟨⟩))
          ⊢ wp frame (wpE (defs₀ (F := F)) Variants.none c none) E (cc0__degree_kernel i adjM hadj outM hout accM hacc) K } := by
  refine ⟨?_, fun o E K => ?run⟩
  case run =>
    simp only [cc0__degree_kernel_eq_skeleton]; unfold cc0__degree_kernel_skel
    unfold owns
    iintro ⟨⟨%f0, %hf0, H0⟩, ⟨%f1, %hf1, H1⟩, ⟨%ds, %fs, -, HS⟩, Hk⟩
    obtain rfl := hadj.eq_unread hf0; obtain rfl := hout.eq_unread hf1
    sl_exec (disch := first | exact h0 | exact h1)
    sl_step
    iapply Hk
    isplitl [H0]
    · iexists _; isplitr; · ipureintro; exact hadj.read_unread _
      iexact H0
    isplitl [H1]
    · iexists _; isplitr; · ipureintro; exact hout.read_unread _
      iexact H1
    iexists _; iexact HS

end Cert.KernelIdeal.Degree

end
-- ==== Proof.DegreeMid.lean ====
/-
  The degree pass at a point of a middle column. Nothing is reset: the accumulator holds what the point before
  left (`s`); the tile is read; the accumulator is read back and overwritten with itself plus the tile's lane
  sums. The output block is not touched.
-/
import proofs.«147230_j21835613732936_2_alg».proof.Proof.DegreeCases

set_option maxRecDepth 16384

noncomputable section

namespace Cert.KernelIdeal.Degree

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
/-- Middle column: from the tile at `a`, the output block at `o` and the accumulator at `s`, the body runs to
    its return with tile and output block as they were and the accumulator holding the stores `LS`. -/
noncomputable def runMid (c : Dev nD) (i : grid0.Coords)
    (adjM : Memref sig .tc .vmem S1024x1024 .f32) (hadj : adjM.IsWhole)
    (outM : Memref sig .tc .vmem S1024x1 .f32) (hout : outM.IsWhole)
    (accM : Memref sig .tc .vmem S1024x1 .f32) (hacc : accM.IsWhole)
    (h0 : ¬ first i) (h1 : ¬ last i) (a : Vec F S1024x1024 .f32) (s : Vec F S1024x1 .f32) :
    { LS : List (View.Piece (Elt F) S1024x1 .f32) //
      ∀ (o : Vec F S1024x1 .f32) (E : Set ℕ) (K : PUnit → sProp 𝕄),
        iprop(owns (c : Thread nD τ) adjM fullShare a ∗ owns (c : Thread nD τ) outM fullShare o
            ∗ owns (c : Thread nD τ) accM fullShare s
            ∗ (iprop(owns (c : Thread nD τ) adjM fullShare a ∗ owns (c : Thread nD τ) outM fullShare o
                ∗ (∃ f, accM.view.loc (c : Thread nD τ) ↦[accM.view.set]{fullShare} accM.view.writes (Elt F) f LS)) -∗ K ⟨⟩))
          ⊢ wp frame (wpE (defs₀ (F := F)) Variants.none c none) E (cc0__degree_kernel i adjM hadj outM hout accM hacc) K } := by
  refine ⟨?_, fun o E K => ?run⟩
  case run =>
    simp only [cc0__degree_kernel_eq_skeleton]; unfold cc0__degree_kernel_skel
    unfold owns
    iintro ⟨⟨%f0, %hf0, H0⟩, ⟨%f1, %hf1, H1⟩, ⟨%fs, %hfs, HS⟩, Hk⟩
    obtain rfl := hadj.eq_unread hf0; obtain rfl := hout.eq_unread hf1; obtain rfl := hacc.eq_unread hfs
    sl_exec (disch := first | exact h0 | exact h1)
    sl_step
    iapply Hk
    isplitl [H0]
    · iexists _; isplitr; · ipureintro; exact hadj.read_unread _
      iexact H0
    isplitl [H1]
    · iexists _; isplitr; · ipureintro; exact hout.read_unread _
      iexact H1
    iexists _; iexact HS

end Cert.KernelIdeal.Degree

end
-- ==== Proof.DegreeLast.lean ====
/-
  The degree pass at a point of the last column. The accumulator holds what the point before left (`s`); the
  tile's lane sums are added to it as at every point; then the accumulator is read once more, one is added, and the
  reciprocal square root of that is stored over the whole output block, whatever the block held.
-/
import proofs.«147230_j21835613732936_2_alg».proof.Proof.DegreeCases

set_option maxRecDepth 16384

noncomputable section

namespace Cert.KernelIdeal.Degree

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
/-- Last column: from the tile at `a`, the output block at anything and the accumulator at `s`, the body runs to
    its return with the tile as it was, the output block holding the stores `LO` and the accumulator the stores `LS`. -/
noncomputable def runLast (c : Dev nD) (i : grid0.Coords)
    (adjM : Memref sig .tc .vmem S1024x1024 .f32) (hadj : adjM.IsWhole)
    (outM : Memref sig .tc .vmem S1024x1 .f32) (hout : outM.IsWhole)
    (accM : Memref sig .tc .vmem S1024x1 .f32) (hacc : accM.IsWhole)
    (h0 : ¬ first i) (h1 : last i) (a : Vec F S1024x1024 .f32) (s : Vec F S1024x1 .f32) :
    Σ' (LO : List (View.Piece (Elt F) S1024x1 .f32)), { LS : List (View.Piece (Elt F) S1024x1 .f32) //
      ∀ (E : Set ℕ) (K : PUnit → sProp 𝕄),
        iprop(owns (c : Thread nD τ) adjM fullShare a ∗ (∃ d, owns (c : Thread nD τ) outM fullShare d)
            ∗ owns (c : Thread nD τ) accM fullShare s
            ∗ (iprop(owns (c : Thread nD τ) adjM fullShare a
                ∗ (∃ f, outM.view.loc (c : Thread nD τ) ↦[outM.view.set]{fullShare} outM.view.writes (Elt F) f LO)
                ∗ (∃ f, accM.view.loc (c : Thread nD τ) ↦[accM.view.set]{fullShare} accM.view.writes (Elt F) f LS)) -∗ K ⟨⟩))
          ⊢ wp frame (wpE (defs₀ (F := F)) Variants.none c none) E (cc0__degree_kernel i adjM hadj outM hout accM hacc) K } := by
  refine ⟨?_, ?_, fun E K => ?run⟩
  case run =>
    simp only [cc0__degree_kernel_eq_skeleton]; unfold cc0__degree_kernel_skel
    unfold owns
    iintro ⟨⟨%f0, %hf0, H0⟩, ⟨%d1, %f1, -, H1⟩, ⟨%fs, %hfs, HS⟩, Hk⟩
    obtain rfl := hadj.eq_unread hf0; obtain rfl := hacc.eq_unread hfs
    sl_exec (disch := first | exact h0 | exact h1)
    sl_step
    iapply Hk
    isplitl [H0]
    · iexists _; isplitr; · ipureintro; exact hadj.read_unread _
      iexact H0
    isplitl [H1]
    · iexists _; iexact H1
    iexists _; iexact HS

end Cert.KernelIdeal.Degree

end
-- ==== Proof.DegreeData.lean ====
/-
  What the degree pass holds point by point. The accumulator after a point is determined by recursion along the
  row of column blocks: after a first-column point it is zero plus that tile's lane sums; after any later point
  it is what the point before left plus this tile's lane sums. The output block is stored only at a last-column
  point, from the accumulator the point before left. With these contents named, the pass's invariant between two
  points is: the accumulator at the contents of the point just done (anything before the first point), and every
  other scratch buffer of the program at anything.
-/
import proofs.«147230_j21835613732936_2_alg».proof.Proof.DegreeFirst
import proofs.«147230_j21835613732936_2_alg».proof.Proof.DegreeMid
import proofs.«147230_j21835613732936_2_alg».proof.Proof.DegreeLast

set_option maxRecDepth 16384

noncomputable section

namespace Cert.KernelIdeal.Degree

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]

local notation "𝕄" => MT nD τ sig Unit (Elt F) ℕ (UR sig nD τ) ℕ

-- The unscoped buffers as the pass finds them.
variable (V : (c : Dev nD) → (b : Ref sig .tc) → Buf (Elt F) ((c : Thread nD τ).loc b))

/-- The 1024 × 1024 tile of the adjacency matrix at point `t`. -/
def tile (c : Dev nD) (t : Fin cfg0.N) : ((cfg0.win 0).xblock (cfg0.grid.coords t)).Idx → Elt F (cfg0.win 0).elt :=
  ((cfg0.win 0).blk t).view.read (Elt F) (V c (Pipeline.arrRef spec0 0))

/-- The staging memrefs the body is called with at point `t`, and the accumulator. -/
abbrev adjS (t : Fin cfg0.N) : Memref sig .tc .vmem S1024x1024 .f32 := win0_0.stage (cfg0.slots t 0)
abbrev adjSw (t : Fin cfg0.N) : (adjS t).IsWhole := hstage0_0 ((cfg0.slots t 0).cast nbuf0_0)
abbrev outS (t : Fin cfg0.N) : Memref sig .tc .vmem S1024x1 .f32 := win0_1.stage (cfg0.slots t 1)
abbrev outSw (t : Fin cfg0.N) : (outS t).IsWhole := hstage0_1 ((cfg0.slots t 1).cast nbuf0_1)
abbrev accM : Memref sig .tc .vmem S1024x1 .f32 := Memref.whole cc0_scratch0
abbrev accV : View sig .tc .vmem S1024x1 .f32 := accM.view
abbrev outV : View sig .tc .vmem S1024x1 .f32 := (Memref.whole cc0_stg1_0 : Memref sig .tc .vmem S1024x1 .f32).view

/-! ## One point -/

/-- The accumulator after a first-column point: its stores read back. -/
def accFirst (c : Dev nD) (t : Fin cfg0.N) (h0 : first (grid0.coords t)) (h1 : ¬ last (grid0.coords t)) : Vec F S1024x1 .f32 :=
  accV.read (Elt F) (accV.writes (Elt F) accV.junk (runFirst c (grid0.coords t) (adjS t) (adjSw t) (outS t) (outSw t) accM (Memref.isWhole_whole _) h0 h1 (tile V c t)).1)
/-- Those stores cover the accumulator. -/
theorem accFirst_cover (c : Dev nD) (t : Fin cfg0.N) (h0 : first (grid0.coords t)) (h1 : ¬ last (grid0.coords t)) (y : S1024x1.Idx) :
    ∃ pc ∈ (runFirst c (grid0.coords t) (adjS t) (adjSw t) (outS t) (outSw t) accM (Memref.isWhole_whole _) h0 h1 (tile V c t)).1, y ∈ pc.1.set :=
  View.cover_of_tiledL _ S1024x1.size (by sl_kernel_rfl) y

/-- The accumulator after a middle-column point that found it at `s`. -/
def accMid (c : Dev nD) (t : Fin cfg0.N) (h0 : ¬ first (grid0.coords t)) (h1 : ¬ last (grid0.coords t)) (s : Vec F S1024x1 .f32) : Vec F S1024x1 .f32 :=
  accV.read (Elt F) (accV.writes (Elt F) accV.junk (runMid c (grid0.coords t) (adjS t) (adjSw t) (outS t) (outSw t) accM (Memref.isWhole_whole _) h0 h1 (tile V c t) s).1)
theorem accMid_cover (c : Dev nD) (t : Fin cfg0.N) (h0 : ¬ first (grid0.coords t)) (h1 : ¬ last (grid0.coords t)) (s : Vec F S1024x1 .f32) (y : S1024x1.Idx) :
    ∃ pc ∈ (runMid c (grid0.coords t) (adjS t) (adjSw t) (outS t) (outSw t) accM (Memref.isWhole_whole _) h0 h1 (tile V c t) s).1, y ∈ pc.1.set :=
  View.cover_of_tiledL _ S1024x1.size (by sl_kernel_rfl) y

/-- The accumulator and the output block after a last-column point that found the accumulator at `s`. -/
def accLast (c : Dev nD) (t : Fin cfg0.N) (h0 : ¬ first (grid0.coords t)) (h1 : last (grid0.coords t)) (s : Vec F S1024x1 .f32) : Vec F S1024x1 .f32 :=
  accV.read (Elt F) (accV.writes (Elt F) accV.junk (runLast c (grid0.coords t) (adjS t) (adjSw t) (outS t) (outSw t) accM (Memref.isWhole_whole _) h0 h1 (tile V c t) s).2.1)
theorem accLast_cover (c : Dev nD) (t : Fin cfg0.N) (h0 : ¬ first (grid0.coords t)) (h1 : last (grid0.coords t)) (s : Vec F S1024x1 .f32) (y : S1024x1.Idx) :
    ∃ pc ∈ (runLast c (grid0.coords t) (adjS t) (adjSw t) (outS t) (outSw t) accM (Memref.isWhole_whole _) h0 h1 (tile V c t) s).2.1, y ∈ pc.1.set :=
  View.cover_of_tiledL _ S1024x1.size (by sl_kernel_rfl) y
def outLast (c : Dev nD) (t : Fin cfg0.N) (h0 : ¬ first (grid0.coords t)) (h1 : last (grid0.coords t)) (s : Vec F S1024x1 .f32) : Vec F S1024x1 .f32 :=
  outV.read (Elt F) (outV.writes (Elt F) outV.junk (runLast c (grid0.coords t) (adjS t) (adjSw t) (outS t) (outSw t) accM (Memref.isWhole_whole _) h0 h1 (tile V c t) s).1)
theorem outLast_cover (c : Dev nD) (t : Fin cfg0.N) (h0 : ¬ first (grid0.coords t)) (h1 : last (grid0.coords t)) (s : Vec F S1024x1 .f32) (y : S1024x1.Idx) :
    ∃ pc ∈ (runLast c (grid0.coords t) (adjS t) (adjSw t) (outS t) (outSw t) accM (Memref.isWhole_whole _) h0 h1 (tile V c t) s).1, y ∈ pc.1.set :=
  View.cover_of_tiledL _ S1024x1.size (by sl_kernel_rfl) y

/-! ## Along the grid -/

/-- The accumulator after the body at position `n`: by the kind of point, over what position `n - 1` left. -/
def accAt (c : Dev nD) : (n : ℕ) → n < cfg0.N → Vec F S1024x1 .f32
  | 0, hn => accFirst V c ⟨0, hn⟩ ((first_iff ⟨0, hn⟩).mpr (Nat.zero_mod _)) (fun h => by have := (last_iff ⟨0, hn⟩).mp h; dsimp only at this; omega)
  | n + 1, hn =>
    if h0 : (n + 1) % 8 = 0 then
      accFirst V c ⟨n + 1, hn⟩ ((first_iff ⟨n + 1, hn⟩).mpr h0) (fun h => by have := (last_iff ⟨n + 1, hn⟩).mp h; dsimp only at this; omega)
    else if h1 : (n + 1) % 8 = 7 then
      accLast V c ⟨n + 1, hn⟩ (fun h => h0 ((first_iff ⟨n + 1, hn⟩).mp h)) ((last_iff ⟨n + 1, hn⟩).mpr h1) (accAt c n (Nat.lt_of_succ_lt hn))
    else
      accMid V c ⟨n + 1, hn⟩ (fun h => h0 ((first_iff ⟨n + 1, hn⟩).mp h)) (fun h => h1 ((last_iff ⟨n + 1, hn⟩).mp h)) (accAt c n (Nat.lt_of_succ_lt hn))

theorem accAt_first (c : Dev nD) (t : Fin cfg0.N) (h0 : t.val % 8 = 0) (h1 : ¬ t.val % 8 = 7) :
    accAt V c t.val t.isLt = accFirst V c t ((first_iff t).mpr h0) (fun h => h1 ((last_iff t).mp h)) := by
  obtain ⟨n, hn⟩ := t
  cases n with
  | zero => rfl
  | succ n => exact dif_pos h0
theorem accAt_mid (c : Dev nD) (t : Fin cfg0.N) (h0 : ¬ t.val % 8 = 0) (h1 : ¬ t.val % 8 = 7) :
    accAt V c t.val t.isLt = accMid V c t (fun h => h0 ((first_iff t).mp h)) (fun h => h1 ((last_iff t).mp h))
      (accAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)
theorem accAt_last (c : Dev nD) (t : Fin cfg0.N) (h0 : ¬ t.val % 8 = 0) (h1 : t.val % 8 = 7) :
    accAt V c t.val t.isLt = accLast V c t (fun h => h0 ((first_iff t).mp h)) ((last_iff t).mpr h1)
      (accAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- The output block's staging buffer after the body at point `t`: at a last-column point what that point stores,
    from the accumulator the point before left; elsewhere nothing is stored (a placeholder nothing consults: the
    window is idle there and its block not written back). -/
def outAt (c : Dev nD) (t : Fin cfg0.N) : Vec F S1024x1 .f32 :=
  if h1 : t.val % 8 = 7 then
    outLast V c t (fun h => by have := (first_iff t).mp h; omega) ((last_iff t).mpr h1)
      (accAt V c (t.val - 1) (Nat.lt_of_le_of_lt (Nat.sub_le _ _) t.isLt))
  else outV.read (Elt F) outV.junk

/-! ## The invariant -/

/-- Every scratch buffer of the program other than this pass's accumulator and staging buffers, at anything. -/
def rest (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_stg6_0), ((c : Thread nD τ).loc cc1_stg6_0) ↦{fullShare} f)
    ∗ (∃ f : Buf (Elt F) ((c : Thread nD τ).loc cc1_stg6_1), ((c : Thread nD τ).loc cc1_stg6_1) ↦{fullShare} f)
    ∗ (∃ f : Buf (Elt F) ((c : Thread nD τ).loc cc1_scratch0), ((c : Thread nD τ).loc cc1_scratch0) ↦{fullShare} f))

/-- The program's scratch buffers that this pass does not stage are the accumulator and those. -/
theorem scoped_eq (c : Dev nD) :
    (Pipeline.scopedRest (Ix := Unit) (Name := ℕ) (U := UR sig nD τ) (Lvl := ℕ) (Val := Elt F) spec0 c : sProp 𝕄)
      = iprop((∃ d, owns (c : Thread nD τ) accM fullShare d) ∗ rest (F := F) c) := by
  rw [scopedRest0_eq]; unfold rest; simp only [accM, owns_whole]; rfl

/-- Before position `n`: nothing known of the accumulator before the first point, afterwards its contents after
    position `n - 1`. -/
def Phi (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) accM fullShare (accAt V c n hn) ∗ rest (F := F) c)

theorem Phi_succ (c : Dev nD) (n : ℕ) (hn : n < cfg0.N) :
    Phi V c (n + 1) hn = iprop(owns (c : Thread nD τ) accM fullShare (accAt V c n hn) ∗ rest (F := F) c) := rfl
theorem Phi_pos (c : Dev nD) (n : ℕ) (h : n ≤ cfg0.N) (hz : n ≠ 0) :
    Phi V c n h = iprop(owns (c : Thread nD τ) accM fullShare (accAt V c (n - 1) (by omega)) ∗ rest (F := F) c) := by
  cases n with
  | zero => exact absurd rfl hz
  | succ n => rfl
/-- At any position the invariant holds the accumulator at something beside the other scratch buffers. -/
theorem Phi_some (c : Dev nD) (n : ℕ) (h : n ≤ cfg0.N) :
    Phi V c n h ⊢ iprop((∃ d, owns (c : Thread nD τ) accM fullShare d) ∗ rest (F := F) c) := by
  cases n with
  | zero => exact Entails.of_eq (scoped_eq c)
  | succ n =>
    rw [Phi_succ]
    iintro ⟨H, Hr⟩
    isplitl [H]
    · iexists _; iexact H
    iexact Hr

/-! ## The proof data -/

/-- The pass's proof data on core `c`: the arrays as found; after the body the adjacency window's buffer at its
    tile and the output window's at `outAt`; the invariant `Phi`; nothing owed; full shares. -/
def dat (c : Dev nD) : Dat τ (Elt F) Unit ℕ (UR sig nD τ) ℕ cfg0 c where
  A w := V c (Pipeline.arrRef spec0 w)
  after w t := match w with
    | ⟨0, _⟩ => tile V c t
    | ⟨1, _⟩ => outAt V c t
  Φ t := Phi V c t.val (Nat.le_of_lt_succ t.isLt)
  q _ := fullShare
  owed _ := 0

theorem A_eq (c : Dev nD) (w : Fin cfg0.W) : (dat V c).A w = V c (Pipeline.arrRef spec0 w) := by
  dsimp only [dat]
theorem Phi_castSucc (c : Dev nD) (t : Fin cfg0.N) :
    (dat V c).Φ t.castSucc = Phi V c t.val (Nat.le_of_lt t.isLt) := by
  dsimp only [dat]; simp only [Fin.coe_castSucc]
theorem after_adj (c : Dev nD) (t : Fin cfg0.N) : (dat V c).after 0 t = tile V c t := by dsimp only [dat]
theorem after_out (c : Dev nD) (t : Fin cfg0.N) : (dat V c).after 1 t = outAt V c t := by dsimp only [dat]

/-- The adjacency window's current buffer holds the point's tile when the body runs. -/
theorem before_adj (c : Dev nD) (t : Fin cfg0.N) (d) : (dat V c).before 0 t d = tile V c t :=
  ((dat V c).before_in_eq_fetched 0 rfl (fun _ => rfl) (fun _ _ _ => rfl)
    (fun t => by rw [after_adj]; unfold Dat.blockOf tile; rw [A_eq]; try rfl) t d).trans
    (by unfold Dat.fetched Dat.blockOf tile; rw [A_eq]; try rfl)

end Cert.KernelIdeal.Degree

end
-- ==== Proof.DegreeBody.lean ====
/-
  The degree pass's obligation at every point. The pipeline hands the body the invariant, the adjacency window's
  buffer at the point's tile and the output window's buffer; by the kind of point (first, middle or last column)
  the matching run of the body applies, and what it leaves is what the proof data names for that point: the
  accumulator's stores read back are its named contents because they cover the buffer, and likewise the output
  block's at a last-column point; elsewhere the output buffer is handed back as found.
-/
import proofs.«147230_j21835613732936_2_alg».proof.Proof.DegreeData

set_option maxRecDepth 16384

noncomputable section

namespace Cert.KernelIdeal.Degree

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (adjS t) fullShare ((dat V c).before 0 t d))
    ∗ (∃ d, owns (c : Thread nD τ) (outS t) fullShare ((dat V c).before 1 t d)))
/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t)

set_option maxHeartbeats 4800000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_adj]
  rw [show (dat V c).owesAt () t.succ = (dat V c).owesAt () t.castSucc from rfl]
  rw [show (dat V c).Φ t.succ = Phi V c (t.val + 1) t.isLt from rfl, Phi_succ]
  rw [show (dat V c).leavesExact 0 t = owns (c : Thread nD τ) (adjS t) fullShare ((dat V c).after 0 t) from by
    unfold Dat.leavesExact; rw [adj_live t], after_adj]
  rw [Phi_castSucc]
  by_cases h0 : t.val % 8 = 0
  · have h1 : ¬ t.val % 8 = 7 := by omega
    have hf : first (grid0.coords t) := (first_iff t).mpr h0
    have hnl : ¬ last (grid0.coords t) := fun h => h1 ((last_iff t).mp h)
    rw [Dat.leavesExact_idle (dat V c) 1 t (out_idle t hnl) (out_noflush t hnl)]
    rw [accAt_first V c t h0 h1]
    unfold accFirst
    refine (sep_mono (Phi_some V c _ _) .rfl).trans ?_
    iintro ⟨⟨HS, Hr⟩, Ho, ⟨%d0, H0⟩, ⟨%d1, H1⟩⟩
    iapply ((runFirst c (grid0.coords t) _ _ _ _ _ _ hf hnl (tile V c t)).2 _ Set.univ _)
    isplitl [H0]; · iexact H0
    isplitl [H1]; · iexact H1
    isplitl [HS]; · iexact HS
    iintro ⟨H0, H1, ⟨%es, HS⟩⟩
    isplitl [HS Hr]
    · isplitl [HS]
      · unfold owns; iexists _; isplitr
        swap; · iexact HS
        ipureintro; exact View.read_writes_of_cover _ _ _ _ _ (accFirst_cover V c t hf hnl)
      iexact Hr
    isplitl [Ho]; · iexact Ho
    isplitl [H0]; · iexact H0
    iexists _; iexact H1
  · have hnf : ¬ first (grid0.coords t) := fun h => h0 ((first_iff t).mp h)
    have hz : t.val ≠ 0 := fun h => h0 (by rw [h])
    rw [Phi_pos V c _ _ hz]
    by_cases h1 : t.val % 8 = 7
    · have hl : last (grid0.coords t) := (last_iff t).mpr h1
      rw [show (dat V c).leavesExact 1 t = owns (c : Thread nD τ) (outS t) fullShare ((dat V c).after 1 t) from by
        unfold Dat.leavesExact; rw [out_live t hl], after_out]
      rw [accAt_last V c t h0 h1]
      rw [show outAt V c t = outLast V c t hnf hl (accAt V c (t.val - 1) (Nat.lt_of_le_of_lt (Nat.sub_le _ _) t.isLt)) from dif_pos h1]
      unfold accLast outLast
      iintro ⟨⟨HS, Hr⟩, Ho, ⟨%d0, H0⟩, ⟨%d1, H1⟩⟩
      iapply ((runLast c (grid0.coords t) _ _ _ _ _ _ hnf hl (tile V c t) _).2.2 Set.univ _)
      isplitl [H0]; · iexact H0
      isplitl [H1]; · iexists _; iexact H1
      isplitl [HS]; · iexact HS
      iintro ⟨H0, ⟨%e1, H1⟩, ⟨%es, HS⟩⟩
      isplitl [HS Hr]
      · isplitl [HS]
        · unfold owns; iexists _; isplitr
          swap; · iexact HS
          ipureintro; exact View.read_writes_of_cover _ _ _ _ _ (accLast_cover V c t hnf hl _)
        iexact Hr
      isplitl [Ho]; · iexact Ho
      isplitl [H0]; · iexact H0
      unfold owns; iexists _; isplitr
      swap; · iexact H1
      ipureintro; exact View.read_writes_of_cover _ _ _ _ _ (outLast_cover V c t hnf hl _)
    · have hnl : ¬ last (grid0.coords t) := fun h => h1 ((last_iff t).mp h)
      rw [Dat.leavesExact_idle (dat V c) 1 t (out_idle t hnl) (out_noflush t hnl)]
      rw [accAt_mid V c t h0 h1]
      unfold accMid
      iintro ⟨⟨HS, Hr⟩, Ho, ⟨%d0, H0⟩, ⟨%d1, H1⟩⟩
      iapply ((runMid c (grid0.coords t) _ _ _ _ _ _ hnf hnl (tile V c t) _).2 _ Set.univ _)
      isplitl [H0]; · iexact H0
      isplitl [H1]; · iexact H1
      isplitl [HS]; · iexact HS
      iintro ⟨H0, H1, ⟨%es, HS⟩⟩
      isplitl [HS Hr]
      · isplitl [HS]
        · unfold owns; iexists _; isplitr
          swap; · iexact HS
          ipureintro; exact View.read_writes_of_cover _ _ _ _ _ (accMid_cover V c t hnf hnl _)
        iexact Hr
      isplitl [Ho]; · iexact Ho
      isplitl [H0]; · iexact H0
      iexists _; iexact H1

/-- The obligation at every point of the grid. -/
theorem body_obligation (c : Dev nD) : BodyObligation (dat V c) (defs₀ (F := F)) Variants.none () Set.univ := fun t => by
  rw [bigSep_W0, bigSep_W0]
  exact sound_body V c t

end Cert.KernelIdeal.Degree

end
-- ==== Proof.GcnCases.lean ====
/-
  The aggregation pass (second pallas_call) walks an 8 × 4 grid of (row block i, column block j), the column
  blocks 2048 wide. Its body has the same two branches on the column coordinate as the degree pass: at j = 0 the
  1024 × 256 accumulator is reset to zero; every point adds to it the product of its tile of the adjacency matrix
  with the matching 2048 rows of the scaled features; at j = 3 the accumulator is scaled by the row block's
  degree factor, the self-loop term is added, and the result goes through the dense layer and the rectifier into
  the output block. This module states the two conditions and decides over the grid where each holds and where the
  output window is idle.
-/
import proofs.«147230_j21835613732936_2_alg».proof.Proof.Gen.KernelIdeal.Launch
import proofs.«147230_j21835613732936_2_alg».proof.Proof.Gen.KernelIdeal.Skeleton
import proofs.«147230_j21835613732936_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Gcn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The point is in the first column: the accumulator is reset there. -/
abbrev first (i : grid1.Coords) : Prop :=
  (Scalar.cmpi .ne (Scalar.extui (Scalar.cmpi .eq (BitVec.ofNat 32 (i 1).val) 0#32)) 0#32) = 1#1
/-- The point is in the last column: the output block is computed there. -/
abbrev last (i : grid1.Coords) : Prop := k1_cond2 i = 1#1

/-- With four column blocks per row block and the column coordinate minor, the first column is the points ≡ 0 (mod 4). -/
theorem first_iff : ∀ t : Fin cfg1.N, first (grid1.coords t) ↔ t.val % 4 = 0 :=
  (by decide +kernel : ∀ t : Fin grid1.N, first (grid1.coords t) ↔ t.val % 4 = 0)
/-- The last column is the points ≡ 3 (mod 4). -/
theorem last_iff : ∀ t : Fin cfg1.N, last (grid1.coords t) ↔ t.val % 4 = 3 :=
  (by decide +kernel : ∀ t : Fin grid1.N, last (grid1.coords t) ↔ t.val % 4 = 3)

/-- No input window is ever idle. -/
theorem in_live : ∀ (w : Fin 7), w.val < 6 → ∀ t : Fin cfg1.N, cfg1.idle w (grid1.coords t) = false := by decide +kernel
/-- Away from the last column the output window is idle and its block is not written back. -/
theorem out_idle : ∀ t : Fin cfg1.N, ¬ last (grid1.coords t) → cfg1.idle 6 (grid1.coords t) = true := by decide +kernel
theorem out_noflush : ∀ t : Fin cfg1.N, ¬ last (grid1.coords t) → (cfg1.win 6).flush t = false := by decide +kernel
/-- In the last column the output window is live. -/
theorem out_live : ∀ t : Fin cfg1.N, last (grid1.coords t) → cfg1.idle 6 (grid1.coords t) = false := by decide +kernel

end Cert.KernelIdeal.Gcn

end
-- ==== Proof.GcnFirst.lean ====
/-
  The aggregation pass at a point of the first column. The accumulator, whatever it held, is overwritten with
  zeros; the tile of the adjacency matrix and the 2048 matching rows of the scaled features are read; the
  accumulator is read back and overwritten with itself plus their product. No other buffer is touched.
-/
import proofs.«147230_j21835613732936_2_alg».proof.Proof.GcnCases

set_option maxRecDepth 16384

noncomputable section

namespace Cert.KernelIdeal.Gcn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 2000000 in
/-- First column: from the tile at `a`, the scaled feature rows at `y` and the accumulator at anything, the
    body runs to its return with both inputs as they were and the accumulator holding the stores `LS`. -/
noncomputable def runFirst (c : Dev nD) (i : grid1.Coords)
    (adjM : Memref sig .tc .vmem S1024x2048 .f32) (hadj : adjM.IsWhole)
    (xsM : Memref sig .tc .vmem S2048x256 .bf16) (hxs : xsM.IsWhole)
    (xM : Memref sig .tc .vmem S1024x256 .f32) (hx : xM.IsWhole)
    (dM : Memref sig .tc .vmem S1024x1 .f32) (hd : dM.IsWhole)
    (wM : Memref sig .tc .vmem S256x256 .bf16) (hw : wM.IsWhole)
    (bM : Memref sig .tc .vmem S1x256 .f32) (hb : bM.IsWhole)
    (outM : Memref sig .tc .vmem S1024x256 .f32) (hout : outM.IsWhole)
    (accM : Memref sig .tc .vmem S1024x256 .f32) (hacc : accM.IsWhole)
    (h0 : first i) (h1 : ¬ last i) (a : Vec F S1024x2048 .f32) (y : Vec F S2048x256 .bf16) :
    { LS : List (View.Piece (Elt F) S1024x256 .f32) //
      ∀ (E : Set ℕ) (K : PUnit → sProp 𝕄),
        iprop(owns (c : Thread nD τ) adjM fullShare a ∗ owns (c : Thread nD τ) xsM fullShare y
            ∗ (∃ d, owns (c : Thread nD τ) accM fullShare d)
            ∗ (iprop(owns (c : Thread nD τ) adjM fullShare a ∗ owns (c : Thread nD τ) xsM fullShare y
                ∗ (∃ f, accM.view.loc (c : Thread nD τ) ↦[accM.view.set]{fullShare} accM.view.writes (Elt F) f LS)) -∗ K ⟨⟩))
          ⊢ wp frame (wpE (defs₀ (F := F)) Variants.none c none) E (cc1__gcn_kernel i adjM hadj xsM hxs xM hx dM hd wM hw bM hb outM hout accM hacc) K } := by
  refine ⟨?_, fun E K => ?run⟩
  case run =>
    simp only [cc1__gcn_kernel_eq_skeleton]; unfold cc1__gcn_kernel_skel
    unfold owns
    iintro ⟨⟨%f0, %hf0, H0⟩, ⟨%f1, %hf1, H1⟩, ⟨%ds, %fs, -, HS⟩, Hk⟩
    obtain rfl := hadj.eq_unread hf0; obtain rfl := hxs.eq_unread hf1
    sl_exec (disch := first | exact h0 | exact h1)
    sl_step
    iapply Hk
    isplitl [H0]
    · iexists _; isplitr; · ipureintro; exact hadj.read_unread _
      iexact H0
    isplitl [H1]
    · iexists _; isplitr; · ipureintro; exact hxs.read_unread _
      iexact H1
    iexists _; iexact HS

end Cert.KernelIdeal.Gcn

end
-- ==== Proof.GcnMid.lean ====
/-
  The aggregation pass at a point of a middle column: the accumulator holds what the point before left (`s`)
  and is overwritten with itself plus the product of the tile with the matching rows of the scaled features.
-/
import proofs.«147230_j21835613732936_2_alg».proof.Proof.GcnCases

set_option maxRecDepth 16384

noncomputable section

namespace Cert.KernelIdeal.Gcn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 2000000 in
/-- Middle column: from the tile at `a`, the scaled feature rows at `y` and the accumulator at `s`, the body
    runs to its return with both inputs as they were and the accumulator holding the stores `LS`. -/
noncomputable def runMid (c : Dev nD) (i : grid1.Coords)
    (adjM : Memref sig .tc .vmem S1024x2048 .f32) (hadj : adjM.IsWhole)
    (xsM : Memref sig .tc .vmem S2048x256 .bf16) (hxs : xsM.IsWhole)
    (xM : Memref sig .tc .vmem S1024x256 .f32) (hx : xM.IsWhole)
    (dM : Memref sig .tc .vmem S1024x1 .f32) (hd : dM.IsWhole)
    (wM : Memref sig .tc .vmem S256x256 .bf16) (hw : wM.IsWhole)
    (bM : Memref sig .tc .vmem S1x256 .f32) (hb : bM.IsWhole)
    (outM : Memref sig .tc .vmem S1024x256 .f32) (hout : outM.IsWhole)
    (accM : Memref sig .tc .vmem S1024x256 .f32) (hacc : accM.IsWhole)
    (h0 : ¬ first i) (h1 : ¬ last i) (a : Vec F S1024x2048 .f32) (y : Vec F S2048x256 .bf16) (s : Vec F S1024x256 .f32) :
    { LS : List (View.Piece (Elt F) S1024x256 .f32) //
      ∀ (E : Set ℕ) (K : PUnit → sProp 𝕄),
        iprop(owns (c : Thread nD τ) adjM fullShare a ∗ owns (c : Thread nD τ) xsM fullShare y
            ∗ owns (c : Thread nD τ) accM fullShare s
            ∗ (iprop(owns (c : Thread nD τ) adjM fullShare a ∗ owns (c : Thread nD τ) xsM fullShare y
                ∗ (∃ f, accM.view.loc (c : Thread nD τ) ↦[accM.view.set]{fullShare} accM.view.writes (Elt F) f LS)) -∗ K ⟨⟩))
          ⊢ wp frame (wpE (defs₀ (F := F)) Variants.none c none) E (cc1__gcn_kernel i adjM hadj xsM hxs xM hx dM hd wM hw bM hb outM hout accM hacc) K } := by
  refine ⟨?_, fun E K => ?run⟩
  case run =>
    simp only [cc1__gcn_kernel_eq_skeleton]; unfold cc1__gcn_kernel_skel
    unfold owns
    iintro ⟨⟨%f0, %hf0, H0⟩, ⟨%f1, %hf1, H1⟩, ⟨%fs, %hfs, HS⟩, Hk⟩
    obtain rfl := hadj.eq_unread hf0; obtain rfl := hxs.eq_unread hf1; obtain rfl := hacc.eq_unread hfs
    sl_exec (disch := first | exact h0 | exact h1)
    sl_step
    iapply Hk
    isplitl [H0]
    · iexists _; isplitr; · ipureintro; exact hadj.read_unread _
      iexact H0
    isplitl [H1]
    · iexists _; isplitr; · ipureintro; exact hxs.read_unread _
      iexact H1
    iexists _; iexact HS

end Cert.KernelIdeal.Gcn

end
-- ==== Proof.GcnLast.lean ====
/-
  The aggregation pass at a point of the last column. The accumulator (at `s` from the point before) takes the
  last product as at every point; then the row block's degree factors, the accumulator, the row block's own
  features, the weights and the bias are read, and the rectified dense layer of
  (degree factor × accumulator + degree factor² × own features) is stored over the whole output block.
-/
import proofs.«147230_j21835613732936_2_alg».proof.Proof.GcnCases

set_option maxRecDepth 16384

noncomputable section

namespace Cert.KernelIdeal.Gcn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
/-- Last column: from every input at its contents, the output block at anything and the accumulator at `s`, the
    body runs to its return with the inputs as they were, the output block holding the stores `LO` and the
    accumulator the stores `LS`. -/
noncomputable def runLast (c : Dev nD) (i : grid1.Coords)
    (adjM : Memref sig .tc .vmem S1024x2048 .f32) (hadj : adjM.IsWhole)
    (xsM : Memref sig .tc .vmem S2048x256 .bf16) (hxs : xsM.IsWhole)
    (xM : Memref sig .tc .vmem S1024x256 .f32) (hx : xM.IsWhole)
    (dM : Memref sig .tc .vmem S1024x1 .f32) (hd : dM.IsWhole)
    (wM : Memref sig .tc .vmem S256x256 .bf16) (hw : wM.IsWhole)
    (bM : Memref sig .tc .vmem S1x256 .f32) (hb : bM.IsWhole)
    (outM : Memref sig .tc .vmem S1024x256 .f32) (hout : outM.IsWhole)
    (accM : Memref sig .tc .vmem S1024x256 .f32) (hacc : accM.IsWhole)
    (h0 : ¬ first i) (h1 : last i) (a : Vec F S1024x2048 .f32) (y : Vec F S2048x256 .bf16)
    (x : Vec F S1024x256 .f32) (d : Vec F S1024x1 .f32) (w : Vec F S256x256 .bf16) (b : Vec F S1x256 .f32)
    (s : Vec F S1024x256 .f32) :
    Σ' (LO : List (View.Piece (Elt F) S1024x256 .f32)), { LS : List (View.Piece (Elt F) S1024x256 .f32) //
      ∀ (E : Set ℕ) (K : PUnit → sProp 𝕄),
        iprop(owns (c : Thread nD τ) adjM fullShare a ∗ owns (c : Thread nD τ) xsM fullShare y ∗ owns (c : Thread nD τ) xM fullShare x
            ∗ owns (c : Thread nD τ) dM fullShare d ∗ owns (c : Thread nD τ) wM fullShare w ∗ owns (c : Thread nD τ) bM fullShare b
            ∗ (∃ e, owns (c : Thread nD τ) outM fullShare e) ∗ owns (c : Thread nD τ) accM fullShare s
            ∗ (iprop(owns (c : Thread nD τ) adjM fullShare a ∗ owns (c : Thread nD τ) xsM fullShare y ∗ owns (c : Thread nD τ) xM fullShare x
                ∗ owns (c : Thread nD τ) dM fullShare d ∗ owns (c : Thread nD τ) wM fullShare w ∗ owns (c : Thread nD τ) bM fullShare b
                ∗ (∃ f, outM.view.loc (c : Thread nD τ) ↦[outM.view.set]{fullShare} outM.view.writes (Elt F) f LO)
                ∗ (∃ f, accM.view.loc (c : Thread nD τ) ↦[accM.view.set]{fullShare} accM.view.writes (Elt F) f LS)) -∗ K ⟨⟩))
          ⊢ wp frame (wpE (defs₀ (F := F)) Variants.none c none) E (cc1__gcn_kernel i adjM hadj xsM hxs xM hx dM hd wM hw bM hb outM hout accM hacc) K } := by
  refine ⟨?_, ?_, fun E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%e6, %f6, -, H6⟩, ⟨%fs, %hfs, HS⟩, Hk⟩
    obtain rfl := hadj.eq_unread hf0; obtain rfl := hxs.eq_unread hf1; obtain rfl := hx.eq_unread hf2
    obtain rfl := hd.eq_unread hf3; obtain rfl := hw.eq_unread hf4; obtain rfl := hb.eq_unread hf5
    obtain rfl := hacc.eq_unread hfs
    sl_exec (disch := first | exact h0 | exact h1)
    sl_step
    iapply Hk
    isplitl [H0]
    · iexists _; isplitr; · ipureintro; exact hadj.read_unread _
      iexact H0
    isplitl [H1]
    · iexists _; isplitr; · ipureintro; exact hxs.read_unread _
      iexact H1
    isplitl [H2]
    · iexists _; isplitr; · ipureintro; exact hx.read_unread _
      iexact H2
    isplitl [H3]
    · iexists _; isplitr; · ipureintro; exact hd.read_unread _
      iexact H3
    isplitl [H4]
    · iexists _; isplitr; · ipureintro; exact hw.read_unread _
      iexact H4
    isplitl [H5]
    · iexists _; isplitr; · ipureintro; exact hb.read_unread _
      iexact H5
    isplitl [H6]
    · iexists _; iexact H6
    iexists _; iexact HS

end Cert.KernelIdeal.Gcn

end
-- ==== Proof.GcnData.lean ====
/-
  What the aggregation pass holds point by point. The accumulator after a point is determined by recursion along
  the row of column blocks: after a first-column point it is zero plus the product of that tile with its rows of
  the scaled features; after any later point it is what the point before left plus this point's product. The
  output block is stored only at a last-column point, from the accumulator the point before left and the row
  block's own inputs. The pass's invariant between two points is the accumulator at the contents of the point
  just done (anything before the first point) and every other scratch buffer of the program at anything.
-/
import proofs.«147230_j21835613732936_2_alg».proof.Proof.GcnFirst
import proofs.«147230_j21835613732936_2_alg».proof.Proof.GcnMid
import proofs.«147230_j21835613732936_2_alg».proof.Proof.GcnLast

set_option maxRecDepth 16384

noncomputable section

namespace Cert.KernelIdeal.Gcn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]

local notation "𝕄" => MT nD τ sig Unit (Elt F) ℕ (UR sig nD τ) ℕ

-- The unscoped buffers as the pass finds them.
variable (V : (c : Dev nD) → (b : Ref sig .tc) → Buf (Elt F) ((c : Thread nD τ).loc b))

/-- Window `w`'s block at point `t`, read off its array as the pass finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The staging memrefs the body is called with at point `t` (window by window), and the accumulator. -/
abbrev s0 (t : Fin cfg1.N) : Memref sig .tc .vmem S1024x2048 .f32 := win1_0.stage (cfg1.slots t 0)
abbrev s0w (t : Fin cfg1.N) : (s0 t).IsWhole := hstage1_0 ((cfg1.slots t 0).cast nbuf1_0)
abbrev s1 (t : Fin cfg1.N) : Memref sig .tc .vmem S2048x256 .bf16 := win1_1.stage (cfg1.slots t 1)
abbrev s1w (t : Fin cfg1.N) : (s1 t).IsWhole := hstage1_1 ((cfg1.slots t 1).cast nbuf1_1)
abbrev s2 (t : Fin cfg1.N) : Memref sig .tc .vmem S1024x256 .f32 := win1_2.stage (cfg1.slots t 2)
abbrev s2w (t : Fin cfg1.N) : (s2 t).IsWhole := hstage1_2 ((cfg1.slots t 2).cast nbuf1_2)
abbrev s3 (t : Fin cfg1.N) : Memref sig .tc .vmem S1024x1 .f32 := win1_3.stage (cfg1.slots t 3)
abbrev s3w (t : Fin cfg1.N) : (s3 t).IsWhole := hstage1_3 ((cfg1.slots t 3).cast nbuf1_3)
abbrev s4 (t : Fin cfg1.N) : Memref sig .tc .vmem S256x256 .bf16 := win1_4.stage (cfg1.slots t 4)
abbrev s4w (t : Fin cfg1.N) : (s4 t).IsWhole := hstage1_4 ((cfg1.slots t 4).cast nbuf1_4)
abbrev s5 (t : Fin cfg1.N) : Memref sig .tc .vmem S1x256 .f32 := win1_5.stage (cfg1.slots t 5)
abbrev s5w (t : Fin cfg1.N) : (s5 t).IsWhole := hstage1_5 ((cfg1.slots t 5).cast nbuf1_5)
abbrev s6 (t : Fin cfg1.N) : Memref sig .tc .vmem S1024x256 .f32 := win1_6.stage (cfg1.slots t 6)
abbrev s6w (t : Fin cfg1.N) : (s6 t).IsWhole := hstage1_6 ((cfg1.slots t 6).cast nbuf1_6)
abbrev accM : Memref sig .tc .vmem S1024x256 .f32 := Memref.whole cc1_scratch0
abbrev accV : View sig .tc .vmem S1024x256 .f32 := accM.view
abbrev outV : View sig .tc .vmem S1024x256 .f32 := (Memref.whole cc1_stg6_0 : Memref sig .tc .vmem S1024x256 .f32).view

/-! ## One point -/

/-- The accumulator after a first-column point: its stores read back. -/
def accFirst (c : Dev nD) (t : Fin cfg1.N) (h0 : first (grid1.coords t)) (h1 : ¬ last (grid1.coords t)) : Vec F S1024x256 .f32 :=
  accV.read (Elt F) (accV.writes (Elt F) accV.junk (runFirst c (grid1.coords t) (s0 t) (s0w t) (s1 t) (s1w t) (s2 t) (s2w t) (s3 t) (s3w t) (s4 t) (s4w t) (s5 t) (s5w t) (s6 t) (s6w t) accM (Memref.isWhole_whole _) h0 h1 (blk V c 0 t) (blk V c 1 t)).1)
theorem accFirst_cover (c : Dev nD) (t : Fin cfg1.N) (h0 : first (grid1.coords t)) (h1 : ¬ last (grid1.coords t)) (y : S1024x256.Idx) :
    ∃ pc ∈ (runFirst c (grid1.coords t) (s0 t) (s0w t) (s1 t) (s1w t) (s2 t) (s2w t) (s3 t) (s3w t) (s4 t) (s4w t) (s5 t) (s5w t) (s6 t) (s6w t) accM (Memref.isWhole_whole _) h0 h1 (blk V c 0 t) (blk V c 1 t)).1, y ∈ pc.1.set :=
  View.cover_of_tiledL _ S1024x256.size (by sl_kernel_rfl) y

/-- The accumulator after a middle-column point that found it at `s`. -/
def accMid (c : Dev nD) (t : Fin cfg1.N) (h0 : ¬ first (grid1.coords t)) (h1 : ¬ last (grid1.coords t)) (s : Vec F S1024x256 .f32) : Vec F S1024x256 .f32 :=
  accV.read (Elt F) (accV.writes (Elt F) accV.junk (runMid c (grid1.coords t) (s0 t) (s0w t) (s1 t) (s1w t) (s2 t) (s2w t) (s3 t) (s3w t) (s4 t) (s4w t) (s5 t) (s5w t) (s6 t) (s6w t) accM (Memref.isWhole_whole _) h0 h1 (blk V c 0 t) (blk V c 1 t) s).1)
theorem accMid_cover (c : Dev nD) (t : Fin cfg1.N) (h0 : ¬ first (grid1.coords t)) (h1 : ¬ last (grid1.coords t)) (s : Vec F S1024x256 .f32) (y : S1024x256.Idx) :
    ∃ pc ∈ (runMid c (grid1.coords t) (s0 t) (s0w t) (s1 t) (s1w t) (s2 t) (s2w t) (s3 t) (s3w t) (s4 t) (s4w t) (s5 t) (s5w t) (s6 t) (s6w t) accM (Memref.isWhole_whole _) h0 h1 (blk V c 0 t) (blk V c 1 t) s).1, y ∈ pc.1.set :=
  View.cover_of_tiledL _ S1024x256.size (by sl_kernel_rfl) y

/-- The accumulator and the output block after a last-column point that found the accumulator at `s`. -/
def accLast (c : Dev nD) (t : Fin cfg1.N) (h0 : ¬ first (grid1.coords t)) (h1 : last (grid1.coords t)) (s : Vec F S1024x256 .f32) : Vec F S1024x256 .f32 :=
  accV.read (Elt F) (accV.writes (Elt F) accV.junk (runLast c (grid1.coords t) (s0 t) (s0w t) (s1 t) (s1w t) (s2 t) (s2w t) (s3 t) (s3w t) (s4 t) (s4w t) (s5 t) (s5w t) (s6 t) (s6w t) accM (Memref.isWhole_whole _) h0 h1 (blk V c 0 t) (blk V c 1 t) (blk V c 2 t) (blk V c 3 t) (blk V c 4 t) (blk V c 5 t) s).2.1)
theorem accLast_cover (c : Dev nD) (t : Fin cfg1.N) (h0 : ¬ first (grid1.coords t)) (h1 : last (grid1.coords t)) (s : Vec F S1024x256 .f32) (y : S1024x256.Idx) :
    ∃ pc ∈ (runLast c (grid1.coords t) (s0 t) (s0w t) (s1 t) (s1w t) (s2 t) (s2w t) (s3 t) (s3w t) (s4 t) (s4w t) (s5 t) (s5w t) (s6 t) (s6w t) accM (Memref.isWhole_whole _) h0 h1 (blk V c 0 t) (blk V c 1 t) (blk V c 2 t) (blk V c 3 t) (blk V c 4 t) (blk V c 5 t) s).2.1, y ∈ pc.1.set :=
  View.cover_of_tiledL _ S1024x256.size (by sl_kernel_rfl) y
def outLast (c : Dev nD) (t : Fin cfg1.N) (h0 : ¬ first (grid1.coords t)) (h1 : last (grid1.coords t)) (s : Vec F S1024x256 .f32) : Vec F S1024x256 .f32 :=
  outV.read (Elt F) (outV.writes (Elt F) outV.junk (runLast c (grid1.coords t) (s0 t) (s0w t) (s1 t) (s1w t) (s2 t) (s2w t) (s3 t) (s3w t) (s4 t) (s4w t) (s5 t) (s5w t) (s6 t) (s6w t) accM (Memref.isWhole_whole _) h0 h1 (blk V c 0 t) (blk V c 1 t) (blk V c 2 t) (blk V c 3 t) (blk V c 4 t) (blk V c 5 t) s).1)
theorem outLast_cover (c : Dev nD) (t : Fin cfg1.N) (h0 : ¬ first (grid1.coords t)) (h1 : last (grid1.coords t)) (s : Vec F S1024x256 .f32) (y : S1024x256.Idx) :
    ∃ pc ∈ (runLast c (grid1.coords t) (s0 t) (s0w t) (s1 t) (s1w t) (s2 t) (s2w t) (s3 t) (s3w t) (s4 t) (s4w t) (s5 t) (s5w t) (s6 t) (s6w t) accM (Memref.isWhole_whole _) h0 h1 (blk V c 0 t) (blk V c 1 t) (blk V c 2 t) (blk V c 3 t) (blk V c 4 t) (blk V c 5 t) s).1, y ∈ pc.1.set :=
  View.cover_of_tiledL _ S1024x256.size (by sl_kernel_rfl) y

/-! ## Along the grid -/

/-- The accumulator after the body at position `n`: by the kind of point, over what position `n - 1` left. -/
def accAt (c : Dev nD) : (n : ℕ) → n < cfg1.N → Vec F S1024x256 .f32
  | 0, hn => accFirst V c ⟨0, hn⟩ ((first_iff ⟨0, hn⟩).mpr (Nat.zero_mod _)) (fun h => by have := (last_iff ⟨0, hn⟩).mp h; dsimp only at this; omega)
  | n + 1, hn =>
    if h0 : (n + 1) % 4 = 0 then
      accFirst V c ⟨n + 1, hn⟩ ((first_iff ⟨n + 1, hn⟩).mpr h0) (fun h => by have := (last_iff ⟨n + 1, hn⟩).mp h; dsimp only at this; omega)
    else if h1 : (n + 1) % 4 = 3 then
      accLast V c ⟨n + 1, hn⟩ (fun h => h0 ((first_iff ⟨n + 1, hn⟩).mp h)) ((last_iff ⟨n + 1, hn⟩).mpr h1) (accAt c n (Nat.lt_of_succ_lt hn))
    else
      accMid V c ⟨n + 1, hn⟩ (fun h => h0 ((first_iff ⟨n + 1, hn⟩).mp h)) (fun h => h1 ((last_iff ⟨n + 1, hn⟩).mp h)) (accAt c n (Nat.lt_of_succ_lt hn))

theorem accAt_first (c : Dev nD) (t : Fin cfg1.N) (h0 : t.val % 4 = 0) (h1 : ¬ t.val % 4 = 3) :
    accAt V c t.val t.isLt = accFirst V c t ((first_iff t).mpr h0) (fun h => h1 ((last_iff t).mp h)) := by
  obtain ⟨n, hn⟩ := t
  cases n with
  | zero => rfl
  | succ n => exact dif_pos h0
theorem accAt_mid (c : Dev nD) (t : Fin cfg1.N) (h0 : ¬ t.val % 4 = 0) (h1 : ¬ t.val % 4 = 3) :
    accAt V c t.val t.isLt = accMid V c t (fun h => h0 ((first_iff t).mp h)) (fun h => h1 ((last_iff t).mp h))
      (accAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)
theorem accAt_last (c : Dev nD) (t : Fin cfg1.N) (h0 : ¬ t.val % 4 = 0) (h1 : t.val % 4 = 3) :
    accAt V c t.val t.isLt = accLast V c t (fun h => h0 ((first_iff t).mp h)) ((last_iff t).mpr h1)
      (accAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- The output block's staging buffer after the body at point `t`: at a last-column point what that point stores;
    elsewhere nothing is stored (a placeholder nothing consults: the window is idle there and not written back). -/
def outAt (c : Dev nD) (t : Fin cfg1.N) : Vec F S1024x256 .f32 :=
  if h1 : t.val % 4 = 3 then
    outLast V c t (fun h => by have := (first_iff t).mp h; omega) ((last_iff t).mpr h1)
      (accAt V c (t.val - 1) (Nat.lt_of_le_of_lt (Nat.sub_le _ _) t.isLt))
  else outV.read (Elt F) outV.junk

/-! ## The invariant -/

/-- Every scratch buffer of the program other than this pass's accumulator and staging buffers, at anything. -/
def rest (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_scratch0), ((c : Thread nD τ).loc cc0_scratch0) ↦{fullShare} f))

/-- The program's scratch buffers that this pass does not stage are those and the accumulator. -/
theorem scoped_split (c : Dev nD) :
    (Pipeline.scopedRest (Ix := Unit) (Name := ℕ) (U := UR sig nD τ) (Lvl := ℕ) (Val := Elt F) spec1 c : sProp 𝕄)
      ⊢ iprop((∃ d, owns (c : Thread nD τ) accM fullShare d) ∗ rest (F := F) c) := by
  rw [scopedRest1_eq]; unfold rest; simp only [accM, owns_whole]
  iintro ⟨H0, H1, H2, H3, H4, HS⟩
  isplitl [HS]; · iexact HS
  isplitl [H0]; · iexact H0
  isplitl [H1]; · iexact H1
  isplitl [H2]; · iexact H2
  isplitl [H3]; · iexact H3
  iexact H4
theorem scoped_join (c : Dev nD) :
    iprop((∃ d, owns (c : Thread nD τ) accM fullShare d) ∗ rest (F := F) c)
      ⊢ (Pipeline.scopedRest (Ix := Unit) (Name := ℕ) (U := UR sig nD τ) (Lvl := ℕ) (Val := Elt F) spec1 c : sProp 𝕄) := by
  rw [scopedRest1_eq]; unfold rest; simp only [accM, owns_whole]
  iintro ⟨HS, H0, H1, H2, H3, H4⟩
  isplitl [H0]; · iexact H0
  isplitl [H1]; · iexact H1
  isplitl [H2]; · iexact H2
  isplitl [H3]; · iexact H3
  isplitl [H4]; · iexact H4
  iexact HS

/-- Before position `n`: nothing known of the accumulator before the first point, afterwards its contents after
    position `n - 1`. -/
def Phi (c : Dev nD) : (n : ℕ) → n ≤ cfg1.N → sProp 𝕄
  | 0, _ => Pipeline.scopedRest (Ix := Unit) (Name := ℕ) (U := UR sig nD τ) (Lvl := ℕ) (Val := Elt F) spec1 c
  | n + 1, hn => iprop(owns (c : Thread nD τ) accM fullShare (accAt V c n hn) ∗ rest (F := F) c)

theorem Phi_succ (c : Dev nD) (n : ℕ) (hn : n < cfg1.N) :
    Phi V c (n + 1) hn = iprop(owns (c : Thread nD τ) accM fullShare (accAt V c n hn) ∗ rest (F := F) c) := rfl
theorem Phi_pos (c : Dev nD) (n : ℕ) (h : n ≤ cfg1.N) (hz : n ≠ 0) :
    Phi V c n h = iprop(owns (c : Thread nD τ) accM fullShare (accAt V c (n - 1) (by omega)) ∗ rest (F := F) c) := by
  cases n with
  | zero => exact absurd rfl hz
  | succ n => rfl
/-- At any position the invariant holds the accumulator at something beside the other scratch buffers. -/
theorem Phi_some (c : Dev nD) (n : ℕ) (h : n ≤ cfg1.N) :
    Phi V c n h ⊢ iprop((∃ d, owns (c : Thread nD τ) accM fullShare d) ∗ rest (F := F) c) := by
  cases n with
  | zero => exact scoped_split c
  | succ n =>
    rw [Phi_succ]
    iintro ⟨H, Hr⟩
    isplitl [H]
    · iexists _; iexact H
    iexact Hr

/-! ## The proof data -/

/-- The pass's proof data on core `c`: the arrays as found; after the body every input window's buffer at its
    block and the output window's at `outAt`; the invariant `Phi`; nothing owed; full shares. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => outAt V c t
  Φ t := Phi V c t.val (Nat.le_of_lt_succ t.isLt)
  q _ := fullShare
  owed _ := 0

theorem A_eq (c : Dev nD) (w : Fin cfg1.W) : (dat V c).A w = V c (Pipeline.arrRef spec1 w) := by
  dsimp only [dat]
theorem Phi_castSucc (c : Dev nD) (t : Fin cfg1.N) :
    (dat V c).Φ t.castSucc = Phi V c t.val (Nat.le_of_lt t.isLt) := by
  dsimp only [dat]; simp only [Fin.coe_castSucc]
theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = blk V c 2 t := by dsimp only [dat]
theorem after_3 (c : Dev nD) (t : Fin cfg1.N) : (dat V c).after 3 t = blk V c 3 t := by dsimp only [dat]
theorem after_4 (c : Dev nD) (t : Fin cfg1.N) : (dat V c).after 4 t = blk V c 4 t := by dsimp only [dat]
theorem after_5 (c : Dev nD) (t : Fin cfg1.N) : (dat V c).after 5 t = blk V c 5 t := by dsimp only [dat]
theorem after_out (c : Dev nD) (t : Fin cfg1.N) : (dat V c).after 6 t = outAt V c t := by dsimp only [dat]

/-- Every input window's current buffer holds its block when the body runs, fetched at that point or not (a window
    whose block index does not move between two points is not fetched again and still holds the same block). -/
theorem before_0 (c : Dev nD) (t : Fin cfg1.N) (d) : (dat V c).before 0 t d = blk V c 0 t :=
  ((dat V c).before_in_eq_fetched 0 rfl (fun _ => rfl) (fun _ _ _ => rfl)
    (fun t => by rw [after_0]; unfold Dat.blockOf blk; rw [A_eq]; try rfl) t d).trans
    (by unfold Dat.fetched Dat.blockOf blk; rw [A_eq]; try rfl)
theorem before_1 (c : Dev nD) (t : Fin cfg1.N) (d) : (dat V c).before 1 t d = blk V c 1 t :=
  ((dat V c).before_in_eq_fetched 1 rfl (fun _ => rfl) (fun _ _ _ => rfl)
    (fun t => by rw [after_1]; unfold Dat.blockOf blk; rw [A_eq]; try rfl) t d).trans
    (by unfold Dat.fetched Dat.blockOf blk; rw [A_eq]; try rfl)
theorem before_2 (c : Dev nD) (t : Fin cfg1.N) (d) : (dat V c).before 2 t d = blk V c 2 t :=
  ((dat V c).before_in_eq_fetched 2 rfl (fun _ => rfl) (fun _ _ _ => rfl)
    (fun t => by rw [after_2]; unfold Dat.blockOf blk; rw [A_eq]; try rfl) t d).trans
    (by unfold Dat.fetched Dat.blockOf blk; rw [A_eq]; try rfl)
theorem before_3 (c : Dev nD) (t : Fin cfg1.N) (d) : (dat V c).before 3 t d = blk V c 3 t :=
  ((dat V c).before_in_eq_fetched 3 rfl (fun _ => rfl) (fun _ _ _ => rfl)
    (fun t => by rw [after_3]; unfold Dat.blockOf blk; rw [A_eq]; try rfl) t d).trans
    (by unfold Dat.fetched Dat.blockOf blk; rw [A_eq]; try rfl)
theorem before_4 (c : Dev nD) (t : Fin cfg1.N) (d) : (dat V c).before 4 t d = blk V c 4 t :=
  ((dat V c).before_in_eq_fetched 4 rfl (fun _ => rfl) (fun _ _ _ => rfl)
    (fun t => by rw [after_4]; unfold Dat.blockOf blk; rw [A_eq]; try rfl) t d).trans
    (by unfold Dat.fetched Dat.blockOf blk; rw [A_eq]; try rfl)
theorem before_5 (c : Dev nD) (t : Fin cfg1.N) (d) : (dat V c).before 5 t d = blk V c 5 t :=
  ((dat V c).before_in_eq_fetched 5 rfl (fun _ => rfl) (fun _ _ _ => rfl)
    (fun t => by rw [after_5]; unfold Dat.blockOf blk; rw [A_eq]; try rfl) t d).trans
    (by unfold Dat.fetched Dat.blockOf blk; rw [A_eq]; try rfl)

end Cert.KernelIdeal.Gcn

end
-- ==== Proof.GcnBody.lean ====
/-
  The aggregation pass's obligation at every point. The pipeline hands the body the invariant and the seven
  windows' buffers, every input window's at its block; by the kind of point the matching run of the body
  applies. At first- and middle-column points only the adjacency tile, the scaled feature rows and the accumulator
  are touched, the other buffers going back as found; at a last-column point every input is read and the output
  block stored. What is left is what the proof data names: stores that cover a buffer read back as its contents.
-/
import proofs.«147230_j21835613732936_2_alg».proof.Proof.GcnData

set_option maxRecDepth 16384

noncomputable section

namespace Cert.KernelIdeal.Gcn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (s0 t) fullShare ((dat V c).before 0 t d))
    ∗ (∃ d, owns (c : Thread nD τ) (s1 t) fullShare ((dat V c).before 1 t d))
    ∗ (∃ d, owns (c : Thread nD τ) (s2 t) fullShare ((dat V c).before 2 t d))
    ∗ (∃ d, owns (c : Thread nD τ) (s3 t) fullShare ((dat V c).before 3 t d))
    ∗ (∃ d, owns (c : Thread nD τ) (s4 t) fullShare ((dat V c).before 4 t d))
    ∗ (∃ d, owns (c : Thread nD τ) (s5 t) fullShare ((dat V c).before 5 t d))
    ∗ (∃ d, owns (c : Thread nD τ) (s6 t) fullShare ((dat V c).before 6 t d)))
/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t)

set_option maxHeartbeats 8000000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5]
  rw [show (dat V c).owesAt () t.succ = (dat V c).owesAt () t.castSucc from rfl]
  rw [show (dat V c).Φ t.succ = Phi V c (t.val + 1) t.isLt from rfl, Phi_succ]
  rw [show (dat V c).leavesExact 0 t = owns (c : Thread nD τ) (s0 t) fullShare ((dat V c).after 0 t) from by
    unfold Dat.leavesExact; rw [in_live 0 (by decide) t], after_0]
  rw [show (dat V c).leavesExact 1 t = owns (c : Thread nD τ) (s1 t) fullShare ((dat V c).after 1 t) from by
    unfold Dat.leavesExact; rw [in_live 1 (by decide) t], after_1]
  rw [show (dat V c).leavesExact 2 t = owns (c : Thread nD τ) (s2 t) fullShare ((dat V c).after 2 t) from by
    unfold Dat.leavesExact; rw [in_live 2 (by decide) t], after_2]
  rw [show (dat V c).leavesExact 3 t = owns (c : Thread nD τ) (s3 t) fullShare ((dat V c).after 3 t) from by
    unfold Dat.leavesExact; rw [in_live 3 (by decide) t], after_3]
  rw [show (dat V c).leavesExact 4 t = owns (c : Thread nD τ) (s4 t) fullShare ((dat V c).after 4 t) from by
    unfold Dat.leavesExact; rw [in_live 4 (by decide) t], after_4]
  rw [show (dat V c).leavesExact 5 t = owns (c : Thread nD τ) (s5 t) fullShare ((dat V c).after 5 t) from by
    unfold Dat.leavesExact; rw [in_live 5 (by decide) t], after_5]
  rw [Phi_castSucc]
  by_cases h0 : t.val % 4 = 0
  · have h1 : ¬ t.val % 4 = 3 := by omega
    have hf : first (grid1.coords t) := (first_iff t).mpr h0
    have hnl : ¬ last (grid1.coords t) := fun h => h1 ((last_iff t).mp h)
    rw [Dat.leavesExact_idle (dat V c) 6 t (out_idle t hnl) (out_noflush t hnl)]
    rw [accAt_first V c t h0 h1]
    unfold accFirst
    refine (sep_mono (Phi_some V c _ _) .rfl).trans ?_
    iintro ⟨⟨HS, Hr⟩, Ho, ⟨%d0, H0⟩, ⟨%d1, H1⟩, ⟨%d2, H2⟩, ⟨%d3, H3⟩, ⟨%d4, H4⟩, ⟨%d5, H5⟩, ⟨%d6, H6⟩⟩
    iapply ((runFirst c (grid1.coords t) _ _ _ _ _ _ _ _ _ _ _ _ _ _ _ _ hf hnl (blk V c 0 t) (blk V c 1 t)).2 Set.univ _)
    isplitl [H0]; · iexact H0
    isplitl [H1]; · iexact H1
    isplitl [HS]; · iexact HS
    iintro ⟨H0, H1, ⟨%es, HS⟩⟩
    isplitl [HS Hr]
    · isplitl [HS]
      · unfold owns; iexists _; isplitr
        swap; · iexact HS
        ipureintro; exact View.read_writes_of_cover _ _ _ _ _ (accFirst_cover V c t hf hnl)
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · have hnf : ¬ first (grid1.coords t) := fun h => h0 ((first_iff t).mp h)
    have hz : t.val ≠ 0 := fun h => h0 (by rw [h])
    rw [Phi_pos V c _ _ hz]
    by_cases h1 : t.val % 4 = 3
    · have hl : last (grid1.coords t) := (last_iff t).mpr h1
      rw [show (dat V c).leavesExact 6 t = owns (c : Thread nD τ) (s6 t) fullShare ((dat V c).after 6 t) from by
        unfold Dat.leavesExact; rw [out_live t hl], after_out]
      rw [accAt_last V c t h0 h1]
      rw [show outAt V c t = outLast V c t hnf hl (accAt V c (t.val - 1) (Nat.lt_of_le_of_lt (Nat.sub_le _ _) t.isLt)) from dif_pos h1]
      unfold accLast outLast
      iintro ⟨⟨HS, Hr⟩, Ho, ⟨%d0, H0⟩, ⟨%d1, H1⟩, ⟨%d2, H2⟩, ⟨%d3, H3⟩, ⟨%d4, H4⟩, ⟨%d5, H5⟩, ⟨%d6, H6⟩⟩
      iapply ((runLast c (grid1.coords t) _ _ _ _ _ _ _ _ _ _ _ _ _ _ _ _ hnf hl (blk V c 0 t) (blk V c 1 t) (blk V c 2 t) (blk V c 3 t) (blk V c 4 t) (blk V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, ⟨%e6, H6⟩, ⟨%es, HS⟩⟩
      isplitl [HS Hr]
      · isplitl [HS]
        · unfold owns; iexists _; isplitr
          swap; · iexact HS
          ipureintro; exact View.read_writes_of_cover _ _ _ _ _ (accLast_cover V c t hnf hl _)
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (outLast_cover V c t hnf hl _)
    · have hnl : ¬ last (grid1.coords t) := fun h => h1 ((last_iff t).mp h)
      rw [Dat.leavesExact_idle (dat V c) 6 t (out_idle t hnl) (out_noflush t hnl)]
      rw [accAt_mid V c t h0 h1]
      unfold accMid
      iintro ⟨⟨HS, Hr⟩, Ho, ⟨%d0, H0⟩, ⟨%d1, H1⟩, ⟨%d2, H2⟩, ⟨%d3, H3⟩, ⟨%d4, H4⟩, ⟨%d5, H5⟩, ⟨%d6, H6⟩⟩
      iapply ((runMid c (grid1.coords t) _ _ _ _ _ _ _ _ _ _ _ _ _ _ _ _ hnf hnl (blk V c 0 t) (blk V c 1 t) _).2 Set.univ _)
      isplitl [H0]; · iexact H0
      isplitl [H1]; · iexact H1
      isplitl [HS]; · iexact HS
      iintro ⟨H0, H1, ⟨%es, HS⟩⟩
      isplitl [HS Hr]
      · isplitl [HS]
        · unfold owns; iexists _; isplitr
          swap; · iexact HS
          ipureintro; exact View.read_writes_of_cover _ _ _ _ _ (accMid_cover V c t hnf hnl _)
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The obligation at every point of the grid. -/
theorem body_obligation (c : Dev nD) : BodyObligation (dat V c) (defs₀ (F := F)) Variants.none () Set.univ := fun t => by
  rw [bigSep_W1, bigSep_W1]
  exact sound_body V c t

end Cert.KernelIdeal.Gcn

end
-- ==== Proof.Run.lean ====
/-
  The whole program as three segments: the degree pass, the host stretch that scales the features by the degree
  factors (and recasts the weights and the bias), and the aggregation pass. The contents of every unscoped buffer are
  threaded through as a valuation: at launch the memory; after the degree pass the same with its result array at
  what the pass's write-backs leave; after the host stretch the operations applied to that; after the aggregation
  pass the same with its result array at what that pass leaves. Each pass enters from the valuation before it and
  leaves at the one after it; between the passes each core holds those buffers and owes nothing. The run's
  conclusion reads every unscoped buffer off the last valuation: in particular the result array, and the four
  argument arrays, which no segment changes.
-/
import proofs.«147230_j21835613732936_2_alg».proof.Proof.DegreeBody
import proofs.«147230_j21835613732936_2_alg».proof.Proof.GcnBody
import proofs.«147230_j21835613732936_2_alg».proof.Proof.Gen.KernelIdeal.Regions
import Idealize.ShloMosaic.Lib.Pipeline.Regions
import Idealize.ShloMosaic.Lib.Pipeline.RegionsLoop
import Idealize.ShloMosaic.Lib.Pipeline.FrameSuffix

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the segments -/

/-- At launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the degree pass: its arrays at what the pass leaves, every other buffer as before. -/
def W1 (c : Dev nD) : Valuation τ sig (Elt F) :=
  Pipeline.withArrays spec0 c (W0 m ρ c) fun w => (Degree.dat (V0 m ρ) c).arrAt w cfg0.N
theorem W1_arr (c : Dev nD) (w : Fin cfg0.W) :
    W1 m ρ c (Proc.devRef .tc (Pipeline.arrRef spec0 w)) = (Degree.dat (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (Degree.dat (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the host stretch. -/
abbrev W2 (c : Dev nD) : Valuation τ sig (Elt F) := StableHlo.after hostOps1 (W1 m ρ c)
abbrev V2 : (c : Dev nD) → (b : Ref sig .tc) → Buf (Elt F) ((c : Thread nD τ).loc b) := fun c b => W2 m ρ c b
/-- The host stretch changes only the buffers its operations write. -/
theorem W2_of (c : Dev nD) (r : Ref sig .tc) (h : r ∉ hostOps1_W) : W2 m ρ c r = W1 m ρ c r :=
  StableHlo.after_of_writes_sub hostOps1 _ hostOps1_writes h

/-- After the aggregation pass: its arrays at what the pass leaves, every other buffer as before. -/
def W3 (c : Dev nD) : Valuation τ sig (Elt F) :=
  Pipeline.withArrays spec1 c (W2 m ρ c) fun w => (Gcn.dat (V2 m ρ) c).arrAt w cfg1.N
theorem W3_arr (c : Dev nD) (w : Fin cfg1.W) :
    W3 m ρ c (Proc.devRef .tc (Pipeline.arrRef spec1 w)) = (Gcn.dat (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (Gcn.dat (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## No segment changes an argument -/

/-- The features: the aggregation pass reads them through a window, the host stretch does not write them, and the
    degree pass does not touch them. -/
theorem W3_arg0 (c : Dev nD) : W3 m ρ c (Proc.devRef .tc main_arg0) = m ((c : Thread nD τ).loc main_arg0) :=
  calc W3 m ρ c (Proc.devRef .tc main_arg0)
    _ = V2 m ρ c main_arg0 := (W3_arr m ρ c 2).trans (((Gcn.dat (V2 m ρ) c).arrAt_in 2 rfl _).trans (Gcn.A_eq (V2 m ρ) c 2))
    _ = W1 m ρ c (Proc.devRef .tc main_arg0) := W2_of m ρ c main_arg0 (by decide)
    _ = W0 m ρ c (Proc.devRef .tc main_arg0) := W1_of_ne m ρ c main_arg0 (by decide)
    _ = m ((c : Thread nD τ).loc main_arg0) := rfl
/-- The adjacency matrix: both passes read it through a window. -/
theorem W3_arg1 (c : Dev nD) : W3 m ρ c (Proc.devRef .tc main_arg1) = m ((c : Thread nD τ).loc main_arg1) :=
  calc W3 m ρ c (Proc.devRef .tc main_arg1)
    _ = V2 m ρ c main_arg1 := (W3_arr m ρ c 0).trans (((Gcn.dat (V2 m ρ) c).arrAt_in 0 rfl _).trans (Gcn.A_eq (V2 m ρ) c 0))
    _ = W1 m ρ c (Proc.devRef .tc main_arg1) := W2_of m ρ c main_arg1 (by decide)
    _ = W0 m ρ c (Proc.devRef .tc main_arg1) := (W1_arr m ρ c 0).trans (((Degree.dat (V0 m ρ) c).arrAt_in 0 rfl _).trans (Degree.A_eq (V0 m ρ) c 0))
    _ = m ((c : Thread nD τ).loc main_arg1) := rfl
/-- The weights and the bias: no pass stages them and the host stretch only reads them. -/
theorem W3_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of m ρ c main_arg2 (by decide)
    _ = W0 m ρ c (Proc.devRef .tc main_arg2) := W1_of_ne m ρ c main_arg2 (by decide)
    _ = m ((c : Thread nD τ).loc main_arg2) := rfl
theorem W3_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of m ρ c main_arg3 (by decide)
    _ = W0 m ρ c (Proc.devRef .tc main_arg3) := W1_of_ne m ρ c main_arg3 (by decide)
    _ = m ((c : Thread nD τ).loc main_arg3) := rfl

/-! ## The proof data of both passes and the state between segments -/

/-- Both passes' proof data, each at the contents its pass is entered from. -/
def pdats : (p : Fin 2) → (c : Dev nD) → Dat τ (Elt F) Unit ℕ (UR sig nD τ) ℕ (Pipeline.pin (pcfgs (F := F)) adm p) c
  | ⟨0, _⟩ => fun c => Degree.dat (V0 m ρ) c
  | ⟨1, _⟩ => fun c => Gcn.dat (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core owing nothing. -/
abbrev R (c : Dev nD) : sProp 𝕄 := iprop(∃ W, owes (c : Thread nD τ) (0 : CellTallies nD τ sig Unit) W)
/-- The host stretch as a segment over the unscoped buffers. -/
abbrev hostSeg : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W1 m ρ) R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state, the `owes` apart: every unscoped buffer at the last valuation. -/
abbrev Tₙ (c : Dev nD) : sProp 𝕄 := StableHlo.held (c : Thread nD τ) (Pipeline.ucRefs τ sig) (W3 m ρ c)

/-! ## The passes as segments

Each pass's arrays are split out of the unscoped buffers at its entry and put back, at what the pass leaves, at
its exit; the invariant takes the program's scratch buffers in whole and gives them back whole, the accumulator's
named contents forgotten; the kernels have no semaphore of their own and owe nothing. -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Degree.body_obligation (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X _ := iprop(emp)
  Y _ := iprop(emp)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m ρ 0 c).Φ 0
      = (Pipeline.scopedRest (Ix := Unit) (Name := ℕ) (U := UR sig nD τ) (Lvl := ℕ) (Val := Elt F) spec0 c : sProp 𝕄) from rfl]
    iintro ⟨-, -, Hr⟩
    iexact Hr
  hout c := by
    rw [Pipeline.ownSems0_none, show (pdats m ρ 0 c).Φ (Fin.last _) = Degree.Phi (V0 m ρ) c cfg0.N (Nat.le_refl _) from rfl,
      Degree.Phi_pos (V0 m ρ) c _ _ (by decide)]
    iintro ⟨HS, Hr⟩
    isplitr; · iempintro
    isplitr; · iempintro
    iapply (Entails.of_eq (Degree.scoped_eq (F := F) c).symm)
    isplitl [HS]
    · iexists _; iexact HS
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (fun b => W1 m ρ c b) ((pdats m ρ 0 c).arrAt · cfg0.N) (hF0 m ρ c) (hrest0 m ρ c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Gcn.body_obligation (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X _ := iprop(emp)
  Y _ := iprop(emp)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m ρ 1 c).Φ 0
      = (Pipeline.scopedRest (Ix := Unit) (Name := ℕ) (U := UR sig nD τ) (Lvl := ℕ) (Val := Elt F) spec1 c : sProp 𝕄) from rfl]
    iintro ⟨-, -, Hr⟩
    iexact Hr
  hout c := by
    rw [Pipeline.ownSems0_none, show (pdats m ρ 1 c).Φ (Fin.last _) = Gcn.Phi (V2 m ρ) c cfg1.N (Nat.le_refl _) from rfl,
      Gcn.Phi_pos (V2 m ρ) c _ _ (by decide)]
    iintro ⟨HS, Hr⟩
    isplitr; · iempintro
    isplitr; · iempintro
    iapply (Gcn.scoped_join (F := F) c)
    isplitl [HS]
    · iexists _; iexact HS
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (fun b => W3 m ρ c b) ((pdats m ρ 1 c).arrAt · cfg1.N) (hF1 m ρ c) (hrest1 m ρ c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

/-! ## The launch -/

abbrev segs : List (Pipeline.Seg (pcfgs (F := F)) adm (pdats m ρ) () defs₀ 𝒱₀ L lv) :=
  [ .region (reg0 m ρ),
    .host (hostSeg m ρ),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of the program terminates, nothing faulting,
    with the result array at the last valuation's contents and the four arguments as launched. -/
theorem run : θ_run defs (onTc (τ := τ) (main (F := F))) ⟨m, fun _ => 0, ρ⟩ (fun r => ∀ c : Dev nD,
      r.2.mem ((c.tc : Thread nD τ).loc main_v6) = W3 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, -, -⟩, -⟩
      imodintro
      isplitl [Hh]; · iexact Hh
      iexists ∅; iexact HO)
    (QY := fun c s => ∀ b ∈ Pipeline.ucRefs τ sig, s.mem (((c : Thread nD τ)).1, b) = W3 m ρ c b)
    (hfin := fun c s' => by
      unfold Tₙ StableHlo.held
      iintro ⟨Hh, HSI⟩
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v6 (by decide)),
       (h c _ (mem_uc main_arg0 (by decide))).trans (W3_arg0 m ρ c),
       (h c _ (mem_uc main_arg1 (by decide))).trans (W3_arg1 m ρ c),
       (h c _ (mem_uc main_arg2 (by decide))).trans (W3_arg2 m ρ c),
       (h c _ (mem_uc main_arg3 (by decide))).trans (W3_arg3 m ρ c)⟩)

end Cert.KernelIdeal.Run

end
-- ==== Proof.DegreePieces.lean ====
/-
  What one point of the degree pass leaves, as values. Every store of the body covers its buffer whole, so a buffer's
  stores read back as the payload of the last one, its loads replaced by what they read: the tile, the accumulator
  as found — or, where a load follows a store of the same point, that store's payload. So a first-column point
  leaves the accumulator at (zeros + the tile's lane sums), any later point at (what it found + the tile's lane
  sums), and a last-column point stores the reciprocal square root of (the accumulator it has just updated + 1).
-/
import proofs.«147230_j21835613732936_2_alg».proof.Proof.DegreeData
import Idealize.ShloMosaic.Lib.Pipeline.Value

set_option maxRecDepth 16384

noncomputable section

namespace Cert.KernelIdeal.Degree

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz : (![0, 0] : Fin 2 → Nat) = fun _ => 0 := funext fun a => by fin_cases a <;> rfl

theorem accMid_eq (c : Dev nD) (t : Fin cfg0.N) (h0 : ¬ first (grid0.coords t)) (h1 : ¬ last (grid0.coords t)) (s : Vec F S1024x1 .f32) :
    accMid V c t h0 h1 s = k0_pay2 s (tile V c t) := by
  unfold accMid
  rw [View.read_writes_eq_canon _ _ _ (accMid_cover V c t h0 h1 s)]
  unfold runMid
  dsimp only
  rw [View.canon_unit_zero (S := S1024x1) hz]
  simp only [View.readAt_eq_ld, (adjSw t).read_unread, (Memref.isWhole_whole _).read_unread,
    View.ld_unit_zero (S := S1024x1) hz, View.ld_unit_zero (S := S1024x1024) hz]

theorem accFirst_eq (c : Dev nD) (t : Fin cfg0.N) (h0 : first (grid0.coords t)) (h1 : ¬ last (grid0.coords t)) :
    accFirst V c t h0 h1 = k0_pay2 (k0_pay1 (F := F)) (tile V c t) := by
  unfold accFirst
  rw [View.read_writes_eq_canon _ _ _ (accFirst_cover V c t h0 h1)]
  unfold runFirst
  dsimp only
  sl_unfold_words
  rw [View.canon_cons_unit_zero (S := S1024x1) hz, View.readCov_unit_zero (S := S1024x1) _ hz]
  simp only [View.readAt_eq_ld, (adjSw t).read_unread, View.ld_unit_zero (S := S1024x1024) hz]

theorem accLast_eq (c : Dev nD) (t : Fin cfg0.N) (h0 : ¬ first (grid0.coords t)) (h1 : last (grid0.coords t)) (s : Vec F S1024x1 .f32) :
    accLast V c t h0 h1 s = k0_pay2 s (tile V c t) := by
  unfold accLast
  rw [View.read_writes_eq_canon _ _ _ (accLast_cover V c t h0 h1 s)]
  unfold runLast
  dsimp only
  sl_unfold_words
  rw [View.canon_unit_zero (S := S1024x1) hz]
  simp only [View.readAt_eq_ld, (adjSw t).read_unread, (Memref.isWhole_whole _).read_unread,
    View.ld_unit_zero (S := S1024x1) hz, View.ld_unit_zero (S := S1024x1024) hz]

theorem outLast_eq (c : Dev nD) (t : Fin cfg0.N) (h0 : ¬ first (grid0.coords t)) (h1 : last (grid0.coords t)) (s : Vec F S1024x1 .f32) :
    outLast V c t h0 h1 s = k0_pay3 (k0_pay2 s (tile V c t)) := by
  unfold outLast
  rw [View.read_writes_eq_canon _ _ _ (outLast_cover V c t h0 h1 s)]
  unfold runLast
  dsimp only
  sl_unfold_words
  rw [View.canon_unit_zero (S := S1024x1) hz, View.readCov_unit_zero (S := S1024x1) _ hz]
  simp only [View.readAt_eq_ld, (adjSw t).read_unread, (Memref.isWhole_whole _).read_unread,
    View.ld_unit_zero (S := S1024x1) hz, View.ld_unit_zero (S := S1024x1024) hz]

end Cert.KernelIdeal.Degree

end
-- ==== Proof.LibColumn.lean ====
/-
  A column kept beside a matrix.

  Reducing an `[a, b]` array along its second axis leaves an `[a]` array. Keeping the reduced axis as a unit axis
  makes that an `[a, 1]` column, and broadcasting the column back to `[a, b]` gives every entry of row `p` the
  value the reduction found for row `p`. These are the two layout steps, each read at an index.
-/
import Idealize.ShloMosaic.Lib.ValueIdx
import Idealize.ShloMosaic.Lib.Pipeline.Value

noncomputable section

namespace Idealize.ShloMosaic.Column

open Idealize.ShloMosaic Idealize.ShloMosaic.ValueIdx

variable {α : Type}

/-- An `[a]` array cast to an `[a, 1]` column reads, at `(p, u)`, the operand at `p`, whatever the unit
    coordinate `u`: both positions are the `p`-th in row-major order. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, q)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-! The host spells the same two steps, and the broadcast of a scalar, with `broadcast_in_dim`. -/

/-- A scalar broadcast to any shape reads the scalar at every index. -/
theorem broadcastInDim_scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 fun ax => ax.elim0

/-- An `[a]` array broadcast along axis 0 into an `[a, 1]` column reads, at `(p, u)`, the operand at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- An `[a, 1]` column broadcast along both axes to `[a, b]` reads, at `(p, q)`, the column's entry of row `p`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h x (ix2 p q) = x (ix2 p (0 : Fin 1)) := by
  refine broadcastInDim_apply ![0, 1] h x (ix2 p q) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Column

end
-- ==== Proof.DegreeValue.lean ====
/-
  The degree pass over the extended reals. One point adds to each row of the accumulator the sum of that row of its
  1024 × 1024 tile, and the tile at point (i, j) is rows 1024 i … and columns 1024 j … of the adjacency matrix. So
  along a row of column blocks the accumulator's row `r` is the sum of row `1024 i + r` of the matrix over the
  columns seen so far — the first `1024 (j + 1)` of them after column block `j` — and after the last column block
  it is the whole row sum; the output block then holds the reciprocal square root of (row sum + 1).
-/
import proofs.«147230_j21835613732936_2_alg».proof.Proof.DegreePieces
import proofs.«147230_j21835613732936_2_alg».proof.Proof.LibColumn
import Idealize.ShloMosaic.Lib.ValueIdx
import Idealize.ShloMosaic.PureOps.Ideal.Laws

set_option maxRecDepth 16384

noncomputable section

namespace Cert.KernelIdeal.Degree

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (V : (c : Dev nD) → (b : Ref sig .tc) → Buf (Elt Ideal) ((c : Thread nD τ).loc b))

/-! ## The payloads at an index -/

theorem one_word : Ideal.ofBits .f32 0x3F800000#32 = 1 := by simp [Ideal.ofBits, Ideal.ieee, -EReal.coe_mul]; norm_num

/-- The reset stores zeros. -/
theorem pay1_apply (r : Fin 1024) (u : Fin 1) : k0_pay1 (F := Ideal) (ix2 r u) = 0 := by
  unfold k0_pay1
  rw [shapeCast_self]
  exact Ideal.ofBits_zero_f32

/-- The accumulate step: row `r` gains the sum of row `r` of the tile. -/
theorem pay2_apply (s : FVec Ideal S1024x1 .f32) (a : FVec Ideal S1024x1024 .f32) (r : Fin 1024) (u : Fin 1) :
    k0_pay2 (F := Ideal) s a (ix2 r u) = s (ix2 r u) + ∑ l : Fin 1024, a (ix2 r l) := by
  unfold k0_pay2
  rw [shapeCast_self]
  refine congrArg (s (ix2 r u) + ·) ?_
  refine (Column.shapeCast_a_a1_apply _ shapeCasts_S1024_S1024x1 r u).trans ?_
  refine (Ideal.multiReduction_add_single a 0x00000000#32 reduces_S1024x1024_S1024 (.inl rfl) rfl (ix1 r)).trans ?_
  refine Finset.sum_congr rfl fun l _ => ?_
  exact congrArg a (funext fun ax => Fin.ext (by match ax with | ⟨0, _⟩ => rfl | ⟨1, _⟩ => rfl))

/-- The final step: the reciprocal square root of (accumulator + 1). -/
theorem pay3_apply (v : FVec Ideal S1024x1 .f32) (r : Fin 1024) (u : Fin 1) :
    k0_pay3 (F := Ideal) v (ix2 r u) = Ideal.rsqrt (v (ix2 r u) + 1) := by
  unfold k0_pay3
  show Ideal.rsqrt (v (ix2 r u) + Ideal.ofBits .f32 0x3F800000#32) = _
  rw [one_word]

/-! ## A tile's entry is the matrix's -/

/-- Point `t` = (i, j) with the column coordinate minor: the tile's block index is (t / 8, t % 8). -/
theorem tile_index : ∀ t : Fin cfg0.N, win0_0.index t 0 = t.val / 8 ∧ win0_0.index t 1 = t.val % 8 :=
  (by decide +kernel : ∀ t : Fin grid0.N, win0_0.index t 0 = t.val / 8 ∧ win0_0.index t 1 = t.val % 8)

theorem tile_apply (c : Dev nD) (t : Fin cfg0.N) (r l : Fin 1024)
    (hR : 1024 * (t.val / 8) + r.val < 8192) (hC : 1024 * (t.val % 8) + l.val < 8192) :
    tile V c t (ix2 r l) = V c main_arg1 (ix2 ⟨1024 * (t.val / 8) + r.val, hR⟩ ⟨1024 * (t.val % 8) + l.val, hC⟩) := by
  unfold tile
  show V c main_arg1 (((cfg0.win 0).blk t).view.emb (ix2 r l)) = _
  refine congrArg (V c main_arg1) (funext fun a => Fin.ext ?_)
  match a with
  | ⟨0, _⟩ =>
    show win0_0.index t 0 * 1024 + 1 * r.val = 1024 * (t.val / 8) + r.val
    rw [(tile_index t).1]; omega
  | ⟨1, _⟩ =>
    show win0_0.index t 1 * 1024 + 1 * l.val = 1024 * (t.val % 8) + l.val
    rw [(tile_index t).2]; omega

end Cert.KernelIdeal.Degree

end
-- ==== Proof.Spec.lean ====
/-
  What the layer computes, entry by entry, over the extended reals.

  Row `r` of the graph has degree `Σ c, adj (r, c) + 1` (the `+ 1` is the self loop) and degree factor the
  reciprocal square root of that. The aggregated features of row `r` are the degree factor times the sum over
  the neighbours `c` of `adj (r, c)` times the neighbour's own features scaled by its degree factor, plus the
  self-loop term, the row's own features times the square of its degree factor. The layer's output is the
  rectified dense layer of the aggregated features: `max (Σ k, agg (r, k) * W (k, o) + b o) 0`.

  This is the form in which the two-pass kernel computes it; the reference's form (the normalised adjacency
  matrix, with the self loops added, times the features) is the same function wherever every degree is positive
  and every input finite.
-/
import Idealize.ShloMosaic.PureOps.Ideal
import Idealize.ShloMosaic.Lib.ValueIdx

noncomputable section

namespace Cert.Spec

open Idealize.ShloMosaic Idealize.ShloMosaic.ValueIdx

/-- The four arguments' shapes: features, adjacency matrix, weights, bias. -/
abbrev SX : Shape := ⟨2, ![8192, 256]⟩
abbrev SA : Shape := ⟨2, ![8192, 8192]⟩
abbrev SW : Shape := ⟨2, ![256, 256]⟩
abbrev SB : Shape := ⟨1, ![256]⟩

/-- The degree of row `r`: its row sum plus one. -/
def deg (adj : SA.Idx → EReal) (r : Fin 8192) : EReal := (∑ c : Fin 8192, adj (ix2 r c)) + 1

/-- The degree factor of row `r`. -/
def dinv (adj : SA.Idx → EReal) (r : Fin 8192) : EReal := Ideal.rsqrt (deg adj r)

/-- The aggregated features of row `r`, column `k`. -/
def agg (x : SX.Idx → EReal) (adj : SA.Idx → EReal) (r : Fin 8192) (k : Fin 256) : EReal :=
  dinv adj r * (∑ c : Fin 8192, adj (ix2 r c) * (dinv adj c * x (ix2 c k))) + dinv adj r * dinv adj r * x (ix2 r k)

/-- The layer's output at row `r`, column `o`. -/
def out (x : SX.Idx → EReal) (adj : SA.Idx → EReal) (W : SW.Idx → EReal) (b : SB.Idx → EReal)
    (r : Fin 8192) (o : Fin 256) : EReal :=
  max ((∑ k : Fin 256, agg x adj r k * W (ix2 k o)) + b (ix1 o)) 0

/-- The layer's output as one array. -/
def G (x : SX.Idx → EReal) (adj : SA.Idx → EReal) (W : SW.Idx → EReal) (b : SB.Idx → EReal) : SX.Idx → EReal :=
  fun i => out x adj W b (i 0) (i 1)

theorem G_apply (x : SX.Idx → EReal) (adj : SA.Idx → EReal) (W : SW.Idx → EReal) (b : SB.Idx → EReal)
    (r : Fin 8192) (o : Fin 256) : G x adj W b (ix2 r o) = out x adj W b r o := rfl

end Cert.Spec

end
-- ==== Proof.DegreeSum.lean ====
/-
  The degree pass's result array. Along a row of column blocks the accumulator's row `r` holds the sum of row
  `R = 1024 i + r` of the adjacency matrix over the columns seen so far: after column block `j` the first
  `1024 (j + 1)` of them. This is proved by induction on the point: a first-column point starts from zero, every
  later point adds its tile's row sum to what the point before left. After the last column block the sum runs over
  all 8192 columns, and the block written back holds the reciprocal square root of (row sum + 1). The row blocks'
  write-backs tile the [8192, 1] result array, so the array ends holding the degree factor of every row.
-/
import proofs.«147230_j21835613732936_2_alg».proof.Proof.DegreeValue
import proofs.«147230_j21835613732936_2_alg».proof.Proof.Spec
import Idealize.ShloMosaic.Lib.Pipeline.Value

set_option maxRecDepth 16384

noncomputable section

namespace Cert.KernelIdeal.Degree

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (V : (c : Dev nD) → (b : Ref sig .tc) → Buf (Elt Ideal) ((c : Thread nD τ).loc b))

/-! ## A row's sum over its first columns -/

/-- Row `R` of `M` summed over its first `n` columns. -/
def rowPrefix (M : FVec Ideal S8192x8192 .f32) (R : Fin 8192) (n : ℕ) : EReal :=
  ∑ col ∈ Finset.range n, if h : col < 8192 then M (ix2 R ⟨col, h⟩) else 0

theorem rowPrefix_zero (M : FVec Ideal S8192x8192 .f32) (R : Fin 8192) : rowPrefix M R 0 = 0 := by
  unfold rowPrefix; rw [Finset.range_zero, Finset.sum_empty]

theorem rowPrefix_full (M : FVec Ideal S8192x8192 .f32) (R : Fin 8192) :
    rowPrefix M R 8192 = ∑ cc : Fin 8192, M (ix2 R cc) := by
  unfold rowPrefix
  rw [Finset.sum_range]
  exact Finset.sum_congr rfl fun cc _ => dif_pos cc.isLt

/-- Adding the next 1024 columns. -/
theorem rowPrefix_step (M : FVec Ideal S8192x8192 .f32) (R : Fin 8192) (j : ℕ) (s : EReal)
    (hs : s = rowPrefix M R (1024 * j)) (f : Fin 1024 → EReal)
    (hf : ∀ l : Fin 1024, f l = if h : 1024 * j + l.val < 8192 then M (ix2 R ⟨1024 * j + l.val, h⟩) else 0) :
    s + ∑ l, f l = rowPrefix M R (1024 * (j + 1)) := by
  subst hs
  unfold rowPrefix
  rw [show 1024 * (j + 1) = 1024 * j + 1024 from by ring, Finset.sum_range_add,
    Finset.sum_range (fun x => if h : 1024 * j + x < 8192 then M (ix2 R ⟨1024 * j + x, h⟩) else 0)]
  exact congrArg (_ + ·) (Finset.sum_congr rfl fun l _ => hf l)

/-- A tile's entry as the matrix's entry of row `R` in column block `j`. -/
theorem tile_entry (c : Dev nD) (t : Fin cfg0.N) (r l : Fin 1024) (R : Fin 8192) (hR : R.val = 1024 * (t.val / 8) + r.val)
    (j : ℕ) (hj : t.val % 8 = j) :
    (tile V c t : FVec Ideal S1024x1024 .f32) (ix2 r l)
      = if h : 1024 * j + l.val < 8192 then (V c main_arg1 : FVec Ideal S8192x8192 .f32) (ix2 R ⟨1024 * j + l.val, h⟩) else (0 : EReal) := by
  subst hj
  have hl := l.isLt
  have hm : t.val % 8 < 8 := Nat.mod_lt _ (by norm_num)
  have hC : 1024 * (t.val % 8) + l.val < 8192 := by omega
  have hR' : 1024 * (t.val / 8) + r.val < 8192 := hR ▸ R.isLt
  rw [dif_pos hC, tile_apply V c t r l hR' hC]
  exact congrArg (fun R' => (V c main_arg1 : FVec Ideal S8192x8192 .f32) (ix2 R' ⟨1024 * (t.val % 8) + l.val, hC⟩)) (Fin.ext hR.symm)

/-! ## Along the grid -/

/-- After position `n` the accumulator's row `r` is row `R` of the matrix summed over the first
    `1024 (n % 8 + 1)` columns, `R = 1024 (n / 8) + r`. -/
theorem acc_inv (c : Dev nD) : ∀ (n : ℕ) (hn : n < cfg0.N) (r : Fin 1024) (u : Fin 1) (R : Fin 8192),
    R.val = 1024 * (n / 8) + r.val →
    accAt V c n hn (ix2 r u) = rowPrefix (V c main_arg1) R (1024 * (n % 8 + 1)) := by
  intro n
  induction n with
  | zero =>
    intro hn r u R hR
    have e : accAt V c 0 hn = accFirst V c ⟨0, hn⟩ ((first_iff ⟨0, hn⟩).mpr (Nat.zero_mod _)) (fun h => by have := (last_iff ⟨0, hn⟩).mp h; dsimp only at this; omega) := rfl
    rw [e, accFirst_eq, pay2_apply, pay1_apply]
    exact rowPrefix_step _ R 0 0 (rowPrefix_zero _ _).symm _ (fun l => tile_entry V c ⟨0, hn⟩ r l R hR 0 (Nat.zero_mod _))
  | succ n ih =>
    intro hn r u R hR
    by_cases h0 : (n + 1) % 8 = 0
    · have h1 : ¬ (n + 1) % 8 = 7 := by omega
      have e := accAt_first V c ⟨n + 1, hn⟩ h0 h1
      dsimp only at e
      rw [e, accFirst_eq, pay2_apply, pay1_apply, h0]
      exact rowPrefix_step _ R 0 0 (rowPrefix_zero _ _).symm _ (fun l => tile_entry V c ⟨n + 1, hn⟩ r l R hR 0 h0)
    · have e2 : (n + 1) % 8 = n % 8 + 1 := by omega
      have e1 : (n + 1) / 8 = n / 8 := by omega
      have hR' : R.val = 1024 * (n / 8) + r.val := by rw [← e1]; exact hR
      have IH := ih (Nat.lt_of_succ_lt hn) r u R hR'
      have body : accAt V c (n + 1) hn
          = k0_pay2 (accAt V c n (Nat.lt_of_succ_lt hn)) (tile V c ⟨n + 1, hn⟩) := by
        by_cases h1 : (n + 1) % 8 = 7
        · have e := accAt_last V c ⟨n + 1, hn⟩ h0 h1
          dsimp only at e
          rw [e, accLast_eq]; rfl
        · have e := accAt_mid V c ⟨n + 1, hn⟩ h0 h1
          dsimp only at e
          rw [e, accMid_eq]; rfl
      rw [body, pay2_apply, e2]
      exact rowPrefix_step _ R (n % 8 + 1) _ IH _ (fun l => tile_entry V c ⟨n + 1, hn⟩ r l R hR (n % 8 + 1) e2)

/-! ## The result array -/

/-- The degree factor of every row, as an [8192, 1] column. -/
def dvec (M : FVec Ideal S8192x8192 .f32) : FVec Ideal S8192x1 .f32 := fun i => Cert.Spec.dinv M (i 0)

/-- The output window's block index at point `t`: the row block, in one column. -/
theorem out_index : ∀ t : Fin cfg0.N, win0_1.index t 0 = t.val / 8 ∧ win0_1.index t 1 = 0 :=
  (by decide +kernel : ∀ t : Fin grid0.N, win0_1.index t 0 = t.val / 8 ∧ win0_1.index t 1 = 0)

/-- What a last-column point writes back is its block of the degree factors. -/
theorem flushed_out (c : Dev nD) (t : Fin cfg0.N) (hf : (cfg0.win 1).flush t = true) :
    (dat V c).flushed 1 t = ((cfg0.win 1).blk t).view.read (Elt Ideal) (dvec (V c main_arg1)) := by
  have h1 : t.val % 8 = 7 := (flush0_1 t).mp hf
  have h0 : ¬ t.val % 8 = 0 := by omega
  have hN : t.val < 64 := lt_of_lt_of_eq t.isLt N_0
  show (cfg0.win 1).cut (grid0.coords t) ((dat V c).after 1 t) = _
  rw [after_out]
  rw [show outAt V c t = outLast V c t (fun h => h0 ((first_iff t).mp h)) ((last_iff t).mpr h1)
    (accAt V c (t.val - 1) (Nat.lt_of_le_of_lt (Nat.sub_le _ _) t.isLt)) from dif_pos h1]
  rw [outLast_eq]
  funext y
  obtain ⟨r, u, rfl⟩ : ∃ (r : Fin 1024) (u : Fin 1), y = ix2 r u := ⟨y 0, y 1, eq_ix2 y⟩
  have hr := r.isLt
  have hRlt : 1024 * (t.val / 8) + r.val < 8192 := by omega
  have IH := acc_inv V c (t.val - 1) (Nat.lt_of_le_of_lt (Nat.sub_le _ _) t.isLt) r u ⟨1024 * (t.val / 8) + r.val, hRlt⟩
    (by show 1024 * (t.val / 8) + r.val = 1024 * ((t.val - 1) / 8) + r.val; omega)
  rw [show (t.val - 1) % 8 + 1 = 7 from by omega] at IH
  have key := (rowPrefix_step (V c main_arg1) ⟨1024 * (t.val / 8) + r.val, hRlt⟩ 7 _ IH _
    (fun l => tile_entry V c t r l ⟨1024 * (t.val / 8) + r.val, hRlt⟩ rfl 7 h1)).trans (rowPrefix_full _ _)
  show k0_pay3 (k0_pay2 (accAt V c (t.val - 1) _) (tile V c t)) (ix2 r u)
    = dvec (V c main_arg1) (((cfg0.win 1).blk t).view.emb (ix2 r u))
  rw [pay3_apply, pay2_apply, key]
  have hrow : (((cfg0.win 1).blk t).view.emb (ix2 r u)) 0 = (⟨1024 * (t.val / 8) + r.val, hRlt⟩ : Fin 8192) := by
    apply Fin.ext
    show win0_1.index t 0 * 1024 + 1 * r.val = 1024 * (t.val / 8) + r.val
    rw [(out_index t).1]; omega
  unfold dvec Cert.Spec.dinv Cert.Spec.deg
  rw [hrow]

/-- An index of the result array is in point `t`'s block iff each coordinate is in the block's range on its axis. -/
theorem mem_out_blk (t : Fin cfg0.N) (i : S8192x1.Idx) :
    i ∈ ((cfg0.win 1).blk t).view.set ↔ ∀ a : Fin 2, win0_1.index t a * S1024x1.size a ≤ (i a).val
      ∧ (i a).val < win0_1.index t a * S1024x1.size a + S1024x1.size a := by
  show i ∈ ((View.whole main_v0).slice (win0_1.rect t)).set ↔ _
  rw [View.set_slice_whole, Rect.mem_set_unit]
  exact Iff.rfl

/-- Every row of the result array is in the block of its row block's last-column point. -/
theorem out_cover (i : S8192x1.Idx) :
    ∃ t : Fin cfg0.N, (cfg0.win 1).flush t = true ∧ i ∈ ((cfg0.win 1).blk t).view.set := by
  have hi0 : (i 0).val < 8192 := (i 0).isLt
  have hi1 : (i 1).val < 1 := (i 1).isLt
  have hN : cfg0.N = 64 := N_0
  have ht : 8 * ((i 0).val / 1024) + 7 < cfg0.N := by omega
  refine ⟨⟨8 * ((i 0).val / 1024) + 7, ht⟩, (flush0_1 _).mpr (by show (8 * ((i 0).val / 1024) + 7) % 8 = 7; omega), ?_⟩
  rw [mem_out_blk]
  obtain ⟨e0, e1⟩ := out_index ⟨8 * ((i 0).val / 1024) + 7, ht⟩
  dsimp only at e0
  intro a
  match a with
  | ⟨0, _⟩ =>
    show win0_1.index ⟨8 * ((i 0).val / 1024) + 7, ht⟩ 0 * 1024 ≤ (i 0).val
      ∧ (i 0).val < win0_1.index ⟨8 * ((i 0).val / 1024) + 7, ht⟩ 0 * 1024 + 1024
    rw [e0]; omega
  | ⟨1, _⟩ =>
    show win0_1.index ⟨8 * ((i 0).val / 1024) + 7, ht⟩ 1 * 1 ≤ (i 1).val
      ∧ (i 1).val < win0_1.index ⟨8 * ((i 0).val / 1024) + 7, ht⟩ 1 * 1 + 1
    rw [e1]; omega

/-- The result array after the pass: the degree factor of every row. -/
theorem final_out (c : Dev nD) : (dat V c).arrAt 1 cfg0.N = dvec (V c main_arg1) :=
  (dat V c).arrAt_eq_of_cover 1 _ (flushed_out V c) out_cover

end Cert.KernelIdeal.Degree

end
-- ==== Proof.GcnPieces.lean ====
/-
  What one point of the aggregation pass leaves, as values. Every store of the body covers its buffer whole, so a
  buffer's stores read back as the payload of the last one, its loads replaced by what they read. A first-column
  point leaves the accumulator at (zeros + the tile times its rows of the scaled features), any later point at
  (what it found + that product), and a last-column point stores the rectified dense layer of the accumulator it has
  just updated, scaled by the row block's degree factors, plus the self-loop term.
-/
import proofs.«147230_j21835613732936_2_alg».proof.Proof.GcnData
import Idealize.ShloMosaic.Lib.Pipeline.Value

set_option maxRecDepth 16384

noncomputable section

namespace Cert.KernelIdeal.Gcn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz : (![0, 0] : Fin 2 → Nat) = fun _ => 0 := funext fun a => by fin_cases a <;> rfl

theorem accMid_eq (c : Dev nD) (t : Fin cfg1.N) (h0 : ¬ first (grid1.coords t)) (h1 : ¬ last (grid1.coords t)) (s : Vec F S1024x256 .f32) :
    accMid V c t h0 h1 s = k1_pay2 (blk V c 0 t) (blk V c 1 t) s := by
  unfold accMid
  rw [View.read_writes_eq_canon _ _ _ (accMid_cover V c t h0 h1 s)]
  unfold runMid
  dsimp only
  sl_unfold_words
  rw [View.canon_unit_zero (S := S1024x256) hz]
  simp only [View.readAt_eq_ld, (s0w t).read_unread, (s1w t).read_unread, (s2w t).read_unread, (s3w t).read_unread,
    (s4w t).read_unread, (s5w t).read_unread, (Memref.isWhole_whole _).read_unread,
    View.ld_unit_zero (S := S1024x2048) hz, View.ld_unit_zero (S := S2048x256) hz, View.ld_unit_zero (S := S1024x256) hz,
    View.ld_unit_zero (S := S1024x1) hz, View.ld_unit_zero (S := S256x256) hz, View.ld_unit_zero (S := S1x256) hz]

theorem accFirst_eq (c : Dev nD) (t : Fin cfg1.N) (h0 : first (grid1.coords t)) (h1 : ¬ last (grid1.coords t)) :
    accFirst V c t h0 h1 = k1_pay2 (blk V c 0 t) (blk V c 1 t) (k1_pay1 (F := F)) := by
  unfold accFirst
  rw [View.read_writes_eq_canon _ _ _ (accFirst_cover V c t h0 h1)]
  unfold runFirst
  dsimp only
  sl_unfold_words
  rw [View.canon_cons_unit_zero (S := S1024x256) hz, View.readCov_unit_zero (S := S1024x256) _ hz]
  simp only [View.readAt_eq_ld, (s0w t).read_unread, (s1w t).read_unread, (s2w t).read_unread, (s3w t).read_unread,
    (s4w t).read_unread, (s5w t).read_unread, (Memref.isWhole_whole _).read_unread,
    View.ld_unit_zero (S := S1024x2048) hz, View.ld_unit_zero (S := S2048x256) hz, View.ld_unit_zero (S := S1024x256) hz,
    View.ld_unit_zero (S := S1024x1) hz, View.ld_unit_zero (S := S256x256) hz, View.ld_unit_zero (S := S1x256) hz]

theorem accLast_eq (c : Dev nD) (t : Fin cfg1.N) (h0 : ¬ first (grid1.coords t)) (h1 : last (grid1.coords t)) (s : Vec F S1024x256 .f32) :
    accLast V c t h0 h1 s = k1_pay2 (blk V c 0 t) (blk V c 1 t) s := by
  unfold accLast
  rw [View.read_writes_eq_canon _ _ _ (accLast_cover V c t h0 h1 s)]
  unfold runLast
  dsimp only
  sl_unfold_words
  rw [View.canon_unit_zero (S := S1024x256) hz]
  simp only [View.readAt_eq_ld, (s0w t).read_unread, (s1w t).read_unread, (s2w t).read_unread, (s3w t).read_unread,
    (s4w t).read_unread, (s5w t).read_unread, (Memref.isWhole_whole _).read_unread,
    View.ld_unit_zero (S := S1024x2048) hz, View.ld_unit_zero (S := S2048x256) hz, View.ld_unit_zero (S := S1024x256) hz,
    View.ld_unit_zero (S := S1024x1) hz, View.ld_unit_zero (S := S256x256) hz, View.ld_unit_zero (S := S1x256) hz]

theorem outLast_eq (c : Dev nD) (t : Fin cfg1.N) (h0 : ¬ first (grid1.coords t)) (h1 : last (grid1.coords t)) (s : Vec F S1024x256 .f32) :
    outLast V c t h0 h1 s
      = k1_pay3 (blk V c 3 t) (k1_pay2 (blk V c 0 t) (blk V c 1 t) s) (blk V c 2 t) (blk V c 4 t) (blk V c 5 t) := by
  unfold outLast
  rw [View.read_writes_eq_canon _ _ _ (outLast_cover V c t h0 h1 s)]
  unfold runLast
  dsimp only
  sl_unfold_words
  rw [View.canon_unit_zero (S := S1024x256) hz, View.readCov_unit_zero (S := S1024x256) _ hz]
  simp only [View.readAt_eq_ld, (s0w t).read_unread, (s1w t).read_unread, (s2w t).read_unread, (s3w t).read_unread,
    (s4w t).read_unread, (s5w t).read_unread, (Memref.isWhole_whole _).read_unread,
    View.ld_unit_zero (S := S1024x2048) hz, View.ld_unit_zero (S := S2048x256) hz, View.ld_unit_zero (S := S1024x256) hz,
    View.ld_unit_zero (S := S1024x1) hz, View.ld_unit_zero (S := S256x256) hz, View.ld_unit_zero (S := S1x256) hz]

end Cert.KernelIdeal.Gcn

end
-- ==== Proof.LibDenseBlock.lean ====
/-
  A weight matrix times a block, read at an index.

  A `tpu.matmul` of a `[K, N]` left operand with an `[N, Q]` right operand, contracting the left's second axis with the
  right's first, into a zero accumulator: over the extended reals entry `(k, q)` of the result is the plain sum
  `Σ n, l (k, n) * r (n, q)`.
-/
import Idealize.ShloMosaic.Lib.ValueIdx
import Idealize.ShloMosaic.PureOps.Ideal.Laws

noncomputable section

namespace Idealize.ShloMosaic.DenseBlock

open Idealize.ShloMosaic Idealize.ShloMosaic.ValueIdx

/-- The dimension numbers of `[K, N] · [N, Q] → [K, Q]`. -/
abbrev mmDims (K N Q : Nat)
    (wf : DotDims.WF ⟨2, ![K, N]⟩ ⟨2, ![N, Q]⟩ ⟨2, ![K, Q]⟩ [1] [0] [0] [1] [] []) :
    DotDims ⟨2, ![K, N]⟩ ⟨2, ![N, Q]⟩ ⟨2, ![K, Q]⟩ where
  lhsContracting := [1]
  rhsContracting := [0]
  lhsNonContracting := [0]
  rhsNonContracting := [1]
  lhsBatch := []
  rhsBatch := []
  wf := wf

section
variable {K N Q : Nat} (wf : DotDims.WF ⟨2, ![K, N]⟩ ⟨2, ![N, Q]⟩ ⟨2, ![K, Q]⟩ [1] [0] [0] [1] [] [])

/-- The left operand's row is the result's row. -/
theorem lhs_row (j : (⟨2, ![K, Q]⟩ : Shape).Idx) (c : (mmDims K N Q wf).contr.Idx) :
    ((mmDims K N Q wf).lhsIdx j c (0 : Fin 2)).val = (j 0).val := by
  unfold DotDims.lhsIdx
  rw [dif_neg (show ¬ (0 : Fin 2) ∈ (mmDims K N Q wf).lhsBatch from List.not_mem_nil),
    dif_pos (show (0 : Fin 2) ∈ (mmDims K N Q wf).lhsNonContracting from List.mem_singleton.mpr rfl)]
  rfl

/-- The left operand's column is the contraction position. -/
theorem lhs_col (j : (⟨2, ![K, Q]⟩ : Shape).Idx) (c : (mmDims K N Q wf).contr.Idx) :
    ((mmDims K N Q wf).lhsIdx j c (1 : Fin 2)).val = (c ⟨0, Nat.one_pos⟩).val :=
  (mmDims K N Q wf).lhsIdx_val_of_single rfl j c

/-- The right operand's row is the contraction position. -/
theorem rhs_row (j : (⟨2, ![K, Q]⟩ : Shape).Idx) (c : (mmDims K N Q wf).contr.Idx) :
    ((mmDims K N Q wf).rhsIdx j c (0 : Fin 2)).val = (c ⟨0, Nat.one_pos⟩).val :=
  (mmDims K N Q wf).rhsIdx_val_of_single rfl j c

/-- The right operand's column is the result's column. -/
theorem rhs_col (j : (⟨2, ![K, Q]⟩ : Shape).Idx) (c : (mmDims K N Q wf).contr.Idx) :
    ((mmDims K N Q wf).rhsIdx j c (1 : Fin 2)).val = (j 1).val := by
  unfold DotDims.rhsIdx
  rw [dif_neg (show ¬ (1 : Fin 2) ∈ (mmDims K N Q wf).rhsBatch from List.not_mem_nil),
    dif_pos (show (1 : Fin 2) ∈ (mmDims K N Q wf).rhsNonContracting from List.mem_singleton.mpr rfl)]
  rfl

/-- Entry `(k, q)` of the product into a zero accumulator is `Σ n, l (k, n) * r (n, q)`. -/
theorem matmul_zero_apply {φ₁ φ₂ : FTy} (l : FVec Ideal ⟨2, ![K, N]⟩ φ₁) (r : FVec Ideal ⟨2, ![N, Q]⟩ φ₂)
    (k : Fin K) (q : Fin Q) :
    FloatOps.matmul (mmDims K N Q wf) none l r (constant ⟨2, ![K, Q]⟩ .f32 0x00000000#32) (ix2 k q)
      = ∑ n : Fin N, l (ix2 k n) * r (ix2 n q) := by
  rw [Ideal.matmul_constant_zero_apply, ← Equiv.sum_comp (contrEquiv1 (mmDims K N Q wf) N rfl rfl).symm]
  refine Finset.sum_congr rfl fun n _ => ?_
  have hn := contrEquiv1_symm_val (mmDims K N Q wf) N rfl rfl n
  have el : (mmDims K N Q wf).lhsIdx (ix2 k q) ((contrEquiv1 (mmDims K N Q wf) N rfl rfl).symm n) = ix2 k n :=
    funext fun a => Fin.ext (by
      match a with
      | ⟨0, _⟩ => exact lhs_row wf _ _
      | ⟨1, _⟩ => exact (lhs_col wf _ _).trans hn)
  have er : (mmDims K N Q wf).rhsIdx (ix2 k q) ((contrEquiv1 (mmDims K N Q wf) N rfl rfl).symm n) = ix2 n q :=
    funext fun a => Fin.ext (by
      match a with
      | ⟨0, _⟩ => exact (rhs_row wf _ _).trans hn
      | ⟨1, _⟩ => exact rhs_col wf _ _)
  rw [el, er]

end

end Idealize.ShloMosaic.DenseBlock

end
-- ==== Proof.LibDenseLayer.lean ====
/-
  A dense layer inside a kernel, read at an index.

  A kernel computes a layer on a block of `K` rows as a product of the block `[K, N]` with the weights laid out
  `[N, Q]`, into a zero accumulator, plus the bias, one row `[1, Q]` laid along every row of the block; a clamp
  between two constants may follow.  Over the extended reals entry `(p, q)` of the result is
  `Σ n, X (p, n) * Wt (n, q) + bias (0, q)`, clamped.
-/
import proofs.«147230_j21835613732936_2_alg».proof.Proof.LibDenseBlock
import Idealize.ShloMosaic.Lib.ValueLayout

noncomputable section

namespace Idealize.ShloMosaic.DenseLayer

open Idealize.ShloMosaic Idealize.ShloMosaic.ValueIdx Idealize.ShloMosaic.DenseBlock

variable {K N Q : Nat} (wf : DotDims.WF ⟨2, ![K, N]⟩ ⟨2, ![N, Q]⟩ ⟨2, ![K, Q]⟩ [1] [0] [0] [1] [] [])

/-- Entry `(p, q)` of `X · Wt + bias`, the bias one row laid along every row. -/
theorem affine_apply {φ₁ φ₂ : FTy} (X : FVec Ideal ⟨2, ![K, N]⟩ φ₁) (Wt : FVec Ideal ⟨2, ![N, Q]⟩ φ₂)
    (bias : FVec Ideal ⟨2, ![1, Q]⟩ .f32) (hb : (⟨2, ![1, Q]⟩ : Shape).Broadcasts ⟨2, ![K, Q]⟩) (p : Fin K) (q : Fin Q) :
    addf (matmul (mmDims K N Q wf) none X Wt (constant ⟨2, ![K, Q]⟩ .f32 0x00000000#32))
        (broadcastTo ⟨2, ![K, Q]⟩ bias hb) (ix2 p q)
      = (∑ n : Fin N, X (ix2 p n) * Wt (ix2 n q)) + bias (ix2 (0 : Fin 1) q) := by
  show FloatOps.matmul (mmDims K N Q wf) none X Wt (constant ⟨2, ![K, Q]⟩ .f32 0x00000000#32) (ix2 p q)
      + broadcastTo ⟨2, ![K, Q]⟩ bias hb (ix2 p q) = _
  rw [matmul_zero_apply wf X Wt p q, broadcastTo_1b_ab_apply bias hb p q]

/-- The same, clamped from below by the splat of `lo` and then from above by the splat of `hi`. -/
theorem affine_clamped_apply {φ₁ φ₂ : FTy} (X : FVec Ideal ⟨2, ![K, N]⟩ φ₁) (Wt : FVec Ideal ⟨2, ![N, Q]⟩ φ₂)
    (bias : FVec Ideal ⟨2, ![1, Q]⟩ .f32) (hb : (⟨2, ![1, Q]⟩ : Shape).Broadcasts ⟨2, ![K, Q]⟩) (lo hi : BitVec 32)
    (p : Fin K) (q : Fin Q) :
    minimumf (broadcast ⟨2, ![K, Q]⟩ (Scalar.ofBits (F := Ideal) .f32 hi))
        (maximumf (broadcast ⟨2, ![K, Q]⟩ (Scalar.ofBits (F := Ideal) .f32 lo))
          (addf (matmul (mmDims K N Q wf) none X Wt (constant ⟨2, ![K, Q]⟩ .f32 0x00000000#32))
            (broadcastTo ⟨2, ![K, Q]⟩ bias hb))) (ix2 p q)
      = min (Ideal.ofBits .f32 hi) (max (Ideal.ofBits .f32 lo)
          ((∑ n : Fin N, X (ix2 p n) * Wt (ix2 n q)) + bias (ix2 (0 : Fin 1) q))) := by
  show min (Ideal.ofBits .f32 hi) (max (Ideal.ofBits .f32 lo)
      (addf (matmul (mmDims K N Q wf) none X Wt (constant ⟨2, ![K, Q]⟩ .f32 0x00000000#32))
        (broadcastTo ⟨2, ![K, Q]⟩ bias hb) (ix2 p q))) = _
  rw [affine_apply wf X Wt bias hb p q]

end Idealize.ShloMosaic.DenseLayer

end
-- ==== Proof.GcnValue.lean ====
/-
  The aggregation pass over the extended reals: its payloads at an index, and its windows' blocks as entries of
  their arrays. One point adds to entry (r, k) of the accumulator the contraction of row r of its 1024 × 2048 tile
  of the adjacency matrix with column k of the matching 2048 rows of the scaled features. A last-column point turns
  row r of the accumulator into (degree factor × accumulator + degree factor² × the row's own features), contracts
  that with the weights, adds the bias and rectifies.
-/
import proofs.«147230_j21835613732936_2_alg».proof.Proof.GcnPieces
import proofs.«147230_j21835613732936_2_alg».proof.Proof.LibColumn
import proofs.«147230_j21835613732936_2_alg».proof.Proof.LibDenseLayer
import Idealize.ShloMosaic.Lib.ValueIdx
import Idealize.ShloMosaic.Lib.ValueLayout
import Idealize.ShloMosaic.PureOps.Ideal.Laws

set_option maxRecDepth 16384

noncomputable section

namespace Cert.KernelIdeal.Gcn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (V : (c : Dev nD) → (b : Ref sig .tc) → Buf (Elt Ideal) ((c : Thread nD τ).loc b))

/-! ## The payloads at an index -/

/-- The reset stores zeros. -/
theorem pay1_apply (r : Fin 1024) (k : Fin 256) : k1_pay1 (F := Ideal) (ix2 r k) = 0 := by
  unfold k1_pay1
  rw [shapeCast_self]
  exact Ideal.ofBits_zero_f32

/-- The accumulate step: entry (r, k) gains row r of the tile contracted with column k of the feature rows. -/
theorem pay2_apply (a : FVec Ideal S1024x2048 .f32) (y : FVec Ideal S2048x256 .bf16) (s : FVec Ideal S1024x256 .f32)
    (r : Fin 1024) (k : Fin 256) :
    k1_pay2 (F := Ideal) a y s (ix2 r k) = s (ix2 r k) + ∑ l : Fin 2048, a (ix2 r l) * y (ix2 l k) := by
  unfold k1_pay2
  simp only [shapeCast_self]
  refine congrArg (s (ix2 r k) + ·) ?_
  exact DenseBlock.matmul_zero_apply dot_S1024x2048_S2048x256_S1024x256_1_0_0_1_n_n_wf (truncf .bf16 a bitsLt_bf16_f32) y r k

/-- The final step: the rectified dense layer of (degree factor × accumulator + degree factor² × own features). -/
theorem pay3_apply (d : FVec Ideal S1024x1 .f32) (acc : FVec Ideal S1024x256 .f32) (x : FVec Ideal S1024x256 .f32)
    (w : FVec Ideal S256x256 .bf16) (b : FVec Ideal S1x256 .f32) (r : Fin 1024) (o : Fin 256) :
    k1_pay3 (F := Ideal) d acc x w b (ix2 r o)
      = max ((∑ k : Fin 256, (d (ix2 r (0 : Fin 1)) * acc (ix2 r k) + d (ix2 r (0 : Fin 1)) * d (ix2 r (0 : Fin 1)) * x (ix2 r k)) * w (ix2 k o))
          + b (ix2 (0 : Fin 1) o)) 0 := by
  unfold k1_pay3
  simp only [shapeCast_self]
  show max (addf (matmul dot_S1024x256_S256x256_S1024x256_1_0_0_1_n_n none _ w (constant S1024x256 .f32 0x00000000#32))
      (broadcastTo S1024x256 b broadcasts_S1x256_S1024x256) (ix2 r o)) (Ideal.ofBits .f32 0x00000000#32) = _
  refine (congrArg (fun z => max z (Ideal.ofBits .f32 0x00000000#32))
    (DenseLayer.affine_apply dot_S1024x256_S256x256_S1024x256_1_0_0_1_n_n_wf _ w b broadcasts_S1x256_S1024x256 r o)).trans ?_
  rw [Ideal.ofBits_zero_f32]
  refine congrArg (fun z => max (z + b (ix2 (0 : Fin 1) o)) 0) (Finset.sum_congr rfl fun k _ => ?_)
  show (broadcastTo S1024x256 d broadcasts_S1024x1_S1024x256 (ix2 r k) * acc (ix2 r k)
      + broadcastTo S1024x256 (mulf d d) broadcasts_S1024x1_S1024x256 (ix2 r k) * x (ix2 r k)) * w (ix2 k o) = _
  rw [Column.broadcastTo_a1_ab_apply, Column.broadcastTo_a1_ab_apply]
  rfl

/-! ## The windows' blocks as entries of their arrays -/

/-- The block index of every window at point `t` = (i, j), the column coordinate minor: the adjacency tile is block
    (i, j); the scaled feature rows are row block j; the own features, the degree factors and the output are row
    block i; the weights and the bias are whole. -/
theorem blk_index : ∀ t : Fin cfg1.N,
    win1_0.index t 0 = t.val / 4 ∧ win1_0.index t 1 = t.val % 4
    ∧ win1_1.index t 0 = t.val % 4 ∧ win1_1.index t 1 = 0
    ∧ win1_2.index t 0 = t.val / 4 ∧ win1_2.index t 1 = 0
    ∧ win1_3.index t 0 = t.val / 4 ∧ win1_3.index t 1 = 0
    ∧ win1_4.index t 0 = 0 ∧ win1_4.index t 1 = 0
    ∧ win1_5.index t 0 = 0 ∧ win1_5.index t 1 = 0
    ∧ win1_6.index t 0 = t.val / 4 ∧ win1_6.index t 1 = 0 :=
  (by decide +kernel : ∀ t : Fin grid1.N,
    win1_0.index t 0 = t.val / 4 ∧ win1_0.index t 1 = t.val % 4
    ∧ win1_1.index t 0 = t.val % 4 ∧ win1_1.index t 1 = 0
    ∧ win1_2.index t 0 = t.val / 4 ∧ win1_2.index t 1 = 0
    ∧ win1_3.index t 0 = t.val / 4 ∧ win1_3.index t 1 = 0
    ∧ win1_4.index t 0 = 0 ∧ win1_4.index t 1 = 0
    ∧ win1_5.index t 0 = 0 ∧ win1_5.index t 1 = 0
    ∧ win1_6.index t 0 = t.val / 4 ∧ win1_6.index t 1 = 0)

/-- Entry (r, l) of window `w`'s block at point `t` is the array's entry at (block row × rows + r, block column × columns + l). -/
theorem blk0_apply (c : Dev nD) (t : Fin cfg1.N) (r : Fin 1024) (l : Fin 2048)
    (hR : 1024 * (t.val / 4) + r.val < 8192) (hC : 2048 * (t.val % 4) + l.val < 8192) :
    (blk V c 0 t : FVec Ideal S1024x2048 .f32) (ix2 r l)
      = (V c main_arg1 : FVec Ideal S8192x8192 .f32) (ix2 ⟨1024 * (t.val / 4) + r.val, hR⟩ ⟨2048 * (t.val % 4) + l.val, hC⟩) := by
  unfold blk
  show (V c main_arg1 : FVec Ideal S8192x8192 .f32) (((cfg1.win 0).blk t).view.emb (ix2 r l)) = _
  refine congrArg (V c main_arg1 : FVec Ideal S8192x8192 .f32) (funext fun a => Fin.ext ?_)
  obtain ⟨e0, e1, -⟩ := blk_index t
  match a with
  | ⟨0, _⟩ => show win1_0.index t 0 * 1024 + 1 * r.val = 1024 * (t.val / 4) + r.val; rw [e0]; omega
  | ⟨1, _⟩ => show win1_0.index t 1 * 2048 + 1 * l.val = 2048 * (t.val % 4) + l.val; rw [e1]; omega

theorem blk1_apply (c : Dev nD) (t : Fin cfg1.N) (l : Fin 2048) (k : Fin 256) (hC : 2048 * (t.val % 4) + l.val < 8192) :
    (blk V c 1 t : FVec Ideal S2048x256 .bf16) (ix2 l k)
      = (V c main_v3 : FVec Ideal S8192x256 .bf16) (ix2 ⟨2048 * (t.val % 4) + l.val, hC⟩ k) := by
  unfold blk
  show (V c main_v3 : FVec Ideal S8192x256 .bf16) (((cfg1.win 1).blk t).view.emb (ix2 l k)) = _
  refine congrArg (V c main_v3 : FVec Ideal S8192x256 .bf16) (funext fun a => Fin.ext ?_)
  obtain ⟨-, -, e0, e1, -⟩ := blk_index t
  match a with
  | ⟨0, _⟩ => show win1_1.index t 0 * 2048 + 1 * l.val = 2048 * (t.val % 4) + l.val; rw [e0]; omega
  | ⟨1, _⟩ => show win1_1.index t 1 * 256 + 1 * k.val = k.val; rw [e1]; omega

theorem blk2_apply (c : Dev nD) (t : Fin cfg1.N) (r : Fin 1024) (k : Fin 256) (hR : 1024 * (t.val / 4) + r.val < 8192) :
    (blk V c 2 t : FVec Ideal S1024x256 .f32) (ix2 r k)
      = (V c main_arg0 : FVec Ideal S8192x256 .f32) (ix2 ⟨1024 * (t.val / 4) + r.val, hR⟩ k) := by
  unfold blk
  show (V c main_arg0 : FVec Ideal S8192x256 .f32) (((cfg1.win 2).blk t).view.emb (ix2 r k)) = _
  refine congrArg (V c main_arg0 : FVec Ideal S8192x256 .f32) (funext fun a => Fin.ext ?_)
  obtain ⟨-, -, -, -, e0, e1, -⟩ := blk_index t
  match a with
  | ⟨0, _⟩ => show win1_2.index t 0 * 1024 + 1 * r.val = 1024 * (t.val / 4) + r.val; rw [e0]; omega
  | ⟨1, _⟩ => show win1_2.index t 1 * 256 + 1 * k.val = k.val; rw [e1]; omega

theorem blk3_apply (c : Dev nD) (t : Fin cfg1.N) (r : Fin 1024) (u : Fin 1) (hR : 1024 * (t.val / 4) + r.val < 8192) :
    (blk V c 3 t : FVec Ideal S1024x1 .f32) (ix2 r u)
      = (V c main_v0 : FVec Ideal S8192x1 .f32) (ix2 ⟨1024 * (t.val / 4) + r.val, hR⟩ u) := by
  unfold blk
  show (V c main_v0 : FVec Ideal S8192x1 .f32) (((cfg1.win 3).blk t).view.emb (ix2 r u)) = _
  refine congrArg (V c main_v0 : FVec Ideal S8192x1 .f32) (funext fun a => Fin.ext ?_)
  obtain ⟨-, -, -, -, -, -, e0, e1, -⟩ := blk_index t
  match a with
  | ⟨0, _⟩ => show win1_3.index t 0 * 1024 + 1 * r.val = 1024 * (t.val / 4) + r.val; rw [e0]; omega
  | ⟨1, _⟩ => show win1_3.index t 1 * 1 + 1 * u.val = u.val; rw [e1]; omega

theorem blk4_apply (c : Dev nD) (t : Fin cfg1.N) (k : Fin 256) (o : Fin 256) :
    (blk V c 4 t : FVec Ideal S256x256 .bf16) (ix2 k o) = (V c main_v4 : FVec Ideal S256x256 .bf16) (ix2 k o) := by
  unfold blk
  show (V c main_v4 : FVec Ideal S256x256 .bf16) (((cfg1.win 4).blk t).view.emb (ix2 k o)) = _
  refine congrArg (V c main_v4 : FVec Ideal S256x256 .bf16) (funext fun a => Fin.ext ?_)
  obtain ⟨-, -, -, -, -, -, -, -, e0, e1, -⟩ := blk_index t
  match a with
  | ⟨0, _⟩ => show win1_4.index t 0 * 256 + 1 * k.val = k.val; rw [e0]; omega
  | ⟨1, _⟩ => show win1_4.index t 1 * 256 + 1 * o.val = o.val; rw [e1]; omega

theorem blk5_apply (c : Dev nD) (t : Fin cfg1.N) (u : Fin 1) (o : Fin 256) :
    (blk V c 5 t : FVec Ideal S1x256 .f32) (ix2 u o) = (V c main_v5 : FVec Ideal S1x256 .f32) (ix2 u o) := by
  unfold blk
  show (V c main_v5 : FVec Ideal S1x256 .f32) (((cfg1.win 5).blk t).view.emb (ix2 u o)) = _
  refine congrArg (V c main_v5 : FVec Ideal S1x256 .f32) (funext fun a => Fin.ext ?_)
  obtain ⟨-, -, -, -, -, -, -, -, -, -, e0, e1, -⟩ := blk_index t
  match a with
  | ⟨0, _⟩ => show win1_5.index t 0 * 1 + 1 * u.val = u.val; rw [e0]; omega
  | ⟨1, _⟩ => show win1_5.index t 1 * 256 + 1 * o.val = o.val; rw [e1]; omega

end Cert.KernelIdeal.Gcn

end
-- ==== Proof.GcnSum.lean ====
/-
  The aggregation pass's result array. Along a row of column blocks entry (r, k) of the accumulator holds row
  `R = 1024 i + r` of the adjacency matrix contracted with column k of the scaled features over the columns seen so
  far: after column block `j` the first `2048 (j + 1)` of them — by induction on the point, a first-column point
  starting from zero and every later point adding its tile's contraction. After the last column block the contraction
  runs over all 8192 columns, and the block written back is the rectified dense layer of the scaled aggregate plus
  the self-loop term. The row blocks' write-backs tile the [8192, 256] result array.
-/
import proofs.«147230_j21835613732936_2_alg».proof.Proof.GcnValue
import Idealize.ShloMosaic.Lib.Pipeline.Value

set_option maxRecDepth 16384

noncomputable section

namespace Cert.KernelIdeal.Gcn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (V : (c : Dev nD) → (b : Ref sig .tc) → Buf (Elt Ideal) ((c : Thread nD τ).loc b))

/-! ## A row against a column over the first columns -/

/-- Row `R` of `M` contracted with column `k` of `Y` over the first `n` positions. -/
def dotPrefix (M : FVec Ideal S8192x8192 .f32) (Y : FVec Ideal S8192x256 .bf16) (R : Fin 8192) (k : Fin 256) (n : ℕ) : EReal :=
  ∑ col ∈ Finset.range n, if h : col < 8192 then M (ix2 R ⟨col, h⟩) * Y (ix2 ⟨col, h⟩ k) else 0

theorem dotPrefix_zero (M : FVec Ideal S8192x8192 .f32) (Y : FVec Ideal S8192x256 .bf16) (R : Fin 8192) (k : Fin 256) :
    dotPrefix M Y R k 0 = 0 := by
  unfold dotPrefix; rw [Finset.range_zero, Finset.sum_empty]

theorem dotPrefix_full (M : FVec Ideal S8192x8192 .f32) (Y : FVec Ideal S8192x256 .bf16) (R : Fin 8192) (k : Fin 256) :
    dotPrefix M Y R k 8192 = ∑ cc : Fin 8192, M (ix2 R cc) * Y (ix2 cc k) := by
  unfold dotPrefix
  rw [Finset.sum_range]
  exact Finset.sum_congr rfl fun cc _ => dif_pos cc.isLt

/-- Adding the next 2048 positions. -/
theorem dotPrefix_step (M : FVec Ideal S8192x8192 .f32) (Y : FVec Ideal S8192x256 .bf16) (R : Fin 8192) (k : Fin 256)
    (j : ℕ) (s : EReal) (hs : s = dotPrefix M Y R k (2048 * j)) (f : Fin 2048 → EReal)
    (hf : ∀ l : Fin 2048, f l = if h : 2048 * j + l.val < 8192
      then M (ix2 R ⟨2048 * j + l.val, h⟩) * Y (ix2 ⟨2048 * j + l.val, h⟩ k) else 0) :
    s + ∑ l, f l = dotPrefix M Y R k (2048 * (j + 1)) := by
  subst hs
  unfold dotPrefix
  rw [show 2048 * (j + 1) = 2048 * j + 2048 from by ring, Finset.sum_range_add,
    Finset.sum_range (fun x => if h : 2048 * j + x < 8192 then M (ix2 R ⟨2048 * j + x, h⟩) * Y (ix2 ⟨2048 * j + x, h⟩ k) else 0)]
  exact congrArg (_ + ·) (Finset.sum_congr rfl fun l _ => hf l)

/-- The adjacency matrix and the scaled features as the pass finds them, and the two blocks of a point, as
    matrices of extended reals. -/
def adjE (c : Dev nD) : FVec Ideal S8192x8192 .f32 := V c main_arg1
def xsE (c : Dev nD) : FVec Ideal S8192x256 .bf16 := V c main_v3
def tileE (c : Dev nD) (t : Fin cfg1.N) : FVec Ideal S1024x2048 .f32 := blk V c 0 t
def rowsE (c : Dev nD) (t : Fin cfg1.N) : FVec Ideal S2048x256 .bf16 := blk V c 1 t

/-- One term of a point's contraction, as the arrays' entries of row `R` in column block `j`. -/
theorem term_entry (c : Dev nD) (t : Fin cfg1.N) (r : Fin 1024) (l : Fin 2048) (k : Fin 256) (R : Fin 8192)
    (hR : R.val = 1024 * (t.val / 4) + r.val) (j : ℕ) (hj : t.val % 4 = j) :
    tileE V c t (ix2 r l) * rowsE V c t (ix2 l k)
      = if h : 2048 * j + l.val < 8192
        then adjE V c (ix2 R ⟨2048 * j + l.val, h⟩) * xsE V c (ix2 ⟨2048 * j + l.val, h⟩ k) else 0 := by
  subst hj
  unfold tileE rowsE adjE xsE
  have hl := l.isLt
  have hm : t.val % 4 < 4 := Nat.mod_lt _ (by norm_num)
  have hC : 2048 * (t.val % 4) + l.val < 8192 := by omega
  have hR' : 1024 * (t.val / 4) + r.val < 8192 := hR ▸ R.isLt
  rw [dif_pos hC, blk0_apply V c t r l hR' hC, blk1_apply V c t l k hC]
  have hRR : (⟨1024 * (t.val / 4) + r.val, hR'⟩ : Fin 8192) = R := Fin.ext hR.symm
  rw [hRR]

/-! ## Along the grid -/

/-- After position `n` entry (r, k) of the accumulator is row `R` of the matrix contracted with column `k` of the
    scaled features over the first `2048 (n % 4 + 1)` positions, `R = 1024 (n / 4) + r`. -/
theorem acc_inv (c : Dev nD) : ∀ (n : ℕ) (hn : n < cfg1.N) (r : Fin 1024) (k : Fin 256) (R : Fin 8192),
    R.val = 1024 * (n / 4) + r.val →
    accAt V c n hn (ix2 r k) = dotPrefix (V c main_arg1 : FVec Ideal S8192x8192 .f32) (V c main_v3 : FVec Ideal S8192x256 .bf16) R k (2048 * (n % 4 + 1)) := by
  intro n
  induction n with
  | zero =>
    intro hn r k R hR
    have e : accAt V c 0 hn = accFirst V c ⟨0, hn⟩ ((first_iff ⟨0, hn⟩).mpr (Nat.zero_mod _)) (fun h => by have := (last_iff ⟨0, hn⟩).mp h; dsimp only at this; omega) := rfl
    rw [e, accFirst_eq, pay2_apply, pay1_apply]
    exact dotPrefix_step _ _ R k 0 0 (dotPrefix_zero _ _ _ _).symm _ (fun l => term_entry V c ⟨0, hn⟩ r l k R hR 0 (Nat.zero_mod _))
  | succ n ih =>
    intro hn r k R hR
    by_cases h0 : (n + 1) % 4 = 0
    · have h1 : ¬ (n + 1) % 4 = 3 := by omega
      have e := accAt_first V c ⟨n + 1, hn⟩ h0 h1
      dsimp only at e
      rw [e, accFirst_eq, pay2_apply, pay1_apply, h0]
      exact dotPrefix_step _ _ R k 0 0 (dotPrefix_zero _ _ _ _).symm _ (fun l => term_entry V c ⟨n + 1, hn⟩ r l k R hR 0 h0)
    · have e2 : (n + 1) % 4 = n % 4 + 1 := by omega
      have e1 : (n + 1) / 4 = n / 4 := by omega
      have hR' : R.val = 1024 * (n / 4) + r.val := by rw [← e1]; exact hR
      have IH := ih (Nat.lt_of_succ_lt hn) r k R hR'
      have body : accAt V c (n + 1) hn
          = k1_pay2 (blk V c 0 ⟨n + 1, hn⟩) (blk V c 1 ⟨n + 1, hn⟩) (accAt V c n (Nat.lt_of_succ_lt hn)) := by
        by_cases h1 : (n + 1) % 4 = 3
        · have e := accAt_last V c ⟨n + 1, hn⟩ h0 h1
          dsimp only at e
          rw [e, accLast_eq]; rfl
        · have e := accAt_mid V c ⟨n + 1, hn⟩ h0 h1
          dsimp only at e
          rw [e, accMid_eq]; rfl
      rw [body, pay2_apply, e2]
      exact dotPrefix_step _ _ R k (n % 4 + 1) _ IH _ (fun l => term_entry V c ⟨n + 1, hn⟩ r l k R hR (n % 4 + 1) e2)

/-! ## The result array -/

/-- The layer's output from the arrays the pass reads: the adjacency matrix `M`, the scaled features `Y`, the
    features `X`, the degree factors `D`, the weights `Wt`, the bias row `B`. -/
def outvec (M : FVec Ideal S8192x8192 .f32) (Y : FVec Ideal S8192x256 .bf16) (X : FVec Ideal S8192x256 .f32)
    (D : FVec Ideal S8192x1 .f32) (Wt : FVec Ideal S256x256 .bf16) (B : FVec Ideal S1x256 .f32) : FVec Ideal S8192x256 .f32 :=
  fun i => max ((∑ k : Fin 256, (D (ix2 (i 0) (0 : Fin 1)) * (∑ cc : Fin 8192, M (ix2 (i 0) cc) * Y (ix2 cc k))
      + D (ix2 (i 0) (0 : Fin 1)) * D (ix2 (i 0) (0 : Fin 1)) * X (ix2 (i 0) k)) * Wt (ix2 k (i 1))) + B (ix2 (0 : Fin 1) (i 1))) 0

theorem outvec_apply (M : FVec Ideal S8192x8192 .f32) (Y : FVec Ideal S8192x256 .bf16) (X : FVec Ideal S8192x256 .f32)
    (D : FVec Ideal S8192x1 .f32) (Wt : FVec Ideal S256x256 .bf16) (B : FVec Ideal S1x256 .f32) (r : Fin 8192) (o : Fin 256) :
    outvec M Y X D Wt B (ix2 r o)
      = max ((∑ k : Fin 256, (D (ix2 r (0 : Fin 1)) * (∑ cc : Fin 8192, M (ix2 r cc) * Y (ix2 cc k))
          + D (ix2 r (0 : Fin 1)) * D (ix2 r (0 : Fin 1)) * X (ix2 r k)) * Wt (ix2 k o)) + B (ix2 (0 : Fin 1) o)) 0 := rfl

/-- What a last-column point writes back is its block of the layer's output. -/
theorem flushed_out (c : Dev nD) (t : Fin cfg1.N) (hf : (cfg1.win 6).flush t = true) :
    (dat V c).flushed 6 t = ((cfg1.win 6).blk t).view.read (Elt Ideal)
      (outvec (V c main_arg1 : FVec Ideal S8192x8192 .f32) (V c main_v3 : FVec Ideal S8192x256 .bf16) (V c main_arg0 : FVec Ideal S8192x256 .f32) (V c main_v0 : FVec Ideal S8192x1 .f32)
        (V c main_v4 : FVec Ideal S256x256 .bf16) (V c main_v5 : FVec Ideal S1x256 .f32)) := by
  have h1 : t.val % 4 = 3 := (flush1_6 t).mp hf
  have h0 : ¬ t.val % 4 = 0 := by omega
  have hN : t.val < 32 := lt_of_lt_of_eq t.isLt N_1
  show (cfg1.win 6).cut (grid1.coords t) ((dat V c).after 6 t) = _
  rw [after_out]
  rw [show outAt V c t = outLast V c t (fun h => h0 ((first_iff t).mp h)) ((last_iff t).mpr h1)
    (accAt V c (t.val - 1) (Nat.lt_of_le_of_lt (Nat.sub_le _ _) t.isLt)) from dif_pos h1]
  rw [outLast_eq]
  funext y
  obtain ⟨r, o, rfl⟩ : ∃ (r : Fin 1024) (o : Fin 256), y = ix2 r o := ⟨y 0, y 1, eq_ix2 y⟩
  have hr := r.isLt
  have hRlt : 1024 * (t.val / 4) + r.val < 8192 := by omega
  obtain ⟨-, -, -, -, -, -, -, -, -, -, -, -, e60, e61⟩ := blk_index t
  have hrow : (((cfg1.win 6).blk t).view.emb (ix2 r o)) 0 = (⟨1024 * (t.val / 4) + r.val, hRlt⟩ : Fin 8192) := by
    apply Fin.ext
    show win1_6.index t 0 * 1024 + 1 * r.val = 1024 * (t.val / 4) + r.val
    rw [e60]; omega
  have hcol : (((cfg1.win 6).blk t).view.emb (ix2 r o)) 1 = o := by
    apply Fin.ext
    show win1_6.index t 1 * 256 + 1 * o.val = o.val
    rw [e61]; omega
  have key : ∀ k : Fin 256, k1_pay2 (F := Ideal) (blk V c 0 t) (blk V c 1 t) (accAt V c (t.val - 1) (Nat.lt_of_le_of_lt (Nat.sub_le _ _) t.isLt)) (ix2 r k)
      = ∑ cc : Fin 8192, adjE V c (ix2 ⟨1024 * (t.val / 4) + r.val, hRlt⟩ cc) * xsE V c (ix2 cc k) := by
    intro k
    have IH := acc_inv V c (t.val - 1) (Nat.lt_of_le_of_lt (Nat.sub_le _ _) t.isLt) r k ⟨1024 * (t.val / 4) + r.val, hRlt⟩
      (by show 1024 * (t.val / 4) + r.val = 1024 * ((t.val - 1) / 4) + r.val; omega)
    rw [show (t.val - 1) % 4 + 1 = 3 from by omega] at IH
    rw [pay2_apply]
    exact (dotPrefix_step _ _ ⟨1024 * (t.val / 4) + r.val, hRlt⟩ k 3 _ IH _
      (fun l => term_entry V c t r l k ⟨1024 * (t.val / 4) + r.val, hRlt⟩ rfl 3 h1)).trans (dotPrefix_full _ _ _ _)
  show k1_pay3 (F := Ideal) (blk V c 3 t) (k1_pay2 (blk V c 0 t) (blk V c 1 t) (accAt V c (t.val - 1) _)) (blk V c 2 t) (blk V c 4 t) (blk V c 5 t) (ix2 r o)
    = outvec (V c main_arg1 : FVec Ideal S8192x8192 .f32) (V c main_v3 : FVec Ideal S8192x256 .bf16) (V c main_arg0 : FVec Ideal S8192x256 .f32) (V c main_v0 : FVec Ideal S8192x1 .f32)
        (V c main_v4 : FVec Ideal S256x256 .bf16) (V c main_v5 : FVec Ideal S1x256 .f32) (((cfg1.win 6).blk t).view.emb (ix2 r o))
  rw [pay3_apply]
  unfold outvec
  rw [hrow, hcol]
  simp only [key, blk3_apply V c t r (0 : Fin 1) hRlt, blk2_apply V c t r _ hRlt, blk4_apply, blk5_apply, adjE, xsE]

/-- An index of the result array is in point `t`'s block iff each coordinate is in the block's range on its axis. -/
theorem mem_out_blk (t : Fin cfg1.N) (i : S8192x256.Idx) :
    i ∈ ((cfg1.win 6).blk t).view.set ↔ ∀ a : Fin 2, win1_6.index t a * S1024x256.size a ≤ (i a).val
      ∧ (i a).val < win1_6.index t a * S1024x256.size a + S1024x256.size a := by
  show i ∈ ((View.whole main_v6).slice (win1_6.rect t)).set ↔ _
  rw [View.set_slice_whole, Rect.mem_set_unit]
  exact Iff.rfl

/-- Every row of the result array is in the block of its row block's last-column point. -/
theorem out_cover (i : S8192x256.Idx) :
    ∃ t : Fin cfg1.N, (cfg1.win 6).flush t = true ∧ i ∈ ((cfg1.win 6).blk t).view.set := by
  have hi0 : (i 0).val < 8192 := (i 0).isLt
  have hi1 : (i 1).val < 256 := (i 1).isLt
  have hN : cfg1.N = 32 := N_1
  have ht : 4 * ((i 0).val / 1024) + 3 < cfg1.N := by omega
  refine ⟨⟨4 * ((i 0).val / 1024) + 3, ht⟩, (flush1_6 _).mpr (by show (4 * ((i 0).val / 1024) + 3) % 4 = 3; omega), ?_⟩
  rw [mem_out_blk]
  obtain ⟨-, -, -, -, -, -, -, -, -, -, -, -, e0, e1⟩ := blk_index ⟨4 * ((i 0).val / 1024) + 3, ht⟩
  dsimp only at e0
  intro a
  match a with
  | ⟨0, _⟩ =>
    show win1_6.index ⟨4 * ((i 0).val / 1024) + 3, ht⟩ 0 * 1024 ≤ (i 0).val
      ∧ (i 0).val < win1_6.index ⟨4 * ((i 0).val / 1024) + 3, ht⟩ 0 * 1024 + 1024
    rw [e0]; omega
  | ⟨1, _⟩ =>
    show win1_6.index ⟨4 * ((i 0).val / 1024) + 3, ht⟩ 1 * 256 ≤ (i 1).val
      ∧ (i 1).val < win1_6.index ⟨4 * ((i 0).val / 1024) + 3, ht⟩ 1 * 256 + 256
    rw [e1]; omega

/-- The result array after the pass: the layer's output from the arrays the pass reads. -/
theorem final_out (c : Dev nD) : (dat V c).arrAt 6 cfg1.N
    = outvec (V c main_arg1 : FVec Ideal S8192x8192 .f32) (V c main_v3 : FVec Ideal S8192x256 .bf16) (V c main_arg0 : FVec Ideal S8192x256 .f32) (V c main_v0 : FVec Ideal S8192x1 .f32)
        (V c main_v4 : FVec Ideal S256x256 .bf16) (V c main_v5 : FVec Ideal S1x256 .f32) :=
  (dat V c).arrAt_eq_of_cover 6 _ (flushed_out V c) out_cover

end Cert.KernelIdeal.Gcn

end
-- ==== Proof.KernelValue.lean ====
/-
  The kernel's result array is the layer's output `Cert.Spec.G` of the four arguments.

  The aggregation pass is entered with the adjacency matrix and the features as launched (no segment before it
  writes them), the degree factors the first pass left, and what the host stretch computed from those: the features
  scaled row by row by the degree factors, the weights and the bias row recast. Put into the aggregation pass's
  result — degree factor × (matrix row contracted with the scaled features) + degree factor² × own features,
  through the dense layer and the rectifier — this is `G` term for term: no algebra is needed on this side.
-/
import proofs.«147230_j21835613732936_2_alg».proof.Proof.Run
import proofs.«147230_j21835613732936_2_alg».proof.Proof.DegreeSum
import proofs.«147230_j21835613732936_2_alg».proof.Proof.GcnSum
import proofs.«147230_j21835613732936_2_alg».proof.Proof.Spec
import proofs.«147230_j21835613732936_2_alg».proof.Proof.LibColumn
import Idealize.ShloMosaic.Lib.ValueLayout
import Idealize.ShloMosaic.Lib.StableHlo.Run

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Idealize.ShloMosaic.StableHlo

variable (m : (ℓ : Loc nD τ sig) → Buf (Elt Ideal) ℓ) (ρ : Dev nD → PrngReg)

/-- The four arguments as launched: features, adjacency matrix, weights, bias. -/
abbrev xOf (c : Dev nD) : FVec Ideal S8192x256 .f32 := m ((c : Thread nD τ).loc main_arg0)
abbrev adjOf (c : Dev nD) : FVec Ideal S8192x8192 .f32 := m ((c : Thread nD τ).loc main_arg1)
abbrev wOf (c : Dev nD) : FVec Ideal S256x256 .f32 := m ((c : Thread nD τ).loc main_arg2)
abbrev bOf (c : Dev nD) : FVec Ideal S256 .f32 := m ((c : Thread nD τ).loc main_arg3)

/-! ## After the degree pass -/

theorem V1_d (c : Dev nD) : V1 m ρ c main_v0 = Degree.dvec (adjOf m c) :=
  (W1_arr m ρ c 1).trans (Degree.final_out (V0 m ρ) c)
theorem V1_x (c : Dev nD) : V1 m ρ c main_arg0 = xOf m c := W1_of_ne m ρ c main_arg0 (by decide)
theorem V1_w (c : Dev nD) : V1 m ρ c main_arg2 = wOf m c := W1_of_ne m ρ c main_arg2 (by decide)
theorem V1_b (c : Dev nD) : V1 m ρ c main_arg3 = bOf m c := W1_of_ne m ρ c main_arg3 (by decide)

/-! ## What the aggregation pass is entered with -/

theorem V2_adj (c : Dev nD) : V2 m ρ c main_arg1 = adjOf m c :=
  (W2_of m ρ c main_arg1 (by decide)).trans
    ((W1_arr m ρ c 0).trans (((Degree.dat (V0 m ρ) c).arrAt_in 0 rfl _).trans (Degree.A_eq (V0 m ρ) c 0)))
theorem V2_x (c : Dev nD) : V2 m ρ c main_arg0 = xOf m c := (W2_of m ρ c main_arg0 (by decide)).trans (V1_x m ρ c)
theorem V2_d (c : Dev nD) : V2 m ρ c main_v0 = Degree.dvec (adjOf m c) := (W2_of m ρ c main_v0 (by decide)).trans (V1_d m ρ c)

/-- The scaled features: the degree factors laid along the rows, times the features. -/
theorem V2_xs (c : Dev nD) : V2 m ρ c main_v3
    = (truncf .bf16 (mulf (broadcastInDim S8192x256 ![0, 1] bcast_S8192x1_S8192x256_0_1 (V1 m ρ c main_v0 : FVec Ideal S8192x1 .f32))
        (V1 m ρ c main_arg0 : FVec Ideal S8192x256 .f32)) bitsLt_bf16_f32 : FVec Ideal S8192x256 .bf16) := by
  show StableHlo.after hostOps1 (W1 m ρ c) (Proc.devRef .tc main_v3) = _
  after_results <;> rfl
theorem V2_w (c : Dev nD) : V2 m ρ c main_v4
    = (truncf .bf16 (V1 m ρ c main_arg2 : FVec Ideal S256x256 .f32) bitsLt_bf16_f32 : FVec Ideal S256x256 .bf16) := by
  show StableHlo.after hostOps1 (W1 m ρ c) (Proc.devRef .tc main_v4) = _
  after_results <;> rfl
theorem V2_b (c : Dev nD) : V2 m ρ c main_v5
    = (shapeCast S1x256 (V1 m ρ c main_arg3 : FVec Ideal S256 .f32) shapeCasts_S256_S1x256 : FVec Ideal S1x256 .f32) := by
  show StableHlo.after hostOps1 (W1 m ρ c) (Proc.devRef .tc main_v5) = _
  after_results <;> rfl

/-! ## Entry by entry -/

theorem dvec_apply (M : FVec Ideal S8192x8192 .f32) (R : Fin 8192) (u : Fin 1) :
    Degree.dvec M (ix2 R u) = Cert.Spec.dinv M R := rfl

theorem xs_apply (c : Dev nD) (cc : Fin 8192) (k : Fin 256) :
    (V2 m ρ c main_v3 : FVec Ideal S8192x256 .bf16) (ix2 cc k) = Cert.Spec.dinv (adjOf m c) cc * xOf m c (ix2 cc k) := by
  rw [V2_xs, V1_d, V1_x]
  show broadcastInDim S8192x256 ![0, 1] bcast_S8192x1_S8192x256_0_1 (Degree.dvec (adjOf m c)) (ix2 cc k) * xOf m c (ix2 cc k) = _
  rw [Column.broadcastInDim_a1_ab_apply]
  rfl

theorem w_apply (c : Dev nD) (k o : Fin 256) :
    (V2 m ρ c main_v4 : FVec Ideal S256x256 .bf16) (ix2 k o) = wOf m c (ix2 k o) := by
  rw [V2_w, V1_w]; rfl

theorem b_apply (c : Dev nD) (u : Fin 1) (o : Fin 256) :
    (V2 m ρ c main_v5 : FVec Ideal S1x256 .f32) (ix2 u o) = bOf m c (ix1 o) := by
  rw [V2_b, V1_b]
  exact shapeCast_a_1a_apply _ shapeCasts_S256_S1x256 u o

/-! ## The result -/

theorem result_eq (c : Dev nD) :
    W3 m ρ c (Proc.devRef .tc main_v6) = Cert.Spec.G (xOf m c) (adjOf m c) (wOf m c) (bOf m c) := by
  refine (W3_arr m ρ c 6).trans ((Gcn.final_out (V2 m ρ) c).trans ?_)
  rw [V2_adj, V2_x, V2_d]
  funext i
  obtain ⟨r, o, rfl⟩ : ∃ (r : Fin 8192) (o : Fin 256), i = ix2 r o := ⟨i 0, i 1, eq_ix2 i⟩
  rw [Gcn.outvec_apply, Cert.Spec.G_apply]
  unfold Cert.Spec.out Cert.Spec.agg
  simp only [dvec_apply]
  refine congrArg (fun z => max z (0 : EReal)) ?_
  refine congrArg₂ (· + ·) (Finset.sum_congr rfl fun k _ => ?_) (b_apply m ρ c (0 : Fin 1) o)
  refine congrArg₂ (· * ·) ?_ (w_apply m ρ c k o)
  refine congrArg (fun z => Cert.Spec.dinv (adjOf m c) r * z
    + Cert.Spec.dinv (adjOf m c) r * Cert.Spec.dinv (adjOf m c) r * xOf m c (ix2 r k)) ?_
  exact Finset.sum_congr rfl fun cc _ => congrArg (adjOf m c (ix2 r cc) * ·) (xs_apply m ρ c cc k)

end Cert.KernelIdeal.Run

end
-- ==== Proof.RefSideLaw.lean ====
/-
  The normalised adjacency matrix times the features, in two arrangements, and the degree factor in two spellings.

  Write `a (r, c)` for the adjacency matrix, `δ (r, c)` for the identity matrix, `d r` for the degree factor of
  row `r` and `x (c, k)` for the features. One arrangement scales the matrix with the self loops added, row by row
  and column by column, and then multiplies by the features:
  `Σ c, ((a (r, c) + δ (r, c)) * d r) * d c * x (c, k)`. The other scales the features by the neighbours' factors,
  sums over the neighbours, scales by the row's factor and adds the self-loop term:
  `d r * Σ c, a (r, c) * (d c * x (c, k)) + d r * d r * x (r, k)`. Over the real numbers these are equal by
  distributivity and `Σ c, δ (r, c) * f c = f r`; distributivity fails at the infinities of the extended reals, so the
  law is stated for arrays whose entries are real numbers.

  The row sums with the self loops added are the row sums plus one, in any commutative monoid.

  For a positive real `D` the power `D ^ (-1/2)` is the reciprocal of the square root of `D`.
-/
import Idealize.ShloMosaic.PureOps.Ideal
import Mathlib.Analysis.SpecialFunctions.Pow.Real
import Mathlib.Analysis.SpecialFunctions.Sqrt

open scoped BigOperators

noncomputable section

namespace Cert.RefSide

open Idealize.ShloMosaic

/-- The coercion from the reals to the extended reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The row sum of a matrix with the identity added is the row sum plus one. -/
theorem sum_add_eye {M : Type} [AddCommMonoid M] [One M] {n : ℕ} (a : Fin n → M) (r : Fin n) :
    (∑ c : Fin n, (a c + if r = c then 1 else 0)) = (∑ c : Fin n, a c) + 1 := by
  rw [Finset.sum_add_distrib, Finset.sum_ite_eq, if_pos (Finset.mem_univ _)]

/-- The two arrangements agree over the reals. -/
theorem agg_law_real {n : ℕ} (a : Fin n → ℝ) (d : Fin n → ℝ) (x : Fin n → ℝ) (r : Fin n) :
    (∑ c : Fin n, ((a c + if r = c then 1 else 0) * d r) * d c * x c)
      = d r * (∑ c : Fin n, a c * (d c * x c)) + d r * d r * x r := by
  have h : ∀ c, ((a c + if r = c then 1 else 0) * d r) * d c * x c
      = d r * (a c * (d c * x c)) + if r = c then d r * d c * x c else 0 := fun c => by
    split_ifs <;> ring
  rw [Finset.sum_congr rfl fun c _ => h c, Finset.sum_add_distrib, ← Finset.mul_sum, Finset.sum_ite_eq,
    if_pos (Finset.mem_univ _)]

/-- The two arrangements agree on extended reals that are real numbers. -/
theorem agg_law {n : ℕ} (a : Fin n → EReal) (d : Fin n → EReal) (x : Fin n → EReal) (r : Fin n)
    (ha : ∀ c, ∃ t : ℝ, a c = (t : EReal)) (hd : ∀ c, ∃ t : ℝ, d c = (t : EReal)) (hx : ∀ c, ∃ t : ℝ, x c = (t : EReal)) :
    (∑ c : Fin n, ((a c + if r = c then 1 else 0) * d r) * d c * x c)
      = d r * (∑ c : Fin n, a c * (d c * x c)) + d r * d r * x r := by
  choose a' ha using ha
  choose d' hd using hd
  choose x' hx using hx
  have hδ : ∀ c, (if r = c then (1 : EReal) else 0) = ((if r = c then (1 : ℝ) else 0 : ℝ) : EReal) := fun c => by
    split_ifs <;> simp
  simp only [ha, hd, hx, hδ, ← EReal.coe_add, ← EReal.coe_mul, ← coe_sum]
  exact congrArg _ (agg_law_real a' d' x' r)

/-- The pattern `0xBF000000` is minus one half. -/
theorem ofBits_neg_half_f32 : Ideal.ofBits .f32 0xBF000000#32 = ((-(1 / 2) : ℝ) : EReal) := by
  simp [Ideal.ofBits, Ideal.ieee, -EReal.coe_mul, -EReal.coe_neg]; norm_num

/-- For a positive real degree the power `-1/2` is the reciprocal square root. -/
theorem pow_neg_half_eq_rsqrt {D : ℝ} (hD : 0 < D) :
    Ideal.pow (D : EReal) (Ideal.ofBits .f32 0xBF000000#32) = Ideal.rsqrt (D : EReal) := by
  rw [ofBits_neg_half_f32, Ideal.pow_coe_coe, Ideal.rsqrt_coe, if_neg (not_lt.2 hD.le), if_neg hD.ne']
  congr 1
  show D ^ (-(1 / 2) : ℝ) = (Real.sqrt D)⁻¹
  rw [Real.rpow_neg hD.le, Real.sqrt_eq_rpow]

end Cert.RefSide

end
-- ==== Proof.RefSideRead.lean ====
/-
  The reference, read at an index.

  The reference adds the identity matrix to the adjacency matrix, sums each row (the degree), raises each degree to
  the power minus one half (the degree factor), scales the matrix by the factor of the row and by the factor of the
  column, multiplies by the features, then by the weights, adds the bias and rectifies. Each stage is read here at an
  index, from the stage-by-stage reading of the reference's run.
-/
import proofs.«147230_j21835613732936_2_alg».proof.Proof.Gen.ReferenceIdeal.Read
import proofs.«147230_j21835613732936_2_alg».proof.Proof.Spec
import proofs.«147230_j21835613732936_2_alg».proof.Proof.RefSideLaw
import Idealize.ShloMosaic.Lib.IdealHost

open scoped BigOperators

noncomputable section

namespace Cert.RefSide

open Cert.ReferenceIdeal Cert.ReferenceIdeal.Gen Cert.ReferenceIdeal.Read
open Idealize.ShloMosaic Idealize.ShloMosaic.ValueIdx

/-- The identity matrix as the reference spells it: the row number compared with the column number, the bit read as a
    float. Both numbers are below `2 ^ 32`, so the words are equal exactly when the numbers are. -/
theorem eye_entry (r c : Fin 8192) :
    FloatOps.uitofp (F := Ideal) .f32 (IntOp.cmpi .eq (IntOp.addi (BitVec.ofNat 32 r.val) 0#32) (BitVec.ofNat 32 c.val))
      = if r = c then (1 : EReal) else 0 := by
  have hadd : IntOp.addi (BitVec.ofNat 32 r.val) 0#32 = BitVec.ofNat 32 r.val := BitVec.add_zero _
  rw [hadd]
  by_cases h : r = c
  · subst h
    rw [if_pos rfl, IntOp.cmpi_eq.2 rfl]
    show (((1#1 : BitVec 1).toNat : ℝ) : EReal) = 1
    simp
  · have hne : IntOp.cmpi .eq (BitVec.ofNat 32 r.val) (BitVec.ofNat 32 c.val) = 0#1 :=
      eq_zero_of_ne_one fun e => h (Fin.ext (by
        have := congrArg BitVec.toNat (IntOp.cmpi_eq.1 e)
        simp only [BitVec.toNat_ofNat] at this
        have hr := r.isLt; have hc := c.isLt
        omega))
    rw [if_neg h, hne]
    show (((0#1 : BitVec 1).toNat : ℝ) : EReal) = 0
    simp

/-- The adjacency matrix with the self loops added. -/
theorem v6_apply (adj : FVec Ideal S8192x8192 .f32) (r c : Fin 8192) :
    val_main_v6 (F := Ideal) adj (ix2 r c) = adj (ix2 r c) + if r = c then 1 else 0 := by
  rw [val_main_v6_apply, val_main_v5_apply, val_main_v4_apply, val_main_v3_apply, val_main_v0_apply,
    val_main_v2_apply, val_main_v1_apply, val_main_c_apply]
  exact congrArg (adj (ix2 r c) + ·) (eye_entry r c)

/-- The reference's degree of a row is the row sum plus one. -/
theorem v7_apply (adj : FVec Ideal S8192x8192 .f32) (r : Fin 8192) :
    val_main_v7 (F := Ideal) adj (ix1 r) = Cert.Spec.deg adj r := by
  have hidx : ∀ k : Fin 8192, idx_main_v7 (ix1 r) k = ix2 r k := fun k =>
    funext fun a => Fin.ext (by match a with | ⟨0, _⟩ => rfl | ⟨1, _⟩ => rfl)
  rw [val_main_v7_apply, val_main_cst_apply]
  simp only [hidx, v6_apply]
  rw [Ideal.ofBits_def, Ideal.ofBits_zero_f32, zero_add, sum_add_eye]
  rfl

/-- The reference's degree factor of a row is the degree to the power minus one half. -/
theorem v9_apply (adj : FVec Ideal S8192x8192 .f32) (r : Fin 8192) :
    val_main_v9 (F := Ideal) adj (ix1 r) = Ideal.pow (Cert.Spec.deg adj r) (Ideal.ofBits .f32 0xBF000000#32) := by
  rw [val_main_v9_apply, v7_apply, val_main_v8_apply, val_main_cst_0_apply]
  rfl

/-- The normalised matrix: the entry with its self loop, times the row's factor, times the column's factor. -/
theorem v15_apply (adj : FVec Ideal S8192x8192 .f32) (r c : Fin 8192) :
    val_main_v15 (F := Ideal) adj (ix2 r c)
      = ((adj (ix2 r c) + if r = c then 1 else 0) * val_main_v9 (F := Ideal) adj (ix1 r)) * val_main_v9 (F := Ideal) adj (ix1 c) := by
  have h1 : idx_main_v10 (idx_main_v11 (ix2 r c)) = ix1 r :=
    funext fun a => Fin.ext (by match a with | ⟨0, _⟩ => rfl)
  have h2 : idx_main_v13 (idx_main_v14 (ix2 r c)) = ix1 c :=
    funext fun a => Fin.ext (by match a with | ⟨0, _⟩ => rfl)
  rw [val_main_v15_apply, val_main_v12_apply, val_main_v11_apply, val_main_v10_apply, val_main_v14_apply,
    val_main_v13_apply, v6_apply, h1, h2]
  rfl

/-- The normalised matrix times the features. -/
theorem v16_apply (x : FVec Ideal S8192x256 .f32) (adj : FVec Ideal S8192x8192 .f32) (r : Fin 8192) (k : Fin 256) :
    val_main_v16 (F := Ideal) x adj (ix2 r k) = ∑ c : Fin 8192, val_main_v15 (F := Ideal) adj (ix2 r c) * x (ix2 c k) := by
  rw [val_main_v16_apply]
  refine Finset.sum_congr rfl fun c _ => ?_
  have hl : lidx_main_v16 (ix2 r k) c = ix2 r c :=
    funext fun a => Fin.ext (by match a with | ⟨0, _⟩ => rfl | ⟨1, _⟩ => rfl)
  have hr : ridx_main_v16 (ix2 r k) c = ix2 c k :=
    funext fun a => Fin.ext (by match a with | ⟨0, _⟩ => rfl | ⟨1, _⟩ => rfl)
  rw [hl, hr]

/-- The rectified dense layer of the product. -/
theorem v21_apply (x : FVec Ideal S8192x256 .f32) (adj : FVec Ideal S8192x8192 .f32) (W : FVec Ideal S256x256 .f32)
    (b : FVec Ideal S256 .f32) (r : Fin 8192) (o : Fin 256) :
    val_main_v21 (F := Ideal) x adj W b (ix2 r o)
      = max ((∑ k : Fin 256, val_main_v16 (F := Ideal) x adj (ix2 r k) * W (ix2 k o)) + b (ix1 o)) 0 := by
  have hl : ∀ k : Fin 256, lidx_main_v17 (ix2 r o) k = ix2 r k := fun k =>
    funext fun a => Fin.ext (by match a with | ⟨0, _⟩ => rfl | ⟨1, _⟩ => rfl)
  have hr : ∀ k : Fin 256, ridx_main_v17 (ix2 r o) k = ix2 k o := fun k =>
    funext fun a => Fin.ext (by match a with | ⟨0, _⟩ => rfl | ⟨1, _⟩ => rfl)
  have hb : idx_main_v18 (idx_main_v19 (ix2 r o)) = ix1 o :=
    funext fun a => Fin.ext (by match a with | ⟨0, _⟩ => rfl)
  rw [val_main_v21_apply, val_main_v20_apply, val_main_v17_apply, val_main_v19_apply, val_main_v18_apply,
    val_main_call0_v0_apply, val_main_call0_cst_apply]
  simp only [hl, hr, hb]
  rw [Ideal.ofBits_def, Ideal.ofBits_zero_f32]
  rfl

end Cert.RefSide

end
-- ==== Proof.RefSidePre.lean ====
/-
  The precondition, read back.

  The precondition says five things of the four argument arrays, each a conjunction over all entries: every entry of
  the features, of the adjacency matrix, of the weights and of the bias has absolute value below plus infinity, and
  every row sum of the adjacency matrix plus one is above zero. An extended real whose absolute value is below plus
  infinity is a real number; so under the precondition every entry of every argument is a real number, and every
  degree (row sum plus one, the one being the self loop) is positive.
-/
import proofs.«147230_j21835613732936_2_alg».proof.Proof.Gen.Pre_finite_inputs
import Idealize.ShloMosaic.Lib.ReduceAll
import Idealize.ShloMosaic.Lib.IdealHost
import Idealize.ShloMosaic.Lib.ValueIdx

noncomputable section

namespace Cert.RefSide

open Idealize.ShloMosaic Idealize.ShloMosaic.ValueIdx Cert.Pre_finite_inputs

instance : Subsingleton S_.Idx := ⟨fun _ _ => funext fun d => d.elim0⟩

theorem ofBool_eq_one (b : Bool) : BitVec.ofBool b = 1#1 ↔ b = true := by cases b <;> decide

/-- The pattern of plus infinity. -/
theorem ofBits_inf_f32 : Ideal.ofBits .f32 0x7F800000#32 = ⊤ := by simp [Ideal.ofBits, Ideal.ieee]

/-- An extended real whose absolute value is below plus infinity is a real number. -/
theorem real_of_abs_lt_top (v : EReal)
    (h : Ideal.cmp .olt (max v (-v)) (Ideal.ofBits .f32 0x7F800000#32) = 1#1) : ∃ r : ℝ, v = (r : EReal) := by
  rw [ofBits_inf_f32] at h
  induction v using EReal.rec with
  | bot => simp [Ideal.cmp] at h
  | top => simp [Ideal.cmp] at h
  | coe r => exact ⟨r, rfl⟩

/-- Every entry of an array is a real number. -/
def AllReal {s : Shape} (v : s.Idx → EReal) : Prop := ∀ i, ∃ r : ℝ, v i = (r : EReal)

/-- The precondition decoded: every entry of the four arguments is a real number and every degree is positive. -/
theorem pre_decode (x : FVec Ideal S8192x256 .f32) (adj : FVec Ideal S8192x8192 .f32) (W : FVec Ideal S256x256 .f32)
    (b : FVec Ideal S256 .f32) (hpre : fn (F := Ideal) x adj W b = (fun _ => 1#1)) :
    AllReal x ∧ AllReal adj ∧ AllReal W ∧ AllReal b ∧ ∀ r : Fin 8192, 0 < (∑ c : Fin 8192, adj (ix2 r c)) + 1 := by
  have e := congrFun hpre ix0
  dsimp only [fn, fn_part1] at e
  simp only [andi, IntOp.andi_eq_one] at e
  obtain ⟨⟨⟨⟨hx, ha⟩, hW⟩, hb⟩, hd⟩ := e
  refine ⟨fun i => ?_, fun i => ?_, fun i => ?_, fun i => ?_, fun r => ?_⟩
  · exact real_of_abs_lt_top _ (Host.reduce_andi_all _ _ _ _ _ hx i)
  · exact real_of_abs_lt_top _ (Host.reduce_andi_all _ _ _ _ _ ha i)
  · exact real_of_abs_lt_top _ (Host.reduce_andi_all _ _ _ _ _ hW i)
  · exact real_of_abs_lt_top _ (Host.reduce_andi_all _ _ _ _ _ hb i)
  · have h := Host.reduce_andi_all _ _ _ _ _ hd (ix1 r)
    change Ideal.cmp .ogt (Ideal.hostReduceAdd Facts.reducesTo_S8192x8192_S8192_d1 adj (Ideal.ofBits .f32 0x00000000#32) (ix1 r)
      + Ideal.ofBits .f32 0x3F800000#32) (Ideal.ofBits .f32 0x00000000#32) = 1#1 at h
    rw [Ideal.hostReduceAdd_single _ (by decide), Ideal.ofBits_zero_f32, Ideal.ofBits_one_f32, zero_add] at h
    simp only [Ideal.cmp, ofBool_eq_one, decide_eq_true_eq] at h
    refine lt_of_lt_of_eq h (congrArg (· + 1) (Finset.sum_congr rfl fun k _ => ?_))
    exact congrArg adj (funext fun a => Fin.ext (by match a with | ⟨0, _⟩ => rfl | ⟨1, _⟩ => rfl))

end Cert.RefSide

end
-- ==== Proof.RefSide.lean ====
/-
  The reference computes the layer's specification.

  Under the precondition every entry of the arguments is a real number and every degree is positive. Then the
  reference's degree factor, the degree to the power minus one half, is the reciprocal square root of the degree, a
  real number; and the normalised adjacency matrix (self loops added, scaled by the row's and the column's factor)
  times the features is the aggregation the specification states: the row's factor times the sum over the neighbours
  of the neighbours' scaled features, plus the self-loop term. The dense layer, the bias and the rectifier are the
  same on both sides.
-/
import proofs.«147230_j21835613732936_2_alg».proof.Proof.RefSideRead
import proofs.«147230_j21835613732936_2_alg».proof.Proof.RefSidePre

open scoped BigOperators

noncomputable section

namespace Cert.RefSide

open Cert.ReferenceIdeal Cert.ReferenceIdeal.Gen Cert.ReferenceIdeal.Read
open Idealize.ShloMosaic Idealize.ShloMosaic.ValueIdx

/-- Under the precondition's two facts about the adjacency matrix, a row's degree is a positive real number. -/
theorem deg_real_pos (adj : FVec Ideal S8192x8192 .f32) (ha : AllReal adj)
    (hp : ∀ r : Fin 8192, 0 < (∑ c : Fin 8192, adj (ix2 r c)) + 1) (r : Fin 8192) :
    ∃ D : ℝ, 0 < D ∧ Cert.Spec.deg adj r = (D : EReal) := by
  choose a' ha using ha
  have e : (∑ c : Fin 8192, adj (ix2 r c)) + 1 = (((∑ c : Fin 8192, a' (ix2 r c)) + 1 : ℝ) : EReal) := by
    rw [EReal.coe_add, coe_sum, EReal.coe_one]
    simp only [ha]
  refine ⟨(∑ c : Fin 8192, a' (ix2 r c)) + 1, ?_, e⟩
  have h := hp r
  rw [e] at h
  exact EReal.coe_pos.1 h

/-- The reference's degree factor is the specification's. -/
theorem v9_eq_dinv (adj : FVec Ideal S8192x8192 .f32) (ha : AllReal adj)
    (hp : ∀ r : Fin 8192, 0 < (∑ c : Fin 8192, adj (ix2 r c)) + 1) (r : Fin 8192) :
    val_main_v9 (F := Ideal) adj (ix1 r) = Cert.Spec.dinv adj r := by
  obtain ⟨D, hD, e⟩ := deg_real_pos adj ha hp r
  rw [v9_apply]
  unfold Cert.Spec.dinv
  rw [e]
  exact pow_neg_half_eq_rsqrt hD

/-- The degree factor is a real number. -/
theorem dinv_real (adj : FVec Ideal S8192x8192 .f32) (ha : AllReal adj)
    (hp : ∀ r : Fin 8192, 0 < (∑ c : Fin 8192, adj (ix2 r c)) + 1) (r : Fin 8192) :
    ∃ t : ℝ, Cert.Spec.dinv adj r = (t : EReal) := by
  obtain ⟨D, hD, e⟩ := deg_real_pos adj ha hp r
  unfold Cert.Spec.dinv
  rw [e, Ideal.rsqrt_coe, if_neg (not_lt.2 hD.le), if_neg hD.ne']
  exact ⟨_, rfl⟩

/-- The normalised matrix times the features is the specification's aggregation. -/
theorem v16_eq_agg (x : FVec Ideal S8192x256 .f32) (adj : FVec Ideal S8192x8192 .f32) (hx : AllReal x) (ha : AllReal adj)
    (hp : ∀ r : Fin 8192, 0 < (∑ c : Fin 8192, adj (ix2 r c)) + 1) (r : Fin 8192) (k : Fin 256) :
    val_main_v16 (F := Ideal) x adj (ix2 r k) = Cert.Spec.agg x adj r k := by
  rw [v16_apply]
  simp only [v15_apply, v9_eq_dinv adj ha hp]
  exact agg_law (fun c => adj (ix2 r c)) (Cert.Spec.dinv adj) (fun c => x (ix2 c k)) r (fun c => ha _)
    (dinv_real adj ha hp) (fun c => hx _)

/-- The reference's last stage is the specification. -/
theorem val_eq_G (x : FVec Ideal S8192x256 .f32) (adj : FVec Ideal S8192x8192 .f32) (W : FVec Ideal S256x256 .f32)
    (b : FVec Ideal S256 .f32) (hpre : Cert.Pre_finite_inputs.fn (F := Ideal) x adj W b = (fun _ => 1#1)) :
    val_main_v21 (F := Ideal) x adj W b = Cert.Spec.G x adj W b := by
  obtain ⟨hx, ha, -, -, hp⟩ := pre_decode x adj W b hpre
  funext i
  obtain ⟨r, o, rfl⟩ : ∃ (r : Fin 8192) (o : Fin 256), i = ix2 r o := ⟨i 0, i 1, eq_ix2 i⟩
  rw [v21_apply, Cert.Spec.G_apply]
  simp only [v16_eq_agg x adj hx ha hp]
  rfl

/-- The reference's result, as its run states it, is the specification of the arguments. -/
theorem ref_eq_G (x : FVec Ideal S8192x256 .f32) (adj : FVec Ideal S8192x8192 .f32) (W : FVec Ideal S256x256 .f32)
    (b : FVec Ideal S256 .f32) (hpre : Cert.Pre_finite_inputs.fn (F := Ideal) x adj W b = (fun _ => 1#1)) :
    (maximumf (addf (Host.dotGeneral dot_S8192x256_S256x256_S8192x256_1_0_0_1_n_n none (Host.dotGeneral dot_S8192x8192_S8192x256_S8192x256_1_0_0_1_n_n none (mulf (mulf (addf adj (uitofp .f32 (cmpi .eq (addi (iotaInDim S8192x8192 32 0) (broadcastInDim S8192x8192 ![] bcast_S_S8192x8192 (constantI S_ 32 0#32))) (iotaInDim S8192x8192 32 1)))) (broadcastInDim S8192x8192 ![0, 1] bcast_S8192x1_S8192x8192_0_1 (broadcastInDim S8192x1 ![0] bcast_S8192_S8192x1_0 (Host.powf (Host.reduceAdd (addf adj (uitofp .f32 (cmpi .eq (addi (iotaInDim S8192x8192 32 0) (broadcastInDim S8192x8192 ![] bcast_S_S8192x8192 (constantI S_ 32 0#32))) (iotaInDim S8192x8192 32 1)))) (constant S_ .f32 0x00000000#32) reducesTo_S8192x8192_S8192_d1 h_S_) (broadcastInDim S8192 ![] bcast_S_S8192 (constant S_ .f32 0xBF000000#32)))))) (broadcastInDim S8192x8192 ![0, 1] bcast_S1x8192_S8192x8192_0_1 (broadcastInDim S1x8192 ![1] bcast_S8192_S1x8192_1 (Host.powf (Host.reduceAdd (addf adj (uitofp .f32 (cmpi .eq (addi (iotaInDim S8192x8192 32 0) (broadcastInDim S8192x8192 ![] bcast_S_S8192x8192 (constantI S_ 32 0#32))) (iotaInDim S8192x8192 32 1)))) (constant S_ .f32 0x00000000#32) reducesTo_S8192x8192_S8192_d1 h_S_) (broadcastInDim S8192 ![] bcast_S_S8192 (constant S_ .f32 0xBF000000#32)))))) x) W) (broadcastInDim S8192x256 ![0, 1] bcast_S1x256_S8192x256_0_1 (broadcastInDim S1x256 ![1] bcast_S256_S1x256_1 b))) (broadcastInDim S8192x256 ![] bcast_S_S8192x256 (constant S_ .f32 0x00000000#32)) : FVec Ideal S8192x256 .f32)
      = Cert.Spec.G x adj W b :=
  (val_main_v21_eq (F := Ideal) x adj W b).trans (val_eq_G x adj W b hpre)

end Cert.RefSide

end
-- ==== Proof.lean ====
/-
  One graph-convolution layer: the rectified dense layer of the symmetrically normalised aggregation
  D^(-1/2) (A + I) D^(-1/2) X, computed by a two-pass kernel and by a direct reference.

  The kernel's first pass sums the rows of the adjacency matrix block by block into an accumulator and leaves the
  degree factors rsqrt(row sum + 1); the host scales the features by them; the second pass accumulates the product of
  the adjacency matrix with the scaled features block by block and, at the end of each row block, scales by the row's
  degree factor, adds the self-loop term, and applies the dense layer and the rectifier. The reference forms the
  normalised matrix (A + I) with both scalings applied entry by entry and multiplies.

  Both programs run to the end from any memory, fault nowhere and leave the arguments unchanged: for the kernel, at
  the word level and over the extended reals alike, by running the two passes' bodies at a symbolic grid point in
  their three kinds (first, middle, last column block) and threading the buffers' contents through the two passes
  and the host stretch between them; for the reference by its own run.

  Over the extended reals the kernel's result is, entry by entry, the function `Cert.Spec.G` of the arguments, with no
  hypothesis. The reference's result is the same function wherever every input is finite and every degree is
  positive: there the degree factors are real, the reference's power -1/2 is the reciprocal square root, and
  distributing the row's factor over the neighbour sum and collapsing the identity matrix's row gives the kernel's
  form. Without positive degrees the two differ (a zero degree gives the kernel +∞ and the reference 0), which is why
  the precondition asks for them.
-/
import proofs.«147230_j21835613732936_2_alg».proof.Defs
import proofs.«147230_j21835613732936_2_alg».proof.Proof.Gen.Kernel
import proofs.«147230_j21835613732936_2_alg».proof.Proof.Gen.Kernel.Skeleton
import proofs.«147230_j21835613732936_2_alg».proof.Proof.Gen.Kernel.Launch
import proofs.«147230_j21835613732936_2_alg».proof.Proof.Gen.Kernel.Regions
import proofs.«147230_j21835613732936_2_alg».proof.Proof.Gen.Kernel.Points
import proofs.«147230_j21835613732936_2_alg».proof.Proof.Gen.KernelIdeal
import proofs.«147230_j21835613732936_2_alg».proof.Proof.Gen.KernelIdeal.Skeleton
import proofs.«147230_j21835613732936_2_alg».proof.Proof.Gen.KernelIdeal.Launch
import proofs.«147230_j21835613732936_2_alg».proof.Proof.Gen.KernelIdeal.Regions
import proofs.«147230_j21835613732936_2_alg».proof.Proof.Gen.KernelIdeal.Points
import proofs.«147230_j21835613732936_2_alg».proof.Proof.Gen.ReferenceIdeal
import proofs.«147230_j21835613732936_2_alg».proof.Proof.Gen.ReferenceIdeal.Run
import proofs.«147230_j21835613732936_2_alg».proof.Proof.Gen.ReferenceIdeal.Read
import proofs.«147230_j21835613732936_2_alg».proof.Proof.Gen.Pre_finite_inputs
import proofs.«147230_j21835613732936_2_alg».proof.Proof.BitsRun
import proofs.«147230_j21835613732936_2_alg».proof.Proof.KernelValue
import proofs.«147230_j21835613732936_2_alg».proof.Proof.RefSide
import Idealize.ShloMosaic.Adequacy
import Idealize.ShloMosaic.Init

noncomputable section

namespace Cert.Proof

open Idealize.ShloMosaic Idealize.SL.Sem

/-- The word-level kernel runs and leaves its arguments unchanged: its whole run, the result array's contents dropped. -/
theorem frame_k : Cert.frame_Kernel := fun m ρ _ =>
  (θ_run Cert.Kernel.defs _ _).mono (fun _ h c => (h c).2) (Cert.Kernel.Run.run (F := Bits) m ρ)

/-- The same of the kernel read over the extended reals. -/
theorem frame_ki : Cert.frame_KernelIdeal := fun m ρ _ =>
  (θ_run Cert.KernelIdeal.defs _ _).mono (fun _ h c => (h c).2) (Cert.KernelIdeal.Run.run (F := Ideal) m ρ)

/-- The reference runs and leaves its arguments unchanged: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments, both programs end with the layer's output `Cert.Spec.G` of the
    arguments: the kernel always, the reference under the precondition. -/
theorem algebraic : Cert.algebraic_KernelIdeal_ReferenceIdeal := by
  intro m ρ m' ρ' hpre hagree
  refine ⟨fun c => Cert.Spec.G (Cert.KernelIdeal.Run.xOf m c) (Cert.KernelIdeal.Run.adjOf m c)
    (Cert.KernelIdeal.Run.wOf m c) (Cert.KernelIdeal.Run.bOf m c), ?_, ?_⟩
  · exact (θ_run Cert.KernelIdeal.defs _ _).mono
      (fun _ h c => ⟨(h c).1.trans (Cert.KernelIdeal.Run.result_eq m ρ c), (h c).2⟩)
      (Cert.KernelIdeal.Run.run (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2]
    exact Cert.RefSide.ref_eq_G _ _ _ _ (hpre c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
